-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)) →
    ∃ (v0 : (c : Dev Cert.KernelIdeal.nD) → Buf (Elt Ideal) ((c.tc : Thread Cert.KernelIdeal.nD Cert.KernelIdeal.τ).loc Cert.KernelIdeal.main_v42)) (v1 : (c : Dev Cert.KernelIdeal.nD) → Buf (Elt Ideal) ((c.tc : Thread Cert.KernelIdeal.nD Cert.KernelIdeal.τ).loc Cert.KernelIdeal.main_v22_1)) (v2 : (c : Dev Cert.KernelIdeal.nD) → Buf (Elt Ideal) ((c.tc : Thread Cert.KernelIdeal.nD Cert.KernelIdeal.τ).loc Cert.KernelIdeal.main_v22_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_v22_1) = v1 c
          ∧ r.2.mem ((c.tc : Thread Cert.KernelIdeal.nD Cert.KernelIdeal.τ).loc Cert.KernelIdeal.main_v22_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v110) = v0 c
          ∧ r.2.mem ((c.tc : Thread Cert.ReferenceIdeal.nD Cert.ReferenceIdeal.τ).loc Cert.ReferenceIdeal.main_v48) = v1 c
          ∧ r.2.mem ((c.tc : Thread Cert.ReferenceIdeal.nD Cert.ReferenceIdeal.τ).loc Cert.ReferenceIdeal.main_v40) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x256 : Shape := ⟨2, ![65536, 256]⟩
abbrev S524288 : Shape := ⟨1, ![524288]⟩
abbrev S512x256 : Shape := ⟨2, ![512, 256]⟩
abbrev S512 : Shape := ⟨1, ![512]⟩
abbrev S256x512 : Shape := ⟨2, ![256, 512]⟩
abbrev S256 : Shape := ⟨1, ![256]⟩
abbrev S1024x256 : Shape := ⟨2, ![1024, 256]⟩
abbrev S1024 : Shape := ⟨1, ![1024]⟩
abbrev S128x256 : Shape := ⟨2, ![128, 256]⟩
abbrev S128 : Shape := ⟨1, ![128]⟩
abbrev S256x256 : Shape := ⟨2, ![256, 256]⟩
abbrev S256x128 : Shape := ⟨2, ![256, 128]⟩
abbrev S8x256 : Shape := ⟨2, ![8, 256]⟩
abbrev S8 : Shape := ⟨1, ![8]⟩
abbrev S_ : Shape := ⟨0, ![]⟩

class Facts : Prop where
  bcast_S_S65536x256 : S_.BroadcastsInDim S65536x256 (![] : Fin 0 → Fin S65536x256.rank)
  reducesTo_S65536x256_S_d0_1 : S65536x256.ReducesTo [0, 1] S_
  h_S_ : 0 < S_.numel
  bcast_S_S512x256 : S_.BroadcastsInDim S512x256 (![] : Fin 0 → Fin S512x256.rank)
  reducesTo_S512x256_S_d0_1 : S512x256.ReducesTo [0, 1] S_
  bcast_S_S512 : S_.BroadcastsInDim S512 (![] : Fin 0 → Fin S512.rank)
  reducesTo_S512_S_d0 : S512.ReducesTo [0] S_
  bcast_S_S256x512 : S_.BroadcastsInDim S256x512 (![] : Fin 0 → Fin S256x512.rank)
  reducesTo_S256x512_S_d0_1 : S256x512.ReducesTo [0, 1] S_
  bcast_S_S256 : S_.BroadcastsInDim S256 (![] : Fin 0 → Fin S256.rank)
  reducesTo_S256_S_d0 : S256.ReducesTo [0] S_
  bcast_S_S1024x256 : S_.BroadcastsInDim S1024x256 (![] : Fin 0 → Fin S1024x256.rank)
  reducesTo_S1024x256_S_d0_1 : S1024x256.ReducesTo [0, 1] S_
  bcast_S_S1024 : S_.BroadcastsInDim S1024 (![] : Fin 0 → Fin S1024.rank)
  reducesTo_S1024_S_d0 : S1024.ReducesTo [0] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_
  bcast_S_S256x256 : S_.BroadcastsInDim S256x256 (![] : Fin 0 → Fin S256x256.rank)
  reducesTo_S256x256_S_d0_1 : S256x256.ReducesTo [0, 1] S_
  bcast_S_S256x128 : S_.BroadcastsInDim S256x128 (![] : Fin 0 → Fin S256x128.rank)
  reducesTo_S256x128_S_d0_1 : S256x128.ReducesTo [0, 1] S_
  bcast_S_S8x256 : S_.BroadcastsInDim S8x256 (![] : Fin 0 → Fin S8x256.rank)
  reducesTo_S8x256_S_d0_1 : S8x256.ReducesTo [0, 1] S_
  bcast_S_S8 : S_.BroadcastsInDim S8 (![] : Fin 0 → Fin S8.rank)
  reducesTo_S8_S_d0 : S8.ReducesTo [0] S_

variable [Facts]

def fn_part7 {F : FTy → Type} [FloatOps F] (main_v118 : IVec S_ 1) (main_v119 : FVec F S8 .f32) : IVec S_ 1 :=
  let main_cst_46 : FVec F S_ .f32 := constant S_ .f32 0x7F800000#32
  let main_v120 : FVec F S8 .f32 := broadcastInDim S8 ![] bcast_S_S8 main_cst_46
  let main_v121 : IVec S8 1 := cmpf .olt main_v119 main_v120
  let main_c_47 : IVec S_ 1 := constantI S_ 1 1#1
  let main_v122 : IVec S_ 1 := (fun x v => Host.reduce IntOp.andi x v reducesTo_S8_S_d0 h_S_) main_v121 main_c_47
  let main_v123 : IVec S_ 1 := andi main_v118 main_v122
  main_v123

def fn_part6 {F : FTy → Type} [FloatOps F] (main_arg23 : FVec F S256x128 .f32) (main_arg24 : FVec F S256 .f32) (main_arg25 : FVec F S8x256 .f32) (main_arg26 : FVec F S8 .f32) (main_v98 : IVec S_ 1) (main_v101 : IVec S128 1) (main_c_39 : IVec S_ 1) : IVec S_ 1 :=
  let main_v102 : IVec S_ 1 := (fun x v => Host.reduce IntOp.andi x v reducesTo_S128_S_d0 h_S_) main_v101 main_c_39
  let main_v103 : IVec S_ 1 := andi main_v98 main_v102
  let main_v104 : FVec F S256x128 .f32 := Host.absf main_arg23
  let main_cst_40 : FVec F S_ .f32 := constant S_ .f32 0x7F800000#32
  let main_v105 : FVec F S256x128 .f32 := broadcastInDim S256x128 ![] bcast_S_S256x128 main_cst_40
  let main_v106 : IVec S256x128 1 := cmpf .olt main_v104 main_v105
  let main_c_41 : IVec S_ 1 := constantI S_ 1 1#1
  let main_v107 : IVec S_ 1 := (fun x v => Host.reduce IntOp.andi x v reducesTo_S256x128_S_d0_1 h_S_) main_v106 main_c_41
  let main_v108 : IVec S_ 1 := andi main_v103 main_v107
  let main_v109 : FVec F S256 .f32 := Host.absf main_arg24
  let main_cst_42 : FVec F S_ .f32 := constant S_ .f32 0x7F800000#32
  let main_v110 : FVec F S256 .f32 := broadcastInDim S256 ![] bcast_S_S256 main_cst_42
  let main_v111 : IVec S256 1 := cmpf .olt main_v109 main_v110
  let main_c_43 : IVec S_ 1 := constantI S_ 1 1#1
  let main_v112 : IVec S_ 1 := (fun x v => Host.reduce IntOp.andi x v reducesTo_S256_S_d0 h_S_) main_v111 main_c_43
  let main_v113 : IVec S_ 1 := andi main_v108 main_v112
  let main_v114 : FVec F S8x256 .f32 := Host.absf main_arg25
  let main_cst_44 : FVec F S_ .f32 := constant S_ .f32 0x7F800000#32
  let main_v115 : FVec F S8x256 .f32 := broadcastInDim S8x256 ![] bcast_S_S8x256 main_cst_44
  let main_v116 : IVec S8x256 1 := cmpf .olt main_v114 main_v115
  let main_c_45 : IVec S_ 1 := constantI S_ 1 1#1
  let main_v117 : IVec S_ 1 := (fun x v => Host.reduce IntOp.andi x v reducesTo_S8x256_S_d0_1 h_S_) main_v116 main_c_45
  let main_v118 : IVec S_ 1 := andi main_v113 main_v117
  let main_v119 : FVec F S8 .f32 := Host.absf main_arg26
  fn_part7 (F := F) main_v118 main_v119

def fn_part5 {F : FTy → Type} [FloatOps F] (main_arg20 : FVec F S256 .f32) (main_arg21 : FVec F S128x256 .f32) (main_arg22 : FVec F S128 .f32) (main_arg23 : FVec F S256x128 .f32) (main_arg24 : FVec F S256 .f32) (main_arg25 : FVec F S8x256 .f32) (main_arg26 : FVec F S8 .f32) (main_v83 : IVec S_ 1) (main_v84 : FVec F S256x256 .f32) (main_cst_32 : FVec F S_ .f32) : IVec S_ 1 :=
  let main_v85 : FVec F S256x256 .f32 := broadcastInDim S256x256 ![] bcast_S_S256x256 main_cst_32
  let main_v86 : IVec S256x256 1 := cmpf .olt main_v84 main_v85
  let main_c_33 : IVec S_ 1 := constantI S_ 1 1#1
  let main_v87 : IVec S_ 1 := (fun x v => Host.reduce IntOp.andi x v reducesTo_S256x256_S_d0_1 h_S_) main_v86 main_c_33
  let main_v88 : IVec S_ 1 := andi main_v83 main_v87
  let main_v89 : FVec F S256 .f32 := Host.absf main_arg20
  let main_cst_34 : FVec F S_ .f32 := constant S_ .f32 0x7F800000#32
  let main_v90 : FVec F S256 .f32 := broadcastInDim S256 ![] bcast_S_S256 main_cst_34
  let main_v91 : IVec S256 1 := cmpf .olt main_v89 main_v90
  let main_c_35 : IVec S_ 1 := constantI S_ 1 1#1
  let main_v92 : IVec S_ 1 := (fun x v => Host.reduce IntOp.andi x v reducesTo_S256_S_d0 h_S_) main_v91 main_c_35
  let main_v93 : IVec S_ 1 := andi main_v88 main_v92
  let main_v94 : FVec F S128x256 .f32 := Host.absf main_arg21
  let main_cst_36 : FVec F S_ .f32 := constant S_ .f32 0x7F800000#32
  let main_v95 : FVec F S128x256 .f32 := broadcastInDim S128x256 ![] bcast_S_S128x256 main_cst_36
  let main_v96 : IVec S128x256 1 := cmpf .olt main_v94 main_v95
  let main_c_37 : IVec S_ 1 := constantI S_ 1 1#1
  let main_v97 : IVec S_ 1 := (fun x v => Host.reduce IntOp.andi x v reducesTo_S128x256_S_d0_1 h_S_) main_v96 main_c_37
  let main_v98 : IVec S_ 1 := andi main_v93 main_v97
  let main_v99 : FVec F S128 .f32 := Host.absf main_arg22
  let main_cst_38 : FVec F S_ .f32 := constant S_ .f32 0x7F800000#32
  let main_v100 : FVec F S128 .f32 := broadcastInDim S128 ![] bcast_S_S128 main_cst_38
  let main_v101 : IVec S128 1 := cmpf .olt main_v99 main_v100
  let main_c_39 : IVec S_ 1 := constantI S_ 1 1#1
  fn_part6 (F := F) main_arg23 main_arg24 main_arg25 main_arg26 main_v98 main_v101 main_c_39

def fn_part4 {F : FTy → Type} [FloatOps F] (main_arg16 : FVec F S256 .f32) (main_arg17 : FVec F S128x256 .f32) (main_arg18 : FVec F S128 .f32) (main_arg19 : FVec F S256x256 .f32) (main_arg20 : FVec F S256 .f32) (main_arg21 : FVec F S128x256 .f32) (main_arg22 : FVec F S128 .f32) (main_arg23 : FVec F S256x128 .f32) (main_arg24 : FVec F S256 .f32) (main_arg25 : FVec F S8x256 .f32) (main_arg26 : FVec F S8 .f32) (main_v63 : IVec S_ 1) (main_v67 : IVec S_ 1) : IVec S_ 1 :=
  let main_v68 : IVec S_ 1 := andi main_v63 main_v67
  let main_v69 : FVec F S256 .f32 := Host.absf main_arg16
  let main_cst_26 : FVec F S_ .f32 := constant S_ .f32 0x7F800000#32
  let main_v70 : FVec F S256 .f32 := broadcastInDim S256 ![] bcast_S_S256 main_cst_26
  let main_v71 : IVec S256 1 := cmpf .olt main_v69 main_v70
  let main_c_27 : IVec S_ 1 := constantI S_ 1 1#1
  let main_v72 : IVec S_ 1 := (fun x v => Host.reduce IntOp.andi x v reducesTo_S256_S_d0 h_S_) main_v71 main_c_27
  let main_v73 : IVec S_ 1 := andi main_v68 main_v72
  let main_v74 : FVec F S128x256 .f32 := Host.absf main_arg17
  let main_cst_28 : FVec F S_ .f32 := constant S_ .f32 0x7F800000#32
  let main_v75 : FVec F S128x256 .f32 := broadcastInDim S128x256 ![] bcast_S_S128x256 main_cst_28
  let main_v76 : IVec S128x256 1 := cmpf .olt main_v74 main_v75
  let main_c_29 : IVec S_ 1 := constantI S_ 1 1#1
  let main_v77 : IVec S_ 1 := (fun x v => Host.reduce IntOp.andi x v reducesTo_S128x256_S_d0_1 h_S_) main_v76 main_c_29
  let main_v78 : IVec S_ 1 := andi main_v73 main_v77
  let main_v79 : FVec F S128 .f32 := Host.absf main_arg18
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  let main_v84 : FVec F S256x256 .f32 := Host.absf main_arg19
  let main_cst_32 : FVec F S_ .f32 := constant S_ .f32 0x7F800000#32
  fn_part5 (F := F) main_arg20 main_arg21 main_arg22 main_arg23 main_arg24 main_arg25 main_arg26 main_v83 main_v84 main_cst_32

def fn_part3 {F : FTy → Type} [FloatOps F] (main_arg13 : FVec F S128x256 .f32) (main_arg14 : FVec F S128 .f32) (main_arg15 : FVec F S256x256 .f32) (main_arg16 : FVec F S256 .f32) (main_arg17 : FVec F S128x256 .f32) (main_arg18 : FVec F S128 .f32) (main_arg19 : FVec F S256x256 .f32) (main_arg20 : FVec F S256 .f32) (main_arg21 : FVec F S128x256 .f32) (main_arg22 : FVec F S128 .f32) (main_arg23 : FVec F S256x128 .f32) (main_arg24 : FVec F S256 .f32) (main_arg25 : FVec F S8x256 .f32) (main_arg26 : FVec F S8 .f32) (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  let main_v54 : FVec F S128x256 .f32 := Host.absf main_arg13
  let main_cst_20 : FVec F S_ .f32 := constant S_ .f32 0x7F800000#32
  let main_v55 : FVec F S128x256 .f32 := broadcastInDim S128x256 ![] bcast_S_S128x256 main_cst_20
  let main_v56 : IVec S128x256 1 := cmpf .olt main_v54 main_v55
  let main_c_21 : IVec S_ 1 := constantI S_ 1 1#1
  let main_v57 : IVec S_ 1 := (fun x v => Host.reduce IntOp.andi x v reducesTo_S128x256_S_d0_1 h_S_) main_v56 main_c_21
  let main_v58 : IVec S_ 1 := andi main_v53 main_v57
  let main_v59 : FVec F S128 .f32 := Host.absf main_arg14
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S256x256 .f32 := Host.absf main_arg15
  let main_cst_24 : FVec F S_ .f32 := constant S_ .f32 0x7F800000#32
  let main_v65 : FVec F S256x256 .f32 := broadcastInDim S256x256 ![] bcast_S_S256x256 main_cst_24
  let main_v66 : IVec S256x256 1 := cmpf .olt main_v64 main_v65
  let main_c_25 : IVec S_ 1 := constantI S_ 1 1#1
  let main_v67 : IVec S_ 1 := (fun x v => Host.reduce IntOp.andi x v reducesTo_S256x256_S_d0_1 h_S_) main_v66 main_c_25
  fn_part4 (F := F) main_arg16 main_arg17 main_arg18 main_arg19 main_arg20 main_arg21 main_arg22 main_arg23 main_arg24 main_arg25 main_arg26 main_v63 main_v67

def fn_part2 {F : FTy → Type} [FloatOps F] (main_arg9 : FVec F S1024x256 .f32) (main_arg10 : FVec F S1024 .f32) (main_arg11 : FVec F S1024x256 .f32) (main_arg12 : FVec F S1024 .f32) (main_arg13 : FVec F S128x256 .f32) (main_arg14 : FVec F S128 .f32) (main_arg15 : FVec F S256x256 .f32) (main_arg16 : FVec F S256 .f32) (main_arg17 : FVec F S128x256 .f32) (main_arg18 : FVec F S128 .f32) (main_arg19 : FVec F S256x256 .f32) (main_arg20 : FVec F S256 .f32) (main_arg21 : FVec F S128x256 .f32) (main_arg22 : FVec F S128 .f32) (main_arg23 : FVec F S256x128 .f32) (main_arg24 : FVec F S256 .f32) (main_arg25 : FVec F S8x256 .f32) (main_arg26 : FVec F S8 .f32) (main_v33 : IVec S_ 1) : IVec S_ 1 :=
  let main_v34 : FVec F S1024x256 .f32 := Host.absf main_arg9
  let main_cst_12 : FVec F S_ .f32 := constant S_ .f32 0x7F800000#32
  let main_v35 : FVec F S1024x256 .f32 := broadcastInDim S1024x256 ![] bcast_S_S1024x256 main_cst_12
  let main_v36 : IVec S1024x256 1 := cmpf .olt main_v34 main_v35
  let main_c_13 : IVec S_ 1 := constantI S_ 1 1#1
  let main_v37 : IVec S_ 1 := (fun x v => Host.reduce IntOp.andi x v reducesTo_S1024x256_S_d0_1 h_S_) main_v36 main_c_13
  let main_v38 : IVec S_ 1 := andi main_v33 main_v37
  let main_v39 : FVec F S1024 .f32 := Host.absf main_arg10
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024x256 .f32 := Host.absf main_arg11
  let main_cst_16 : FVec F S_ .f32 := constant S_ .f32 0x7F800000#32
  let main_v45 : FVec F S1024x256 .f32 := broadcastInDim S1024x256 ![] bcast_S_S1024x256 main_cst_16
  let main_v46 : IVec S1024x256 1 := cmpf .olt main_v44 main_v45
  let main_c_17 : IVec S_ 1 := constantI S_ 1 1#1
  let main_v47 : IVec S_ 1 := (fun x v => Host.reduce IntOp.andi x v reducesTo_S1024x256_S_d0_1 h_S_) main_v46 main_c_17
  let main_v48 : IVec S_ 1 := andi main_v43 main_v47
  let main_v49 : FVec F S1024 .f32 := Host.absf main_arg12
  let main_cst_18 : FVec F S_ .f32 := constant S_ .f32 0x7F800000#32
  let main_v50 : FVec F S1024 .f32 := broadcastInDim S1024 ![] bcast_S_S1024 main_cst_18
  fn_part3 (F := F) main_arg13 main_arg14 main_arg15 main_arg16 main_arg17 main_arg18 main_arg19 main_arg20 main_arg21 main_arg22 main_arg23 main_arg24 main_arg25 main_arg26 main_v48 main_v49 main_v50

def fn_part1 {F : FTy → Type} [FloatOps F] (main_arg6 : FVec F S512 .f32) (main_arg7 : FVec F S256x512 .f32) (main_arg8 : FVec F S256 .f32) (main_arg9 : FVec F S1024x256 .f32) (main_arg10 : FVec F S1024 .f32) (main_arg11 : FVec F S1024x256 .f32) (main_arg12 : FVec F S1024 .f32) (main_arg13 : FVec F S128x256 .f32) (main_arg14 : FVec F S128 .f32) (main_arg15 : FVec F S256x256 .f32) (main_arg16 : FVec F S256 .f32) (main_arg17 : FVec F S128x256 .f32) (main_arg18 : FVec F S128 .f32) (main_arg19 : FVec F S256x256 .f32) (main_arg20 : FVec F S256 .f32) (main_arg21 : FVec F S128x256 .f32) (main_arg22 : FVec F S128 .f32) (main_arg23 : FVec F S256x128 .f32) (main_arg24 : FVec F S256 .f32) (main_arg25 : FVec F S8x256 .f32) (main_arg26 : FVec F S8 .f32) (main_v13 : IVec S_ 1) (main_v16 : IVec S512x256 1) : IVec S_ 1 :=
  let main_c_5 : IVec S_ 1 := constantI S_ 1 1#1
  let main_v17 : IVec S_ 1 := (fun x v => Host.reduce IntOp.andi x v reducesTo_S512x256_S_d0_1 h_S_) main_v16 main_c_5
  let main_v18 : IVec S_ 1 := andi main_v13 main_v17
  let main_v19 : FVec F S512 .f32 := Host.absf main_arg6
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S256x512 .f32 := Host.absf main_arg7
  let main_cst_8 : FVec F S_ .f32 := constant S_ .f32 0x7F800000#32
  let main_v25 : FVec F S256x512 .f32 := broadcastInDim S256x512 ![] bcast_S_S256x512 main_cst_8
  let main_v26 : IVec S256x512 1 := cmpf .olt main_v24 main_v25
  let main_c_9 : IVec S_ 1 := constantI S_ 1 1#1
  let main_v27 : IVec S_ 1 := (fun x v => Host.reduce IntOp.andi x v reducesTo_S256x512_S_d0_1 h_S_) main_v26 main_c_9
  let main_v28 : IVec S_ 1 := andi main_v23 main_v27
  let main_v29 : FVec F S256 .f32 := Host.absf main_arg8
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_arg20 main_arg21 main_arg22 main_arg23 main_arg24 main_arg25 main_arg26 main_v33

def fn {F : FTy → Type} [FloatOps F] (main_arg0 : FVec F S65536x256 .f32) (main_arg1 : FVec F S65536x256 .f32) (main_arg2 : FVec F S65536x256 .f32) (main_arg3 : IVec S524288 32) (main_arg4 : IVec S524288 32) (main_arg5 : FVec F S512x256 .f32) (main_arg6 : FVec F S512 .f32) (main_arg7 : FVec F S256x512 .f32) (main_arg8 : FVec F S256 .f32) (main_arg9 : FVec F S1024x256 .f32) (main_arg10 : FVec F S1024 .f32) (main_arg11 : FVec F S1024x256 .f32) (main_arg12 : FVec F S1024 .f32) (main_arg13 : FVec F S128x256 .f32) (main_arg14 : FVec F S128 .f32) (main_arg15 : FVec F S256x256 .f32) (main_arg16 : FVec F S256 .f32) (main_arg17 : FVec F S128x256 .f32) (main_arg18 : FVec F S128 .f32) (main_arg19 : FVec F S256x256 .f32) (main_arg20 : FVec F S256 .f32) (main_arg21 : FVec F S128x256 .f32) (main_arg22 : FVec F S128 .f32) (main_arg23 : FVec F S256x128 .f32) (main_arg24 : FVec F S256 .f32) (main_arg25 : FVec F S8x256 .f32) (main_arg26 : FVec F S8 .f32) : IVec S_ 1 :=
  let main_v0 : FVec F S65536x256 .f32 := Host.absf main_arg0
  let main_cst : FVec F S_ .f32 := constant S_ .f32 0x7F800000#32
  let main_v1 : FVec F S65536x256 .f32 := broadcastInDim S65536x256 ![] bcast_S_S65536x256 main_cst
  let main_v2 : IVec S65536x256 1 := cmpf .olt main_v0 main_v1
  let main_c : IVec S_ 1 := constantI S_ 1 1#1
  let main_v3 : IVec S_ 1 := (fun x v => Host.reduce IntOp.andi x v reducesTo_S65536x256_S_d0_1 h_S_) main_v2 main_c
  let main_v4 : FVec F S65536x256 .f32 := Host.absf main_arg1
  let main_cst_0 : FVec F S_ .f32 := constant S_ .f32 0x7F800000#32
  let main_v5 : FVec F S65536x256 .f32 := broadcastInDim S65536x256 ![] bcast_S_S65536x256 main_cst_0
  let main_v6 : IVec S65536x256 1 := cmpf .olt main_v4 main_v5
  let main_c_1 : IVec S_ 1 := constantI S_ 1 1#1
  let main_v7 : IVec S_ 1 := (fun x v => Host.reduce IntOp.andi x v reducesTo_S65536x256_S_d0_1 h_S_) main_v6 main_c_1
  let main_v8 : IVec S_ 1 := andi main_v3 main_v7
  let main_v9 : FVec F S65536x256 .f32 := Host.absf main_arg2
  let main_cst_2 : FVec F S_ .f32 := constant S_ .f32 0x7F800000#32
  let main_v10 : FVec F S65536x256 .f32 := broadcastInDim S65536x256 ![] bcast_S_S65536x256 main_cst_2
  let main_v11 : IVec S65536x256 1 := cmpf .olt main_v9 main_v10
  let main_c_3 : IVec S_ 1 := constantI S_ 1 1#1
  let main_v12 : IVec S_ 1 := (fun x v => Host.reduce IntOp.andi x v reducesTo_S65536x256_S_d0_1 h_S_) main_v11 main_c_3
  let main_v13 : IVec S_ 1 := andi main_v8 main_v12
  let main_v14 : FVec F S512x256 .f32 := Host.absf main_arg5
  let main_cst_4 : FVec F S_ .f32 := constant S_ .f32 0x7F800000#32
  let main_v15 : FVec F S512x256 .f32 := broadcastInDim S512x256 ![] bcast_S_S512x256 main_cst_4
  let main_v16 : IVec S512x256 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_v13 main_v16
-- ==== Kernel.lean ====
abbrev S65536x256 : Shape := ⟨2, ![65536, 256]⟩
abbrev S524288 : Shape := ⟨1, ![524288]⟩
abbrev S512x256 : Shape := ⟨2, ![512, 256]⟩
abbrev S512 : Shape := ⟨1, ![512]⟩
abbrev S256x512 : Shape := ⟨2, ![256, 512]⟩
abbrev S256 : Shape := ⟨1, ![256]⟩
abbrev S1024x256 : Shape := ⟨2, ![1024, 256]⟩
abbrev S1024 : Shape := ⟨1, ![1024]⟩
abbrev S128x256 : Shape := ⟨2, ![128, 256]⟩
abbrev S128 : Shape := ⟨1, ![128]⟩
abbrev S256x256 : Shape := ⟨2, ![256, 256]⟩
abbrev S256x128 : Shape := ⟨2, ![256, 128]⟩
abbrev S8x256 : Shape := ⟨2, ![8, 256]⟩
abbrev S8 : Shape := ⟨1, ![8]⟩
abbrev S256x1024 : Shape := ⟨2, ![256, 1024]⟩
abbrev S256x8 : Shape := ⟨2, ![256, 8]⟩
abbrev S1x512 : Shape := ⟨2, ![1, 512]⟩
abbrev S1x256 : Shape := ⟨2, ![1, 256]⟩
abbrev S1x1024 : Shape := ⟨2, ![1, 1024]⟩
abbrev S1x128 : Shape := ⟨2, ![1, 128]⟩
abbrev S1x8 : Shape := ⟨2, ![1, 8]⟩
abbrev S65536x128 : Shape := ⟨2, ![65536, 128]⟩
abbrev S1024x128 : Shape := ⟨2, ![1024, 128]⟩
abbrev S1024x512 : Shape := ⟨2, ![1024, 512]⟩
abbrev S1024x1024 : Shape := ⟨2, ![1024, 1024]⟩
abbrev S_ : Shape := ⟨0, ![]⟩
abbrev S524288x1 : Shape := ⟨2, ![524288, 1]⟩
abbrev S524288x128 : Shape := ⟨2, ![524288, 128]⟩
abbrev S524288x256 : Shape := ⟨2, ![524288, 256]⟩
abbrev S8192x256 : Shape := ⟨2, ![8192, 256]⟩
abbrev S8192x128 : Shape := ⟨2, ![8192, 128]⟩
abbrev S65536x8 : Shape := ⟨2, ![65536, 8]⟩
abbrev S2048x128 : Shape := ⟨2, ![2048, 128]⟩
abbrev S2048x8 : Shape := ⟨2, ![2048, 8]⟩
abbrev S2048x256 : Shape := ⟨2, ![2048, 256]⟩

abbrev nBuf : Space → Nat
  | .hbm => 77
  | .vmem => 44
  | .smem => 0
  | _ => 0

abbrev bufTy : (tb : Table) → Fin (tcTables nBuf tb) → BufTy
  | .hbm, ⟨0, _⟩ => ⟨S65536x256, .f32⟩
  | .hbm, ⟨1, _⟩ => ⟨S65536x256, .f32⟩
  | .hbm, ⟨2, _⟩ => ⟨S65536x256, .f32⟩
  | .hbm, ⟨3, _⟩ => ⟨S524288, .i32⟩
  | .hbm, ⟨4, _⟩ => ⟨S524288, .i32⟩
  | .hbm, ⟨5, _⟩ => ⟨S512x256, .f32⟩
  | .hbm, ⟨6, _⟩ => ⟨S512, .f32⟩
  | .hbm, ⟨7, _⟩ => ⟨S256x512, .f32⟩
  | .hbm, ⟨8, _⟩ => ⟨S256, .f32⟩
  | .hbm, ⟨9, _⟩ => ⟨S1024x256, .f32⟩
  | .hbm, ⟨10, _⟩ => ⟨S1024, .f32⟩
  | .hbm, ⟨11, _⟩ => ⟨S1024x256, .f32⟩
  | .hbm, ⟨12, _⟩ => ⟨S1024, .f32⟩
  | .hbm, ⟨13, _⟩ => ⟨S128x256, .f32⟩
  | .hbm, ⟨14, _⟩ => ⟨S128, .f32⟩
  | .hbm, ⟨15, _⟩ => ⟨S256x256, .f32⟩
  | .hbm, ⟨16, _⟩ => ⟨S256, .f32⟩
  | .hbm, ⟨17, _⟩ => ⟨S128x256, .f32⟩
  | .hbm, ⟨18, _⟩ => ⟨S128, .f32⟩
  | .hbm, ⟨19, _⟩ => ⟨S256x256, .f32⟩
  | .hbm, ⟨20, _⟩ => ⟨S256, .f32⟩
  | .hbm, ⟨21, _⟩ => ⟨S128x256, .f32⟩
  | .hbm, ⟨22, _⟩ => ⟨S128, .f32⟩
  | .hbm, ⟨23, _⟩ => ⟨S256x128, .f32⟩
  | .hbm, ⟨24, _⟩ => ⟨S256, .f32⟩
  | .hbm, ⟨25, _⟩ => ⟨S8x256, .f32⟩
  | .hbm, ⟨26, _⟩ => ⟨S8, .f32⟩
  | .hbm, ⟨27, _⟩ => ⟨S256x512, .f32⟩
  | .hbm, ⟨28, _⟩ => ⟨S512x256, .f32⟩
  | .hbm, ⟨29, _⟩ => ⟨S256x1024, .f32⟩
  | .hbm, ⟨30, _⟩ => ⟨S256x1024, .f32⟩
  | .hbm, ⟨31, _⟩ => ⟨S256x128, .f32⟩
  | .hbm, ⟨32, _⟩ => ⟨S256x256, .f32⟩
  | .hbm, ⟨33, _⟩ => ⟨S256x128, .f32⟩
  | .hbm, ⟨34, _⟩ => ⟨S256x256, .f32⟩
  | .hbm, ⟨35, _⟩ => ⟨S256x128, .f32⟩
  | .hbm, ⟨36, _⟩ => ⟨S128x256, .f32⟩
  | .hbm, ⟨37, _⟩ => ⟨S256x8, .f32⟩
  | .hbm, ⟨38, _⟩ => ⟨S1x512, .f32⟩
  | .hbm, ⟨39, _⟩ => ⟨S1x256, .f32⟩
  | .hbm, ⟨40, _⟩ => ⟨S1x1024, .f32⟩
  | .hbm, ⟨41, _⟩ => ⟨S1x1024, .f32⟩
  | .hbm, ⟨42, _⟩ => ⟨S1x128, .f32⟩
  | .hbm, ⟨43, _⟩ => ⟨S1x256, .f32⟩
  | .hbm, ⟨44, _⟩ => ⟨S1x128, .f32⟩
  | .hbm, ⟨45, _⟩ => ⟨S1x256, .f32⟩
  | .hbm, ⟨46, _⟩ => ⟨S1x128, .f32⟩
  | .hbm, ⟨47, _⟩ => ⟨S1x256, .f32⟩
  | .hbm, ⟨48, _⟩ => ⟨S1x8, .f32⟩
  | .hbm, ⟨49, _⟩ => ⟨S65536x128, .f32⟩
  | .hbm, ⟨50, _⟩ => ⟨S65536x256, .f32⟩
  | .hbm, ⟨51, _⟩ => ⟨S65536x256, .f32⟩
  | .hbm, ⟨52, _⟩ => ⟨S_, .i32⟩
  | .hbm, ⟨53, _⟩ => ⟨S524288, .i32⟩
  | .hbm, ⟨54, _⟩ => ⟨S524288, .i1⟩
  | .hbm, ⟨55, _⟩ => ⟨S_, .i32⟩
  | .hbm, ⟨56, _⟩ => ⟨S524288, .i32⟩
  | .hbm, ⟨57, _⟩ => ⟨S524288, .i32⟩
  | .hbm, ⟨58, _⟩ => ⟨S524288, .i32⟩
  | .hbm, ⟨59, _⟩ => ⟨S524288x1, .i32⟩
  | .hbm, ⟨60, _⟩ => ⟨S524288x128, .f32⟩
  | .hbm, ⟨61, _⟩ => ⟨S_, .i32⟩
  | .hbm, ⟨62, _⟩ => ⟨S524288, .i32⟩
  | .hbm, ⟨63, _⟩ => ⟨S524288, .i1⟩
  | .hbm, ⟨64, _⟩ => ⟨S_, .i32⟩
  | .hbm, ⟨65, _⟩ => ⟨S524288, .i32⟩
  | .hbm, ⟨66, _⟩ => ⟨S524288, .i32⟩
  | .hbm, ⟨67, _⟩ => ⟨S524288, .i32⟩
  | .hbm, ⟨68, _⟩ => ⟨S524288x1, .i32⟩
  | .hbm, ⟨69, _⟩ => ⟨S524288x128, .f32⟩
  | .hbm, ⟨70, _⟩ => ⟨S524288x256, .f32⟩
  | .hbm, ⟨71, _⟩ => ⟨S524288x128, .f32⟩
  | .hbm, ⟨72, _⟩ => ⟨S_, .f32⟩
  | .hbm, ⟨73, _⟩ => ⟨S65536x128, .f32⟩
  | .hbm, ⟨74, _⟩ => ⟨S524288x1, .i32⟩
  | .hbm, ⟨75, _⟩ => ⟨S65536x128, .f32⟩
  | .hbm, ⟨76, _⟩ => ⟨S65536x8, .f32⟩
  | .local _ .vmem, ⟨0, _⟩ => ⟨S1024x256, .f32⟩
  | .local _ .vmem, ⟨1, _⟩ => ⟨S1024x256, .f32⟩
  | .local _ .vmem, ⟨2, _⟩ => ⟨S1024x256, .f32⟩
  | .local _ .vmem, ⟨3, _⟩ => ⟨S1024x256, .f32⟩
  | .local _ .vmem, ⟨4, _⟩ => ⟨S1024x256, .f32⟩
  | .local _ .vmem, ⟨5, _⟩ => ⟨S1024x256, .f32⟩
  | .local _ .vmem, ⟨6, _⟩ => ⟨S256x512, .f32⟩
  | .local _ .vmem, ⟨7, _⟩ => ⟨S1x512, .f32⟩
  | .local _ .vmem, ⟨8, _⟩ => ⟨S512x256, .f32⟩
  | .local _ .vmem, ⟨9, _⟩ => ⟨S1x256, .f32⟩
  | .local _ .vmem, ⟨10, _⟩ => ⟨S256x1024, .f32⟩
  | .local _ .vmem, ⟨11, _⟩ => ⟨S1x1024, .f32⟩
  | .local _ .vmem, ⟨12, _⟩ => ⟨S256x1024, .f32⟩
  | .local _ .vmem, ⟨13, _⟩ => ⟨S1x1024, .f32⟩
  | .local _ .vmem, ⟨14, _⟩ => ⟨S256x128, .f32⟩
  | .local _ .vmem, ⟨15, _⟩ => ⟨S1x128, .f32⟩
  | .local _ .vmem, ⟨16, _⟩ => ⟨S1024x128, .f32⟩
  | .local _ .vmem, ⟨17, _⟩ => ⟨S1024x128, .f32⟩
  | .local _ .vmem, ⟨18, _⟩ => ⟨S1024x256, .f32⟩
  | .local _ .vmem, ⟨19, _⟩ => ⟨S1024x256, .f32⟩
  | .local _ .vmem, ⟨20, _⟩ => ⟨S1024x256, .f32⟩
  | .local _ .vmem, ⟨21, _⟩ => ⟨S1024x256, .f32⟩
  | .local _ .vmem, ⟨22, _⟩ => ⟨S8192x256, .f32⟩
  | .local _ .vmem, ⟨23, _⟩ => ⟨S8192x256, .f32⟩
  | .local _ .vmem, ⟨24, _⟩ => ⟨S256x256, .f32⟩
  | .local _ .vmem, ⟨25, _⟩ => ⟨S1x256, .f32⟩
  | .local _ .vmem, ⟨26, _⟩ => ⟨S256x128, .f32⟩
  | .local _ .vmem, ⟨27, _⟩ => ⟨S1x128, .f32⟩
  | .local _ .vmem, ⟨28, _⟩ => ⟨S8192x128, .f32⟩
  | .local _ .vmem, ⟨29, _⟩ => ⟨S8192x128, .f32⟩
  | .local _ .vmem, ⟨30, _⟩ => ⟨S2048x128, .f32⟩
  | .local _ .vmem, ⟨31, _⟩ => ⟨S2048x128, .f32⟩
  | .local _ .vmem, ⟨32, _⟩ => ⟨S2048x128, .f32⟩
  | .local _ .vmem, ⟨33, _⟩ => ⟨S2048x128, .f32⟩
  | .local _ .vmem, ⟨34, _⟩ => ⟨S256x256, .f32⟩
  | .local _ .vmem, ⟨35, _⟩ => ⟨S1x256, .f32⟩
  | .local _ .vmem, ⟨36, _⟩ => ⟨S256x128, .f32⟩
  | .local _ .vmem, ⟨37, _⟩ => ⟨S1x128, .f32⟩
  | .local _ .vmem, ⟨38, _⟩ => ⟨S128x256, .f32⟩
  | .local _ .vmem, ⟨39, _⟩ => ⟨S1x256, .f32⟩
  | .local _ .vmem, ⟨40, _⟩ => ⟨S256x8, .f32⟩
  | .local _ .vmem, ⟨41, _⟩ => ⟨S1x8, .f32⟩
  | .local _ .vmem, ⟨42, _⟩ => ⟨S2048x8, .f32⟩
  | .local _ .vmem, ⟨43, _⟩ => ⟨S2048x8, .f32⟩
  | _, _ => ⟨S65536x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_v0 : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22_0 : Ref sig .tc := ⟨.hbm, 49, rfl⟩
abbrev main_v22_1 : Ref sig .tc := ⟨.hbm, 50, rfl⟩
abbrev main_v22_2 : Ref sig .tc := ⟨.hbm, 51, rfl⟩
abbrev main_c : Ref sig .tc := ⟨.hbm, 52, rfl⟩
abbrev main_v23 : Ref sig .tc := ⟨.hbm, 53, rfl⟩
abbrev main_v24 : Ref sig .tc := ⟨.hbm, 54, rfl⟩
abbrev main_c_0 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_c_1 : Ref sig .tc := ⟨.hbm, 61, rfl⟩
abbrev main_v30 : Ref sig .tc := ⟨.hbm, 62, rfl⟩
abbrev main_v31 : Ref sig .tc := ⟨.hbm, 63, rfl⟩
abbrev main_c_2 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_cst : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg13_1 : Ref sig .tc := ⟨.vmem, 17, rfl⟩
abbrev cc0_stg14_0 : Ref sig .tc := ⟨.vmem, 18, rfl⟩
abbrev cc0_stg14_1 : Ref sig .tc := ⟨.vmem, 19, rfl⟩
abbrev cc0_stg15_0 : Ref sig .tc := ⟨.vmem, 20, rfl⟩
abbrev cc0_stg15_1 : Ref sig .tc := ⟨.vmem, 21, rfl⟩
abbrev cc1_stg0_0 : Ref sig .tc := ⟨.vmem, 22, rfl⟩
abbrev cc1_stg0_1 : Ref sig .tc := ⟨.vmem, 23, rfl⟩
abbrev cc1_stg1_0 : Ref sig .tc := ⟨.vmem, 24, rfl⟩
abbrev cc1_stg2_0 : Ref sig .tc := ⟨.vmem, 25, rfl⟩
abbrev cc1_stg3_0 : Ref sig .tc := ⟨.vmem, 26, rfl⟩
abbrev cc1_stg4_0 : Ref sig .tc := ⟨.vmem, 27, rfl⟩
abbrev cc1_stg5_0 : Ref sig .tc := ⟨.vmem, 28, rfl⟩
abbrev cc1_stg5_1 : Ref sig .tc := ⟨.vmem, 29, rfl⟩
abbrev cc2_stg0_0 : Ref sig .tc := ⟨.vmem, 30, rfl⟩
abbrev cc2_stg0_1 : Ref sig .tc := ⟨.vmem, 31, rfl⟩
abbrev cc2_stg1_0 : Ref sig .tc := ⟨.vmem, 32, rfl⟩
abbrev cc2_stg1_1 : Ref sig .tc := ⟨.vmem, 33, rfl⟩
abbrev cc2_stg2_0 : Ref sig .tc := ⟨.vmem, 34, rfl⟩
abbrev cc2_stg3_0 : Ref sig .tc := ⟨.vmem, 35, rfl⟩
abbrev cc2_stg4_0 : Ref sig .tc := ⟨.vmem, 36, rfl⟩
abbrev cc2_stg5_0 : Ref sig .tc := ⟨.vmem, 37, rfl⟩
abbrev cc2_stg6_0 : Ref sig .tc := ⟨.vmem, 38, rfl⟩
abbrev cc2_stg7_0 : Ref sig .tc := ⟨.vmem, 39, rfl⟩
abbrev cc2_stg8_0 : Ref sig .tc := ⟨.vmem, 40, rfl⟩
abbrev cc2_stg9_0 : Ref sig .tc := ⟨.vmem, 41, rfl⟩
abbrev cc2_stg10_0 : Ref sig .tc := ⟨.vmem, 42, rfl⟩
abbrev cc2_stg10_1 : Ref sig .tc := ⟨.vmem, 43, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem13_1 : DmaSem sig := 17
abbrev cc0_sem14_0 : DmaSem sig := 18
abbrev cc0_sem14_1 : DmaSem sig := 19
abbrev cc0_sem15_0 : DmaSem sig := 20
abbrev cc0_sem15_1 : DmaSem sig := 21
abbrev cc1_sem0_0 : DmaSem sig := 22
abbrev cc1_sem0_1 : DmaSem sig := 23
abbrev cc1_sem1_0 : DmaSem sig := 24
abbrev cc1_sem2_0 : DmaSem sig := 25
abbrev cc1_sem3_0 : DmaSem sig := 26
abbrev cc1_sem4_0 : DmaSem sig := 27
abbrev cc1_sem5_0 : DmaSem sig := 28
abbrev cc1_sem5_1 : DmaSem sig := 29
abbrev cc2_sem0_0 : DmaSem sig := 30
abbrev cc2_sem0_1 : DmaSem sig := 31
abbrev cc2_sem1_0 : DmaSem sig := 32
abbrev cc2_sem1_1 : DmaSem sig := 33
abbrev cc2_sem2_0 : DmaSem sig := 34
abbrev cc2_sem3_0 : DmaSem sig := 35
abbrev cc2_sem4_0 : DmaSem sig := 36
abbrev cc2_sem5_0 : DmaSem sig := 37
abbrev cc2_sem6_0 : DmaSem sig := 38
abbrev cc2_sem7_0 : DmaSem sig := 39
abbrev cc2_sem8_0 : DmaSem sig := 40
abbrev cc2_sem9_0 : DmaSem sig := 41
abbrev cc2_sem10_0 : DmaSem sig := 42
abbrev cc2_sem10_1 : DmaSem sig := 43

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S1024x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1024x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1024x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8192x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S8192x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![32], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2048x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2048x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S256x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S256x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S128x256 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x256 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S256x8 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S1x8 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 2 → Memref sig .tc .vmem S2048x8 .f32 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![true]

class Facts₀ : Prop where
  transposes_S512x256_S256x512_1_0 : S512x256.Transposes [1, 0] S256x512
  transposes_S256x512_S512x256_1_0 : S256x512.Transposes [1, 0] S512x256
  transposes_S1024x256_S256x1024_1_0 : S1024x256.Transposes [1, 0] S256x1024
  transposes_S128x256_S256x128_1_0 : S128x256.Transposes [1, 0] S256x128
  transposes_S256x256_S256x256_1_0 : S256x256.Transposes [1, 0] S256x256
  transposes_S256x128_S128x256_1_0 : S256x128.Transposes [1, 0] S128x256
  transposes_S8x256_S256x8_1_0 : S8x256.Transposes [1, 0] S256x8
  shapeCasts_S512_S1x512 : S512.ShapeCasts S1x512
  shapeCasts_S256_S1x256 : S256.ShapeCasts S1x256
  shapeCasts_S1024_S1x1024 : S1024.ShapeCasts S1x1024
  shapeCasts_S128_S1x128 : S128.ShapeCasts S1x128
  shapeCasts_S8_S1x8 : S8.ShapeCasts S1x8
  inb_S1024x256_S1024x256_0_0 : ∀ a, (![0, 0] : Fin 2 → Nat) a + S1024x256.size a ≤ S1024x256.size a
  h_S1024x256 : 0 < S1024x256.numel
  bitsLt_bf16_f32 : FTy.bits .bf16 < FTy.bits .f32
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  slices_S1024x1024_o0_0_S1024x256 : S1024x1024.Slices ![0, 0] S1024x256
  slices_S1024x1024_o0_256_S1024x256 : S1024x1024.Slices ![0, 256] S1024x256
  slices_S1024x1024_o0_512_S1024x256 : S1024x1024.Slices ![0, 512] S1024x256
  slices_S1024x1024_o0_768_S1024x256 : S1024x1024.Slices ![0, 768] S1024x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1024x128 : S1x128.Broadcasts S1024x128
  inb_S1024x128_S1024x128_0_0 : ∀ a, (![0, 0] : Fin 2 → Nat) a + S1024x128.size a ≤ S1024x128.size a
  h_S1024x128 : 0 < S1024x128.numel
  bcast_S_S524288 : S_.BroadcastsInDim S524288 (![] : Fin 0 → Fin S524288.rank)
  bcast_S524288_S524288x1_0 : S524288.BroadcastsInDim S524288x1 (![0] : Fin 1 → Fin S524288x1.rank)
  concatenates_S524288x128_S524288x128_S524288x256_d1 : Shape.Concatenates [S524288x128, S524288x128] S524288x256 1
  inb_S8192x256_S8192x256_0_0 : ∀ a, (![0, 0] : Fin 2 → Nat) a + S8192x256.size a ≤ S8192x256.size a
  h_S8192x256 : 0 < S8192x256.numel
  shapeCasts_S8192x256_S8192x256 : S8192x256.ShapeCasts S8192x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  broadcasts_S1x256_S8192x256 : S1x256.Broadcasts S8192x256
  broadcasts_S1x128_S8192x128 : S1x128.Broadcasts S8192x128
  inb_S8192x128_S8192x128_0_0 : ∀ a, (![0, 0] : Fin 2 → Nat) a + S8192x128.size a ≤ S8192x128.size a
  h_S8192x128 : 0 < S8192x128.numel
  bcast_S_S65536x128 : S_.BroadcastsInDim S65536x128 (![] : Fin 0 → Fin S65536x128.rank)
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  concatenates_S2048x128_S2048x128_S2048x256_d1 : Shape.Concatenates [S2048x128, S2048x128] S2048x256 1
  broadcasts_S1x256_S2048x256 : S1x256.Broadcasts S2048x256
  broadcasts_S1x128_S2048x128 : S1x128.Broadcasts S2048x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S256x8_S256x8_0_0 : ∀ a, (![0, 0] : Fin 2 → Nat) a + S256x8.size a ≤ S256x8.size a
  h_S256x8 : 0 < S256x8.numel
  shapeCasts_S256x8_S256x8 : S256x8.ShapeCasts S256x8
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S2048x8 : S1x8.Broadcasts S2048x8
  inb_S2048x8_S2048x8_0_0 : ∀ a, (![0, 0] : Fin 2 → Nat) a + S2048x8.size a ≤ S2048x8.size a
  h_S2048x8 : 0 < S2048x8.numel
  dot_S1024x256_S256x512_S1024x512_1_0_0_1_n_n_wf : DotDims.WF S1024x256 S256x512 S1024x512 [1] [0] [0] [1] [] []
  dot_S1024x512_S512x256_S1024x256_1_0_0_1_n_n_wf : DotDims.WF S1024x512 S512x256 S1024x256 [1] [0] [0] [1] [] []
  dot_S1024x256_S256x1024_S1024x1024_1_0_0_1_n_n_wf : DotDims.WF S1024x256 S256x1024 S1024x1024 [1] [0] [0] [1] [] []
  dot_S1024x256_S256x128_S1024x128_1_0_0_1_n_n_wf : DotDims.WF S1024x256 S256x128 S1024x128 [1] [0] [0] [1] [] []
  gather_S65536x128_S524288x1_S524288x128_1_0_n_n_0_1_1128_wf : GatherDims.WF S65536x128 S524288x1 S524288x128 [1] [0] [] [0] [] 1 ![1, 128]
  dot_S8192x256_S256x256_S8192x256_1_0_0_1_n_n_wf : DotDims.WF S8192x256 S256x256 S8192x256 [1] [0] [0] [1] [] []
  dot_S8192x256_S256x128_S8192x128_1_0_0_1_n_n_wf : DotDims.WF S8192x256 S256x128 S8192x128 [1] [0] [0] [1] [] []
  scatter_S65536x128_S524288x1_S524288x128_1_0_0_1_wf : ScatterDims.WF S65536x128 S524288x1 S524288x128 [1] [0] [0] 1
  dot_S2048x256_S256x256_S2048x256_1_0_0_1_n_n_wf : DotDims.WF S2048x256 S256x256 S2048x256 [1] [0] [0] [1] [] []
  dot_S2048x256_S256x128_S2048x128_1_0_0_1_n_n_wf : DotDims.WF S2048x256 S256x128 S2048x128 [1] [0] [0] [1] [] []
  dot_S2048x128_S128x256_S2048x256_1_0_0_1_n_n_wf : DotDims.WF S2048x128 S128x256 S2048x256 [1] [0] [0] [1] [] []
  dot_S2048x256_S256x8_S2048x8_1_0_0_1_n_n_wf : DotDims.WF S2048x256 S256x8 S2048x8 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S65536x256.size a
  hwx0_0 : ∀ i : grid0.Coords, EltTy.bits .f32 = 32 ∨ (Rect.block (s := S65536x256) S1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S65536x256.size a
  hwx0_1 : ∀ i : grid0.Coords, EltTy.bits .f32 = 32 ∨ (Rect.block (s := S65536x256) S1024x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x256.size a ≤ S65536x256.size a
  hwx0_2 : ∀ i : grid0.Coords, EltTy.bits .f32 = 32 ∨ (Rect.block (s := S65536x256) S1024x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x512.size a ≤ S256x512.size a
  hwx0_3 : ∀ i : grid0.Coords, EltTy.bits .f32 = 32 ∨ (Rect.block (s := S256x512) S256x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x256.size a ≤ S512x256.size a
  hwx0_5 : ∀ i : grid0.Coords, EltTy.bits .f32 = 32 ∨ (Rect.block (s := S512x256) S512x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x1024.size a ≤ S256x1024.size a
  hwx0_7 : ∀ i : grid0.Coords, EltTy.bits .f32 = 32 ∨ (Rect.block (s := S256x1024) S256x1024.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1024.size a ≤ S1x1024.size a
  hwx0_8 : ∀ i : grid0.Coords, EltTy.bits .f32 = 32 ∨ (Rect.block (s := S1x1024) S1x1024.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S256x1024.size a ≤ S256x1024.size a
  hwx0_9 : ∀ i : grid0.Coords, EltTy.bits .f32 = 32 ∨ (Rect.block (s := S256x1024) S256x1024.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x1024.size a ≤ S1x1024.size a
  hwx0_10 : ∀ i : grid0.Coords, EltTy.bits .f32 = 32 ∨ (Rect.block (s := S1x1024) S1x1024.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S256x128.size a ≤ S256x128.size a
  hwx0_11 : ∀ i : grid0.Coords, EltTy.bits .f32 = 32 ∨ (Rect.block (s := S256x128) S256x128.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x128.size a ≤ S1x128.size a
  hwx0_12 : ∀ i : grid0.Coords, EltTy.bits .f32 = 32 ∨ (Rect.block (s := S1x128) S1x128.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S1024x128.size a ≤ S65536x128.size a
  hwx0_13 : ∀ i : grid0.Coords, EltTy.bits .f32 = 32 ∨ (Rect.block (s := S65536x128) S1024x128.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S1024x256.size a ≤ S65536x256.size a
  hwx0_14 : ∀ i : grid0.Coords, EltTy.bits .f32 = 32 ∨ (Rect.block (s := S65536x256) S1024x256.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S1024x256.size a ≤ S65536x256.size a
  hwx0_15 : ∀ i : grid0.Coords, EltTy.bits .f32 = 32 ∨ (Rect.block (s := S65536x256) S1024x256.size (cc0_transform_15 i) (hinb0_15 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8192x256.size a ≤ S524288x256.size a
  hwx1_0 : ∀ i : grid1.Coords, EltTy.bits .f32 = 32 ∨ (Rect.block (s := S524288x256) S8192x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x256.size a ≤ S256x256.size a
  hwx1_1 : ∀ i : grid1.Coords, EltTy.bits .f32 = 32 ∨ (Rect.block (s := S256x256) S256x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x128.size a ≤ S256x128.size a
  hwx1_3 : ∀ i : grid1.Coords, EltTy.bits .f32 = 32 ∨ (Rect.block (s := S256x128) S256x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S8192x128.size a ≤ S524288x128.size a
  hwx1_5 : ∀ i : grid1.Coords, EltTy.bits .f32 = 32 ∨ (Rect.block (s := S524288x128) S8192x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x128.size a ≤ S65536x128.size a
  hwx2_0 : ∀ i : grid2.Coords, EltTy.bits .f32 = 32 ∨ (Rect.block (s := S65536x128) S2048x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2048x128.size a ≤ S65536x128.size a
  hwx2_1 : ∀ i : grid2.Coords, EltTy.bits .f32 = 32 ∨ (Rect.block (s := S65536x128) S2048x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256x256.size a ≤ S256x256.size a
  hwx2_2 : ∀ i : grid2.Coords, EltTy.bits .f32 = 32 ∨ (Rect.block (s := S256x256) S256x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x256.size a ≤ S1x256.size a
  hwx2_3 : ∀ i : grid2.Coords, EltTy.bits .f32 = 32 ∨ (Rect.block (s := S1x256) S1x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S256x128.size a ≤ S256x128.size a
  hwx2_4 : ∀ i : grid2.Coords, EltTy.bits .f32 = 32 ∨ (Rect.block (s := S256x128) S256x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S128x256.size a ≤ S128x256.size a
  hwx2_6 : ∀ i : grid2.Coords, EltTy.bits .f32 = 32 ∨ (Rect.block (s := S128x256) S128x256.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x256.size a ≤ S1x256.size a
  hwx2_7 : ∀ i : grid2.Coords, EltTy.bits .f32 = 32 ∨ (Rect.block (s := S1x256) S1x256.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S256x8.size a ≤ S256x8.size a
  hwx2_8 : ∀ i : grid2.Coords, EltTy.bits .f32 = 32 ∨ (Rect.block (s := S256x8) S256x8.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S1x8.size a ≤ S1x8.size a
  hwx2_9 : ∀ i : grid2.Coords, EltTy.bits .f32 = 32 ∨ (Rect.block (s := S1x8) S1x8.size (cc2_transform_9 i) (hinb2_9 i)).WholeWords (EltTy.packing .f32)
  hstage2_10 : ∀ j, (stage2_10 j).IsWhole
  nbuf2_10 : grid2.bufCount reads2_10 false = 2
  hreads2_10 : ∀ i i' : grid2.Coords, (∀ a, reads2_10 a = true → i a = i' a) → cc2_transform_10 i = cc2_transform_10 i'
  hinb2_10 : ∀ (i : grid2.Coords) a, (cc2_transform_10 i a + 1) * S2048x8.size a ≤ S65536x8.size a
  hwx2_10 : ∀ i : grid2.Coords, EltTy.bits .f32 = 32 ∨ (Rect.block (s := S65536x8) S2048x8.size (cc2_transform_10 i) (hinb2_10 i)).WholeWords (EltTy.packing .f32)

variable [Facts₀]

def dot_S1024x256_S256x512_S1024x512_1_0_0_1_n_n : DotDims S1024x256 S256x512 S1024x512 where
  lhsContracting := [1]
  rhsContracting := [0]
  lhsNonContracting := [0]
  rhsNonContracting := [1]
  lhsBatch := []
  rhsBatch := []
  wf := dot_S1024x256_S256x512_S1024x512_1_0_0_1_n_n_wf
def dot_S1024x512_S512x256_S1024x256_1_0_0_1_n_n : DotDims S1024x512 S512x256 S1024x256 where
  lhsContracting := [1]
  rhsContracting := [0]
  lhsNonContracting := [0]
  rhsNonContracting := [1]
  lhsBatch := []
  rhsBatch := []
  wf := dot_S1024x512_S512x256_S1024x256_1_0_0_1_n_n_wf
def dot_S1024x256_S256x1024_S1024x1024_1_0_0_1_n_n : DotDims S1024x256 S256x1024 S1024x1024 where
  lhsContracting := [1]
  rhsContracting := [0]
  lhsNonContracting := [0]
  rhsNonContracting := [1]
  lhsBatch := []
  rhsBatch := []
  wf := dot_S1024x256_S256x1024_S1024x1024_1_0_0_1_n_n_wf
def dot_S1024x256_S256x128_S1024x128_1_0_0_1_n_n : DotDims S1024x256 S256x128 S1024x128 where
  lhsContracting := [1]
  rhsContracting := [0]
  lhsNonContracting := [0]
  rhsNonContracting := [1]
  lhsBatch := []
  rhsBatch := []
  wf := dot_S1024x256_S256x128_S1024x128_1_0_0_1_n_n_wf
def gather_S65536x128_S524288x1_S524288x128_1_0_n_n_0_1_1128 : GatherDims S65536x128 S524288x1 S524288x128 where
  offsetDims := [1]
  collapsedSliceDims := [0]
  operandBatchingDims := []
  startIndicesBatchingDims := []
  startIndexMap := [0]
  indexVectorDim := 1
  sliceSizes := ![1, 128]
  wf := gather_S65536x128_S524288x1_S524288x128_1_0_n_n_0_1_1128_wf
def dot_S8192x256_S256x256_S8192x256_1_0_0_1_n_n : DotDims S8192x256 S256x256 S8192x256 where
  lhsContracting := [1]
  rhsContracting := [0]
  lhsNonContracting := [0]
  rhsNonContracting := [1]
  lhsBatch := []
  rhsBatch := []
  wf := dot_S8192x256_S256x256_S8192x256_1_0_0_1_n_n_wf
def dot_S8192x256_S256x128_S8192x128_1_0_0_1_n_n : DotDims S8192x256 S256x128 S8192x128 where
  lhsContracting := [1]
  rhsContracting := [0]
  lhsNonContracting := [0]
  rhsNonContracting := [1]
  lhsBatch := []
  rhsBatch := []
  wf := dot_S8192x256_S256x128_S8192x128_1_0_0_1_n_n_wf
def scatter_S65536x128_S524288x1_S524288x128_1_0_0_1 : ScatterDims S65536x128 S524288x1 S524288x128 where
  updateWindowDims := [1]
  insertedWindowDims := [0]
  scatterDimsToOperandDims := [0]
  indexVectorDim := 1
  wf := scatter_S65536x128_S524288x1_S524288x128_1_0_0_1_wf
def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf
def dot_S2048x256_S256x128_S2048x128_1_0_0_1_n_n : DotDims S2048x256 S256x128 S2048x128 where
  lhsContracting := [1]
  rhsContracting := [0]
  lhsNonContracting := [0]
  rhsNonContracting := [1]
  lhsBatch := []
  rhsBatch := []
  wf := dot_S2048x256_S256x128_S2048x128_1_0_0_1_n_n_wf
def dot_S2048x128_S128x256_S2048x256_1_0_0_1_n_n : DotDims S2048x128 S128x256 S2048x256 where
  lhsContracting := [1]
  rhsContracting := [0]
  lhsNonContracting := [0]
  rhsNonContracting := [1]
  lhsBatch := []
  rhsBatch := []
  wf := dot_S2048x128_S128x256_S2048x256_1_0_0_1_n_n_wf
def dot_S2048x256_S256x8_S2048x8_1_0_0_1_n_n : DotDims S2048x256 S256x8 S2048x8 where
  lhsContracting := [1]
  rhsContracting := [0]
  lhsNonContracting := [0]
  rhsNonContracting := [1]
  lhsBatch := []
  rhsBatch := []
  wf := dot_S2048x256_S256x8_S2048x8_1_0_0_1_n_n_wf

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S256x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v11) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S512x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v12) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v2) S256x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v13) S1x1024.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v3) S256x1024.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v14) S1x1024.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v4) S256x128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v15) S1x128.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v22_0) S1024x128.size cc0_transform_13 reads0_13 true false 2 stage0_13 sem0_13
    hrank0 hreads0_13 hinb0_13 nbuf0_13 (Memref.isWhole_whole _) hwx0_13 hstage0_13

abbrev win0_14 : Pipeline.Window sig grid0 :=
  Pipeline.Window.ofSpec (Memref.whole main_v22_1) S1024x256.size cc0_transform_14 reads0_14 true false 2 stage0_14 sem0_14
    hrank0 hreads0_14 hinb0_14 nbuf0_14 (Memref.isWhole_whole _) hwx0_14 hstage0_14

abbrev win0_15 : Pipeline.Window sig grid0 :=
  Pipeline.Window.ofSpec (Memref.whole main_v22_2) S1024x256.size cc0_transform_15 reads0_15 true false 2 stage0_15 sem0_15
    hrank0 hreads0_15 hinb0_15 nbuf0_15 (Memref.isWhole_whole _) hwx0_15 hstage0_15

abbrev win0 : Fin 16 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | ⟨_ + 16, h⟩ => absurd h (Nat.not_lt.2 (Nat.le_add_left _ _))
abbrev spec0 : Fin 16 → Pipeline.WinSpec sig grid0.rank := fun w => (win0 w).toWinSpec

abbrev win1_0 : Pipeline.Window sig grid1 :=
  Pipeline.Window.ofSpec (Memref.whole main_v37) S8192x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S256x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v16) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v6) S256x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v17) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v38) S8192x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v22_0) S2048x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v41) S2048x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v7) S256x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v18) S1x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v8) S256x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v19) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v9) S128x256.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v20) S1x256.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v10) S256x8.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v21) S1x8.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v42) S2048x8.size cc2_transform_10 reads2_10 true false 2 stage2_10 sem2_10
    hrank2 hreads2_10 hinb2_10 nbuf2_10 (Memref.isWhole_whole _) hwx2_10 hstage2_10

abbrev win2 : Fin 11 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | ⟨_ + 11, h⟩ => absurd h (Nat.not_lt.2 (Nat.le_add_left _ _))
abbrev spec2 : Fin 11 → Pipeline.WinSpec sig grid2.rank := fun w => (win2 w).toWinSpec

class Facts : Prop extends Facts₀ where

variable [Facts]
-- ==== ReferenceIdeal.lean ====
abbrev S65536x256 : Shape := ⟨2, ![65536, 256]⟩
abbrev S524288 : Shape := ⟨1, ![524288]⟩
abbrev S512x256 : Shape := ⟨2, ![512, 256]⟩
abbrev S512 : Shape := ⟨1, ![512]⟩
abbrev S256x512 : Shape := ⟨2, ![256, 512]⟩
abbrev S256 : Shape := ⟨1, ![256]⟩
abbrev S1024x256 : Shape := ⟨2, ![1024, 256]⟩
abbrev S1024 : Shape := ⟨1, ![1024]⟩
abbrev S128x256 : Shape := ⟨2, ![128, 256]⟩
abbrev S128 : Shape := ⟨1, ![128]⟩
abbrev S256x256 : Shape := ⟨2, ![256, 256]⟩
abbrev S256x128 : Shape := ⟨2, ![256, 128]⟩
abbrev S8x256 : Shape := ⟨2, ![8, 256]⟩
abbrev S8 : Shape := ⟨1, ![8]⟩
abbrev S65536x512 : Shape := ⟨2, ![65536, 512]⟩
abbrev S1x512 : Shape := ⟨2, ![1, 512]⟩
abbrev S_ : Shape := ⟨0, ![]⟩
abbrev S1x256 : Shape := ⟨2, ![1, 256]⟩
abbrev S256x1024 : Shape := ⟨2, ![256, 1024]⟩
abbrev S65536x1024 : Shape := ⟨2, ![65536, 1024]⟩
abbrev S1x1024 : Shape := ⟨2, ![1, 1024]⟩
abbrev S65536x128 : Shape := ⟨2, ![65536, 128]⟩
abbrev S1x128 : Shape := ⟨2, ![1, 128]⟩
abbrev S524288x1 : Shape := ⟨2, ![524288, 1]⟩
abbrev S524288x128 : Shape := ⟨2, ![524288, 128]⟩
abbrev S524288x256 : Shape := ⟨2, ![524288, 256]⟩
abbrev S256x8 : Shape := ⟨2, ![256, 8]⟩
abbrev S65536x8 : Shape := ⟨2, ![65536, 8]⟩
abbrev S1x8 : Shape := ⟨2, ![1, 8]⟩

abbrev nBuf : Space → Nat
  | .hbm => 154
  | .vmem => 0
  | .smem => 0
  | _ => 0

abbrev hbmTy0_0 (i : Nat) : BufTy := match i % 128 with
  | 0 => ⟨S65536x256, .f32⟩
  | 1 => ⟨S65536x256, .f32⟩
  | 2 => ⟨S65536x256, .f32⟩
  | 3 => ⟨S524288, .i32⟩
  | 4 => ⟨S524288, .i32⟩
  | 5 => ⟨S512x256, .f32⟩
  | 6 => ⟨S512, .f32⟩
  | 7 => ⟨S256x512, .f32⟩
  | 8 => ⟨S256, .f32⟩
  | 9 => ⟨S1024x256, .f32⟩
  | 10 => ⟨S1024, .f32⟩
  | 11 => ⟨S1024x256, .f32⟩
  | 12 => ⟨S1024, .f32⟩
  | 13 => ⟨S128x256, .f32⟩
  | 14 => ⟨S128, .f32⟩
  | 15 => ⟨S256x256, .f32⟩
  | 16 => ⟨S256, .f32⟩
  | 17 => ⟨S128x256, .f32⟩
  | 18 => ⟨S128, .f32⟩
  | 19 => ⟨S256x256, .f32⟩
  | 20 => ⟨S256, .f32⟩
  | 21 => ⟨S128x256, .f32⟩
  | 22 => ⟨S128, .f32⟩
  | 23 => ⟨S256x128, .f32⟩
  | 24 => ⟨S256, .f32⟩
  | 25 => ⟨S8x256, .f32⟩
  | 26 => ⟨S8, .f32⟩
  | 27 => ⟨S256x512, .f32⟩
  | 28 => ⟨S65536x512, .f32⟩
  | 29 => ⟨S1x512, .f32⟩
  | 30 => ⟨S65536x512, .f32⟩
  | 31 => ⟨S65536x512, .f32⟩
  | 32 => ⟨S_, .f32⟩
  | 33 => ⟨S65536x512, .f32⟩
  | 34 => ⟨S65536x512, .f32⟩
  | 35 => ⟨S512x256, .f32⟩
  | 36 => ⟨S65536x256, .f32⟩
  | 37 => ⟨S1x256, .f32⟩
  | 38 => ⟨S65536x256, .f32⟩
  | 39 => ⟨S65536x256, .f32⟩
  | 40 => ⟨S256x1024, .f32⟩
  | 41 => ⟨S65536x1024, .f32⟩
  | 42 => ⟨S256x1024, .f32⟩
  | 43 => ⟨S65536x1024, .f32⟩
  | 44 => ⟨S65536x1024, .f32⟩
  | 45 => ⟨S1024, .f32⟩
  | 46 => ⟨S1x1024, .f32⟩
  | 47 => ⟨S65536x1024, .f32⟩
  | 48 => ⟨S65536x1024, .f32⟩
  | 49 => ⟨S65536x256, .f32⟩
  | 50 => ⟨S65536x256, .f32⟩
  | 51 => ⟨S65536x256, .f32⟩
  | 52 => ⟨S65536x256, .f32⟩
  | 53 => ⟨S65536x256, .f32⟩
  | 54 => ⟨S65536x256, .f32⟩
  | 55 => ⟨S_, .f32⟩
  | 56 => ⟨S65536x256, .f32⟩
  | 57 => ⟨S65536x256, .f32⟩
  | 58 => ⟨S_, .f32⟩
  | 59 => ⟨S65536x256, .f32⟩
  | 60 => ⟨S65536x256, .f32⟩
  | 61 => ⟨S65536x256, .f32⟩
  | 62 => ⟨S65536x256, .f32⟩
  | 63 => ⟨S65536x256, .f32⟩
  | 64 => ⟨S_, .f32⟩
  | 65 => ⟨S65536x256, .f32⟩
  | 66 => ⟨S65536x256, .f32⟩
  | 67 => ⟨S_, .f32⟩
  | 68 => ⟨S65536x256, .f32⟩
  | 69 => ⟨S65536x256, .f32⟩
  | 70 => ⟨S65536x256, .f32⟩
  | 71 => ⟨S65536x256, .f32⟩
  | 72 => ⟨S65536x256, .f32⟩
  | 73 => ⟨S65536x256, .f32⟩
  | 74 => ⟨S65536x256, .f32⟩
  | 75 => ⟨S_, .f32⟩
  | 76 => ⟨S65536x256, .f32⟩
  | 77 => ⟨S65536x256, .f32⟩
  | 78 => ⟨S_, .f32⟩
  | 79 => ⟨S65536x256, .f32⟩
  | 80 => ⟨S65536x256, .f32⟩
  | 81 => ⟨S65536x256, .f32⟩
  | 82 => ⟨S65536x256, .f32⟩
  | 83 => ⟨S_, .f32⟩
  | 84 => ⟨S65536x256, .f32⟩
  | 85 => ⟨S65536x256, .f32⟩
  | 86 => ⟨S256x128, .f32⟩
  | 87 => ⟨S65536x128, .f32⟩
  | 88 => ⟨S1x128, .f32⟩
  | 89 => ⟨S65536x128, .f32⟩
  | 90 => ⟨S65536x128, .f32⟩
  | 91 => ⟨S_, .i32⟩
  | 92 => ⟨S524288, .i32⟩
  | 93 => ⟨S524288, .i1⟩
  | 94 => ⟨S_, .i32⟩
  | 95 => ⟨S524288, .i32⟩
  | 96 => ⟨S524288, .i32⟩
  | 97 => ⟨S524288, .i32⟩
  | 98 => ⟨S524288x1, .i32⟩
  | 99 => ⟨S524288x128, .f32⟩
  | 100 => ⟨S_, .i32⟩
  | 101 => ⟨S524288, .i32⟩
  | 102 => ⟨S524288, .i1⟩
  | 103 => ⟨S_, .i32⟩
  | 104 => ⟨S524288, .i32⟩
  | 105 => ⟨S524288, .i32⟩
  | 106 => ⟨S524288, .i32⟩
  | 107 => ⟨S524288x1, .i32⟩
  | 108 => ⟨S524288x128, .f32⟩
  | 109 => ⟨S524288x256, .f32⟩
  | 110 => ⟨S256x256, .f32⟩
  | 111 => ⟨S524288x256, .f32⟩
  | 112 => ⟨S1x256, .f32⟩
  | 113 => ⟨S524288x256, .f32⟩
  | 114 => ⟨S524288x256, .f32⟩
  | 115 => ⟨S_, .f32⟩
  | 116 => ⟨S524288x256, .f32⟩
  | 117 => ⟨S524288x256, .f32⟩
  | 118 => ⟨S256x128, .f32⟩
  | 119 => ⟨S524288x128, .f32⟩
  | 120 => ⟨S1x128, .f32⟩
  | 121 => ⟨S524288x128, .f32⟩
  | 122 => ⟨S524288x128, .f32⟩
  | 123 => ⟨S_, .f32⟩
  | 124 => ⟨S65536x128, .f32⟩
  | 125 => ⟨S524288x1, .i32⟩
  | 126 => ⟨S65536x128, .f32⟩
  | 127 => ⟨S65536x256, .f32⟩
  | _ => ⟨S65536x256, .f32⟩

abbrev hbmTy0_1 (i : Nat) : BufTy := match i % 128 with
  | 0 => ⟨S256x256, .f32⟩
  | 1 => ⟨S65536x256, .f32⟩
  | 2 => ⟨S1x256, .f32⟩
  | 3 => ⟨S65536x256, .f32⟩
  | 4 => ⟨S65536x256, .f32⟩
  | 5 => ⟨S_, .f32⟩
  | 6 => ⟨S65536x256, .f32⟩
  | 7 => ⟨S65536x256, .f32⟩
  | 8 => ⟨S256x128, .f32⟩
  | 9 => ⟨S65536x128, .f32⟩
  | 10 => ⟨S1x128, .f32⟩
  | 11 => ⟨S65536x128, .f32⟩
  | 12 => ⟨S65536x128, .f32⟩
  | 13 => ⟨S128x256, .f32⟩
  | 14 => ⟨S65536x256, .f32⟩
  | 15 => ⟨S1x256, .f32⟩
  | 16 => ⟨S65536x256, .f32⟩
  | 17 => ⟨S65536x256, .f32⟩
  | 18 => ⟨S_, .f32⟩
  | 19 => ⟨S65536x256, .f32⟩
  | 20 => ⟨S65536x256, .f32⟩
  | 21 => ⟨S256x8, .f32⟩
  | 22 => ⟨S65536x8, .f32⟩
  | 23 => ⟨S1x8, .f32⟩
  | 24 => ⟨S65536x8, .f32⟩
  | 25 => ⟨S65536x8, .f32⟩
  | _ => ⟨S65536x256, .f32⟩

abbrev hbmTy (i : Nat) : BufTy := match i / 128 with
  | 0 => hbmTy0_0 i
  | 1 => hbmTy0_1 i
  | _ => ⟨S65536x256, .f32⟩

abbrev bufTy : (tb : Table) → Fin (tcTables nBuf tb) → BufTy
  | .hbm, ⟨i, _⟩ => hbmTy i
  | _, _ => ⟨S65536x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_v0 : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_cst : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_cst_0 : Ref sig .tc := ⟨.hbm, 55, rfl⟩
abbrev main_v27 : Ref sig .tc := ⟨.hbm, 56, rfl⟩
abbrev main_v28 : Ref sig .tc := ⟨.hbm, 57, rfl⟩
abbrev main_cst_1 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_cst_2 : Ref sig .tc := ⟨.hbm, 64, rfl⟩
abbrev main_v34 : Ref sig .tc := ⟨.hbm, 65, rfl⟩
abbrev main_v35 : Ref sig .tc := ⟨.hbm, 66, rfl⟩
abbrev main_cst_3 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_cst_4 : Ref sig .tc := ⟨.hbm, 75, rfl⟩
abbrev main_v43 : Ref sig .tc := ⟨.hbm, 76, rfl⟩
abbrev main_v44 : Ref sig .tc := ⟨.hbm, 77, rfl⟩
abbrev main_cst_5 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_cst_6 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_c : Ref sig .tc := ⟨.hbm, 91, rfl⟩
abbrev main_v56 : Ref sig .tc := ⟨.hbm, 92, rfl⟩
abbrev main_v57 : Ref sig .tc := ⟨.hbm, 93, rfl⟩
abbrev main_c_7 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_c_8 : Ref sig .tc := ⟨.hbm, 100, rfl⟩
abbrev main_v63 : Ref sig .tc := ⟨.hbm, 101, rfl⟩
abbrev main_v64 : Ref sig .tc := ⟨.hbm, 102, rfl⟩
abbrev main_c_9 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_cst_10 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_cst_11 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_cst_12 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_cst_13 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩

abbrev nD : Nat := 1
abbrev τ : Topo := Topo.v7x

variable {F : FTy → Type} [FloatOps F]

class Facts₀ : Prop where
  transposes_S512x256_S256x512_1_0 : S512x256.Transposes [1, 0] S256x512
  bcast_S512_S1x512_1 : S512.BroadcastsInDim S1x512 (![1] : Fin 1 → Fin S1x512.rank)
  bcast_S1x512_S65536x512_0_1 : S1x512.BroadcastsInDim S65536x512 (![0, 1] : Fin 2 → Fin S65536x512.rank)
  bcast_S_S65536x512 : S_.BroadcastsInDim S65536x512 (![] : Fin 0 → Fin S65536x512.rank)
  transposes_S256x512_S512x256_1_0 : S256x512.Transposes [1, 0] S512x256
  bcast_S256_S1x256_1 : S256.BroadcastsInDim S1x256 (![1] : Fin 1 → Fin S1x256.rank)
  bcast_S1x256_S65536x256_0_1 : S1x256.BroadcastsInDim S65536x256 (![0, 1] : Fin 2 → Fin S65536x256.rank)
  transposes_S1024x256_S256x1024_1_0 : S1024x256.Transposes [1, 0] S256x1024
  bcast_S1024_S1x1024_1 : S1024.BroadcastsInDim S1x1024 (![1] : Fin 1 → Fin S1x1024.rank)
  bcast_S1x1024_S65536x1024_0_1 : S1x1024.BroadcastsInDim S65536x1024 (![0, 1] : Fin 2 → Fin S65536x1024.rank)
  slices_S65536x1024_S65536x256_0_0 : S65536x1024.Slices ![0, 0] S65536x256
  slices_S65536x1024_S65536x256_0_256 : S65536x1024.Slices ![0, 256] S65536x256
  slices_S65536x1024_S65536x256_0_512 : S65536x1024.Slices ![0, 512] S65536x256
  slices_S65536x1024_S65536x256_0_768 : S65536x1024.Slices ![0, 768] S65536x256
  bcast_S_S65536x256 : S_.BroadcastsInDim S65536x256 (![] : Fin 0 → Fin S65536x256.rank)
  transposes_S128x256_S256x128_1_0 : S128x256.Transposes [1, 0] S256x128
  bcast_S128_S1x128_1 : S128.BroadcastsInDim S1x128 (![1] : Fin 1 → Fin S1x128.rank)
  bcast_S1x128_S65536x128_0_1 : S1x128.BroadcastsInDim S65536x128 (![0, 1] : Fin 2 → Fin S65536x128.rank)
  bcast_S_S524288 : S_.BroadcastsInDim S524288 (![] : Fin 0 → Fin S524288.rank)
  bcast_S524288_S524288x1_0 : S524288.BroadcastsInDim S524288x1 (![0] : Fin 1 → Fin S524288x1.rank)
  concatenates_S524288x128_S524288x128_S524288x256_d1 : Shape.Concatenates [S524288x128, S524288x128] S524288x256 1
  transposes_S256x256_S256x256_1_0 : S256x256.Transposes [1, 0] S256x256
  bcast_S1x256_S524288x256_0_1 : S1x256.BroadcastsInDim S524288x256 (![0, 1] : Fin 2 → Fin S524288x256.rank)
  bcast_S_S524288x256 : S_.BroadcastsInDim S524288x256 (![] : Fin 0 → Fin S524288x256.rank)
  bcast_S1x128_S524288x128_0_1 : S1x128.BroadcastsInDim S524288x128 (![0, 1] : Fin 2 → Fin S524288x128.rank)
  bcast_S_S65536x128 : S_.BroadcastsInDim S65536x128 (![] : Fin 0 → Fin S65536x128.rank)
  concatenates_S65536x128_S65536x128_S65536x256_d1 : Shape.Concatenates [S65536x128, S65536x128] S65536x256 1
  transposes_S256x128_S128x256_1_0 : S256x128.Transposes [1, 0] S128x256
  transposes_S8x256_S256x8_1_0 : S8x256.Transposes [1, 0] S256x8
  bcast_S8_S1x8_1 : S8.BroadcastsInDim S1x8 (![1] : Fin 1 → Fin S1x8.rank)
  bcast_S1x8_S65536x8_0_1 : S1x8.BroadcastsInDim S65536x8 (![0, 1] : Fin 2 → Fin S65536x8.rank)
  dot_S65536x256_S256x512_S65536x512_1_0_0_1_n_n_wf : DotDims.WF S65536x256 S256x512 S65536x512 [1] [0] [0] [1] [] []
  dot_S65536x512_S512x256_S65536x256_1_0_0_1_n_n_wf : DotDims.WF S65536x512 S512x256 S65536x256 [1] [0] [0] [1] [] []
  dot_S65536x256_S256x1024_S65536x1024_1_0_0_1_n_n_wf : DotDims.WF S65536x256 S256x1024 S65536x1024 [1] [0] [0] [1] [] []
  dot_S65536x256_S256x128_S65536x128_1_0_0_1_n_n_wf : DotDims.WF S65536x256 S256x128 S65536x128 [1] [0] [0] [1] [] []
  gather_S65536x128_S524288x1_S524288x128_1_0_n_n_0_1_1128_wf : GatherDims.WF S65536x128 S524288x1 S524288x128 [1] [0] [] [0] [] 1 ![1, 128]
  dot_S524288x256_S256x256_S524288x256_1_0_0_1_n_n_wf : DotDims.WF S524288x256 S256x256 S524288x256 [1] [0] [0] [1] [] []
  dot_S524288x256_S256x128_S524288x128_1_0_0_1_n_n_wf : DotDims.WF S524288x256 S256x128 S524288x128 [1] [0] [0] [1] [] []
  scatter_S65536x128_S524288x1_S524288x128_1_0_0_1_wf : ScatterDims.WF S65536x128 S524288x1 S524288x128 [1] [0] [0] 1
  dot_S65536x256_S256x256_S65536x256_1_0_0_1_n_n_wf : DotDims.WF S65536x256 S256x256 S65536x256 [1] [0] [0] [1] [] []
  dot_S65536x128_S128x256_S65536x256_1_0_0_1_n_n_wf : DotDims.WF S65536x128 S128x256 S65536x256 [1] [0] [0] [1] [] []
  dot_S65536x256_S256x8_S65536x8_1_0_0_1_n_n_wf : DotDims.WF S65536x256 S256x8 S65536x8 [1] [0] [0] [1] [] []

variable [Facts₀]

def dot_S65536x256_S256x512_S65536x512_1_0_0_1_n_n : DotDims S65536x256 S256x512 S65536x512 where
  lhsContracting := [1]
  rhsContracting := [0]
  lhsNonContracting := [0]
  rhsNonContracting := [1]
  lhsBatch := []
  rhsBatch := []
  wf := dot_S65536x256_S256x512_S65536x512_1_0_0_1_n_n_wf
def dot_S65536x512_S512x256_S65536x256_1_0_0_1_n_n : DotDims S65536x512 S512x256 S65536x256 where
  lhsContracting := [1]
  rhsContracting := [0]
  lhsNonContracting := [0]
  rhsNonContracting := [1]
  lhsBatch := []
  rhsBatch := []
  wf := dot_S65536x512_S512x256_S65536x256_1_0_0_1_n_n_wf
def dot_S65536x256_S256x1024_S65536x1024_1_0_0_1_n_n : DotDims S65536x256 S256x1024 S65536x1024 where
  lhsContracting := [1]
  rhsContracting := [0]
  lhsNonContracting := [0]
  rhsNonContracting := [1]
  lhsBatch := []
  rhsBatch := []
  wf := dot_S65536x256_S256x1024_S65536x1024_1_0_0_1_n_n_wf
def dot_S65536x256_S256x128_S65536x128_1_0_0_1_n_n : DotDims S65536x256 S256x128 S65536x128 where
  lhsContracting := [1]
  rhsContracting := [0]
  lhsNonContracting := [0]
  rhsNonContracting := [1]
  lhsBatch := []
  rhsBatch := []
  wf := dot_S65536x256_S256x128_S65536x128_1_0_0_1_n_n_wf
def gather_S65536x128_S524288x1_S524288x128_1_0_n_n_0_1_1128 : GatherDims S65536x128 S524288x1 S524288x128 where
  offsetDims := [1]
  collapsedSliceDims := [0]
  operandBatchingDims := []
  startIndicesBatchingDims := []
  startIndexMap := [0]
  indexVectorDim := 1
  sliceSizes := ![1, 128]
  wf := gather_S65536x128_S524288x1_S524288x128_1_0_n_n_0_1_1128_wf
def dot_S524288x256_S256x256_S524288x256_1_0_0_1_n_n : DotDims S524288x256 S256x256 S524288x256 where
  lhsContracting := [1]
  rhsContracting := [0]
  lhsNonContracting := [0]
  rhsNonContracting := [1]
  lhsBatch := []
  rhsBatch := []
  wf := dot_S524288x256_S256x256_S524288x256_1_0_0_1_n_n_wf
def dot_S524288x256_S256x128_S524288x128_1_0_0_1_n_n : DotDims S524288x256 S256x128 S524288x128 where
  lhsContracting := [1]
  rhsContracting := [0]
  lhsNonContracting := [0]
  rhsNonContracting := [1]
  lhsBatch := []
  rhsBatch := []
  wf := dot_S524288x256_S256x128_S524288x128_1_0_0_1_n_n_wf
def scatter_S65536x128_S524288x1_S524288x128_1_0_0_1 : ScatterDims S65536x128 S524288x1 S524288x128 where
  updateWindowDims := [1]
  insertedWindowDims := [0]
  scatterDimsToOperandDims := [0]
  indexVectorDim := 1
  wf := scatter_S65536x128_S524288x1_S524288x128_1_0_0_1_wf
def dot_S65536x256_S256x256_S65536x256_1_0_0_1_n_n : DotDims S65536x256 S256x256 S65536x256 where
  lhsContracting := [1]
  rhsContracting := [0]
  lhsNonContracting := [0]
  rhsNonContracting := [1]
  lhsBatch := []
  rhsBatch := []
  wf := dot_S65536x256_S256x256_S65536x256_1_0_0_1_n_n_wf
def dot_S65536x128_S128x256_S65536x256_1_0_0_1_n_n : DotDims S65536x128 S128x256 S65536x256 where
  lhsContracting := [1]
  rhsContracting := [0]
  lhsNonContracting := [0]
  rhsNonContracting := [1]
  lhsBatch := []
  rhsBatch := []
  wf := dot_S65536x128_S128x256_S65536x256_1_0_0_1_n_n_wf
def dot_S65536x256_S256x8_S65536x8_1_0_0_1_n_n : DotDims S65536x256 S256x8 S65536x8 where
  lhsContracting := [1]
  rhsContracting := [0]
  lhsNonContracting := [0]
  rhsNonContracting := [1]
  lhsBatch := []
  rhsBatch := []
  wf := dot_S65536x256_S256x8_S65536x8_1_0_0_1_n_n_wf

class Facts : Prop extends Facts₀ where

variable [Facts]
-- ==== Proof.RowSpec.lean ====
/-
  The mathematics of the message-passing network, one row at a time, on the extended reals.

  Every stage of the network maps ROWS to rows: the value at node (or edge) `n`, feature `j` depends on the stage's input
  only through row `n`, and on the weights.  So each stage is written here as a function of one input row
  `x : Fin K → EReal`, a weight matrix `w : Fin N → Fin K → EReal` (row `j` of the UNtransposed weight holds the
  coefficients of output feature `j`) and a bias `b : Fin N → EReal`.  Nothing below mentions a shape, a block or a
  program: the kernel's blocks and the reference's whole arrays are both read against these functions.
-/
import Idealize.ShloMosaic.PureOps.Ideal

noncomputable section

open scoped BigOperators

namespace Cert.RowSpec

open Idealize.ShloMosaic

/-- An affine layer at output feature `j`: the dot product of the row with the feature's coefficients, plus the bias. -/
def lin {K N : ℕ} (x : Fin K → EReal) (w : Fin N → Fin K → EReal) (b : Fin N → EReal) (j : Fin N) : EReal :=
  (∑ k : Fin K, x k * w j k) + b j

/-- The rectifier, feature by feature. -/
def relu {N : ℕ} (v : Fin N → EReal) (j : Fin N) : EReal := max (v j) 0

/-- Two rows of 128 features laid side by side: features 0–127 are `a`'s, features 128–255 are `b`'s. -/
def cat (a b : Fin 128 → EReal) (k : Fin 256) : EReal :=
  if h : k.val < 128 then a ⟨k.val, h⟩ else b ⟨k.val - 128, by have := k.isLt; omega⟩

/-- The node encoder: an affine layer into 512 features, the rectifier, an affine layer into 256. -/
def enc (obs : Fin 256 → EReal) (w1a : Fin 512 → Fin 256 → EReal) (b1a : Fin 512 → EReal)
    (w1b : Fin 256 → Fin 512 → EReal) (b1b : Fin 256 → EReal) : Fin 256 → EReal :=
  lin (relu (lin obs w1a b1a)) w1b b1b

/-- The LSTM's 1024 pre-activations of one node: the encoded row through `w_ih`, the previous hidden row through
    `w_hh`, and the two biases — summed as `(· + ·) + (b_ih + b_hh)`. -/
def gates (x h0 : Fin 256 → EReal) (wih whh : Fin 1024 → Fin 256 → EReal) (bih bhh : Fin 1024 → EReal)
    (j : Fin 1024) : EReal :=
  ((∑ k : Fin 256, x k * wih j k) + (∑ k : Fin 256, h0 k * whh j k)) + (bih j + bhh j)

/-- The new cell state: forget gate (pre-activations 256–511) times the old cell, plus input gate (0–255) times the
    candidate (512–767, through tanh). -/
def cell (g : Fin 1024 → EReal) (c0 : Fin 256 → EReal) (j : Fin 256) : EReal :=
  Ideal.logistic (g ⟨256 + j.val, by have := j.isLt; omega⟩) * c0 j
    + Ideal.logistic (g ⟨0 + j.val, by have := j.isLt; omega⟩) * Ideal.tanh (g ⟨512 + j.val, by have := j.isLt; omega⟩)

/-- The new hidden state: output gate (pre-activations 768–1023) times tanh of the new cell state. -/
def hid (g : Fin 1024 → EReal) (c1 : Fin 256 → EReal) (j : Fin 256) : EReal :=
  Ideal.logistic (g ⟨768 + j.val, by have := j.isLt; omega⟩) * Ideal.tanh (c1 j)

/-- A two-layer perceptron with a rectifier between the layers. -/
def mlp2 {K H N : ℕ} (x : Fin K → EReal) (w : Fin H → Fin K → EReal) (b : Fin H → EReal)
    (w' : Fin N → Fin H → EReal) (b' : Fin N → EReal) : Fin N → EReal :=
  lin (relu (lin x w b)) w' b'

end Cert.RowSpec

end
-- ==== Proof.ArraySpec.lean ====
/-
  The network's stages as functions of WHOLE arrays, index by index.

  A stage's output array at index `(n, j)` is the row function of `Proof/RowSpec.lean` applied to row `n` of the stage's
  input arrays.  The weights and biases enter as accessor functions (`Fin N → Fin K → EReal`, `Fin N → EReal`), so the
  same definitions serve a program that holds a weight as given (`wOf`, `bOf`) and one that holds it transposed, its bias
  as a one-row matrix (`wOfT`, `bOfT`).
-/
import proofs.«159683_j88441966559674_1_alg».proof.Proof.RowSpec
import Idealize.ShloMosaic.Lib.ValueIdx
import Idealize.ShloMosaic.Lib.ValueLayout

noncomputable section

open scoped BigOperators

namespace Cert.ArraySpec

open Idealize.ShloMosaic Idealize.ShloMosaic.ValueIdx Cert.RowSpec

/-- A matrix of extended reals with `N` rows and `K` columns. -/
abbrev A2 (N K : ℕ) : Type := (⟨2, ![N, K]⟩ : Shape).Idx → EReal
/-- A vector of extended reals of length `N`. -/
abbrev A1 (N : ℕ) : Type := (⟨1, ![N]⟩ : Shape).Idx → EReal

/-- The row coordinate of a matrix index. -/
def row {N K : ℕ} (i : (⟨2, ![N, K]⟩ : Shape).Idx) : Fin N := ⟨(i 0).val, (i 0).isLt⟩
/-- The column coordinate of a matrix index. -/
def col {N K : ℕ} (i : (⟨2, ![N, K]⟩ : Shape).Idx) : Fin K := ⟨(i 1).val, (i 1).isLt⟩

/-- Row `n` of a matrix. -/
def rowOf {N K : ℕ} (A : A2 N K) (n : Fin N) : Fin K → EReal := fun k => A (ix2 n k)
/-- A weight held as given, `[N, K]`: feature `j`'s coefficients are its row `j`. -/
def wOf {N K : ℕ} (W : A2 N K) : Fin N → Fin K → EReal := fun j k => W (ix2 j k)
/-- A weight held transposed, `[K, N]`: feature `j`'s coefficients are its column `j`. -/
def wOfT {K N : ℕ} (W : A2 K N) : Fin N → Fin K → EReal := fun j k => W (ix2 k j)
/-- A bias held as a vector. -/
def bOf {N : ℕ} (b : A1 N) : Fin N → EReal := fun j => b (ix1 j)
/-- A bias held as a one-row matrix. -/
def bOfT {N : ℕ} (b : A2 1 N) : Fin N → EReal := fun j => b (ix2 (0 : Fin 1) j)

section Node
variable (obs h0 c0 : A2 65536 256)
  (w1a : Fin 512 → Fin 256 → EReal) (b1a : Fin 512 → EReal) (w1b : Fin 256 → Fin 512 → EReal) (b1b : Fin 256 → EReal)
  (wih whh : Fin 1024 → Fin 256 → EReal) (bih bhh : Fin 1024 → EReal)

/-- Node `n`'s 1024 LSTM pre-activations. -/
def nodeGates (n : Fin 65536) : Fin 1024 → EReal :=
  gates (enc (rowOf obs n) w1a b1a w1b b1b) (rowOf h0 n) wih whh bih bhh
/-- Node `n`'s new cell row. -/
def nodeCellRow (n : Fin 65536) : Fin 256 → EReal :=
  cell (nodeGates obs h0 w1a b1a w1b b1b wih whh bih bhh n) (rowOf c0 n)
/-- Node `n`'s new hidden row. -/
def nodeHidRow (n : Fin 65536) : Fin 256 → EReal :=
  hid (nodeGates obs h0 w1a b1a w1b b1b wih whh bih bhh n) (nodeCellRow obs h0 c0 w1a b1a w1b b1b wih whh bih bhh n)

/-- The new cell states, `[65536, 256]`. -/
def nodeC1 : A2 65536 256 := fun i => nodeCellRow obs h0 c0 w1a b1a w1b b1b wih whh bih bhh (row i) (col i)
/-- The new hidden states, `[65536, 256]`. -/
def nodeH1 : A2 65536 256 := fun i => nodeHidRow obs h0 c0 w1a b1a w1b b1b wih whh bih bhh (row i) (col i)
/-- The node features: an affine layer of the rectified hidden row, `[65536, 128]`. -/
def nodeNF (w1 : Fin 128 → Fin 256 → EReal) (b1 : Fin 128 → EReal) : A2 65536 128 := fun i =>
  lin (relu (nodeHidRow obs h0 c0 w1a b1a w1b b1b wih whh bih bhh (row i))) w1 b1 (col i)
end Node

/-- The edge features: a two-layer perceptron of each edge's 256 gathered features, `[524288, 128]`. -/
def edgeEF (einp : A2 524288 256) (we : Fin 256 → Fin 256 → EReal) (be : Fin 256 → EReal)
    (we2 : Fin 128 → Fin 256 → EReal) (be2 : Fin 128 → EReal) : A2 524288 128 := fun i =>
  mlp2 (rowOf einp (row i)) we be we2 be2 (col i)

/-- The logits: the node update (a two-layer perceptron of the node's features beside its aggregated messages)
    followed by the readout (an affine layer, the rectifier, an affine layer), `[65536, 8]`. -/
def updLogits (nf agg : A2 65536 128) (wn : Fin 256 → Fin 256 → EReal) (bn : Fin 256 → EReal)
    (wn2 : Fin 128 → Fin 256 → EReal) (bn2 : Fin 128 → EReal) (wr : Fin 256 → Fin 128 → EReal) (br : Fin 256 → EReal)
    (wr2 : Fin 8 → Fin 256 → EReal) (br2 : Fin 8 → EReal) : A2 65536 8 := fun i =>
  lin (relu (lin (mlp2 (cat (rowOf nf (row i)) (rowOf agg (row i))) wn bn wn2 bn2) wr br)) wr2 br2 (col i)

/-- A weight transposed on the host and read as transposed is the weight read as given. -/
theorem wOfT_transpose {N K : ℕ} (W : A2 N K) (h : (⟨2, ![N, K]⟩ : Shape).Transposes [1, 0] ⟨2, ![K, N]⟩) :
    wOfT (transpose ⟨2, ![K, N]⟩ [1, 0] W h) = wOf W :=
  funext fun j => funext fun k => ValueIdx.transpose_ix2_apply W h k j

/-- A bias reshaped on the host to a one-row matrix and read as a one-row matrix is the bias read as a vector. -/
theorem bOfT_shapeCast {N : ℕ} (b : A1 N) (h : (⟨1, ![N]⟩ : Shape).ShapeCasts ⟨2, ![1, N]⟩) :
    bOfT (shapeCast ⟨2, ![1, N]⟩ b h) = bOf b :=
  funext fun j => ValueIdx.shapeCast_a_1a_apply b h 0 j

end Cert.ArraySpec

end
-- ==== Proof.RunVal.lean ====
/-
  The kernel program's run, read back: which array each of its three regions finds, and where the results end.

  The program is six segments — host operations, the node kernel, host operations (the gathers), the edge kernel, host
  operations (the scatter-add), the update kernel.  `run_held` is the library's launch theorem over those segments with
  its whole conclusion kept: every buffer that outlives the kernels ends at the fold `W6` of the segments over the launch
  memory.  The rest of the module reads that fold at the buffers that matter:

  * a weight reaches its kernel transposed, a bias as a one-row matrix, both made by the first host stretch and written
    by nothing afterwards; read through `ArraySpec.wOfT` / `bOfT` they are the launch memory's weight and bias read
    through `wOf` / `bOf` (`w_V1_v0` … `b_V5_v21`);
  * the node kernel's three row-blocked inputs are the launch memory's (`V1_arg0` …);
  * the update kernel's first input is the node kernel's first output untouched (`V5_v22_0`); the two arrays the host
    BUILDS between the regions are read in `Proof/RunGlue.lean`;
  * the three results are the update kernel's output array and the node kernel's second and third (`W6_v42`,
    `W6_v22_1`, `W6_v22_2`).
-/
import proofs.«159683_j88441966559674_1_alg».proof.Proof.Gen.KernelIdeal.Frame
import proofs.«159683_j88441966559674_1_alg».proof.Proof.ArraySpec
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelIdeal.RunVal

open Idealize.ShloMosaic Idealize.ShloMosaic.ValueIdx Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.StableHlo Cert.ArraySpec

local notation "𝕄" => MT nD τ sig Unit (Elt Ideal) ℕ (UR sig nD τ) ℕ

variable (m : (ℓ : Loc nD τ sig) → Buf (Elt Ideal) ℓ) (ρ : Dev nD → PrngReg)

-- the library's launch theorem finds its implicit arguments by unifying its conclusion with this one, which takes
-- unfolding plain definitions in a metavariable's type
set_option backward.isDefEq.respectTransparency.types false in
/-- The whole run, with EVERY buffer that outlives the kernels named: from any memory with zero counters every weakly
    fair execution of the program terminates, nothing faulting, and each unscoped buffer of each core ends holding what
    the fold `W6` through the program's six segments — three stretches of host operations, three kernel regions —
    says.  (The frame claim keeps of this only the argument buffers; the value claims below need the results.) -/
theorem run_held : θ_run defs (onTc (τ := τ) (main (F := Ideal))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun _ h => h)

/-! ## What each region finds: the host stretches read back -/

theorem w_V1_v0 (c : Dev nD) : wOfT (V1 m ρ c main_v0 : A2 256 512) = wOf (m ((c : Thread nD τ).loc main_arg5) : A2 512 256) := by
  have e : (V1 m ρ c main_v0 : S256x512.Idx → EReal)
      = transpose S256x512 [1, 0] (m ((c : Thread nD τ).loc main_arg5) : S512x256.Idx → EReal) transposes_S512x256_S256x512_1_0 := by
    show StableHlo.after hostOps0 (W0 m ρ c) (Proc.devRef .tc main_v0) = _
    after_results
  exact (congrArg wOfT e).trans (wOfT_transpose _ _)

theorem b_V1_v11 (c : Dev nD) : bOfT (V1 m ρ c main_v11 : A2 1 512) = bOf (m ((c : Thread nD τ).loc main_arg6) : A1 512) := by
  have e : (V1 m ρ c main_v11 : S1x512.Idx → EReal)
      = shapeCast S1x512 (m ((c : Thread nD τ).loc main_arg6) : S512.Idx → EReal) shapeCasts_S512_S1x512 := by
    show StableHlo.after hostOps0 (W0 m ρ c) (Proc.devRef .tc main_v11) = _
    after_results
    rfl
  exact (congrArg bOfT e).trans (bOfT_shapeCast _ _)

theorem w_V1_v1 (c : Dev nD) : wOfT (V1 m ρ c main_v1 : A2 512 256) = wOf (m ((c : Thread nD τ).loc main_arg7) : A2 256 512) := by
  have e : (V1 m ρ c main_v1 : S512x256.Idx → EReal)
      = transpose S512x256 [1, 0] (m ((c : Thread nD τ).loc main_arg7) : S256x512.Idx → EReal) transposes_S256x512_S512x256_1_0 := by
    show StableHlo.after hostOps0 (W0 m ρ c) (Proc.devRef .tc main_v1) = _
    after_results
  exact (congrArg wOfT e).trans (wOfT_transpose _ _)

theorem b_V1_v12 (c : Dev nD) : bOfT (V1 m ρ c main_v12 : A2 1 256) = bOf (m ((c : Thread nD τ).loc main_arg8) : A1 256) := by
  have e : (V1 m ρ c main_v12 : S1x256.Idx → EReal)
      = shapeCast S1x256 (m ((c : Thread nD τ).loc main_arg8) : S256.Idx → EReal) shapeCasts_S256_S1x256 := by
    show StableHlo.after hostOps0 (W0 m ρ c) (Proc.devRef .tc main_v12) = _
    after_results
    rfl
  exact (congrArg bOfT e).trans (bOfT_shapeCast _ _)

theorem w_V1_v2 (c : Dev nD) : wOfT (V1 m ρ c main_v2 : A2 256 1024) = wOf (m ((c : Thread nD τ).loc main_arg9) : A2 1024 256) := by
  have e : (V1 m ρ c main_v2 : S256x1024.Idx → EReal)
      = transpose S256x1024 [1, 0] (m ((c : Thread nD τ).loc main_arg9) : S1024x256.Idx → EReal) transposes_S1024x256_S256x1024_1_0 := by
    show StableHlo.after hostOps0 (W0 m ρ c) (Proc.devRef .tc main_v2) = _
    after_results
  exact (congrArg wOfT e).trans (wOfT_transpose _ _)

theorem w_V1_v3 (c : Dev nD) : wOfT (V1 m ρ c main_v3 : A2 256 1024) = wOf (m ((c : Thread nD τ).loc main_arg11) : A2 1024 256) := by
  have e : (V1 m ρ c main_v3 : S256x1024.Idx → EReal)
      = transpose S256x1024 [1, 0] (m ((c : Thread nD τ).loc main_arg11) : S1024x256.Idx → EReal) transposes_S1024x256_S256x1024_1_0 := by
    show StableHlo.after hostOps0 (W0 m ρ c) (Proc.devRef .tc main_v3) = _
    after_results
  exact (congrArg wOfT e).trans (wOfT_transpose _ _)

theorem b_V1_v13 (c : Dev nD) : bOfT (V1 m ρ c main_v13 : A2 1 1024) = bOf (m ((c : Thread nD τ).loc main_arg10) : A1 1024) := by
  have e : (V1 m ρ c main_v13 : S1x1024.Idx → EReal)
      = shapeCast S1x1024 (m ((c : Thread nD τ).loc main_arg10) : S1024.Idx → EReal) shapeCasts_S1024_S1x1024 := by
    show StableHlo.after hostOps0 (W0 m ρ c) (Proc.devRef .tc main_v13) = _
    after_results
    rfl
  exact (congrArg bOfT e).trans (bOfT_shapeCast _ _)

theorem b_V1_v14 (c : Dev nD) : bOfT (V1 m ρ c main_v14 : A2 1 1024) = bOf (m ((c : Thread nD τ).loc main_arg12) : A1 1024) := by
  have e : (V1 m ρ c main_v14 : S1x1024.Idx → EReal)
      = shapeCast S1x1024 (m ((c : Thread nD τ).loc main_arg12) : S1024.Idx → EReal) shapeCasts_S1024_S1x1024 := by
    show StableHlo.after hostOps0 (W0 m ρ c) (Proc.devRef .tc main_v14) = _
    after_results
    rfl
  exact (congrArg bOfT e).trans (bOfT_shapeCast _ _)

theorem w_V1_v4 (c : Dev nD) : wOfT (V1 m ρ c main_v4 : A2 256 128) = wOf (m ((c : Thread nD τ).loc main_arg13) : A2 128 256) := by
  have e : (V1 m ρ c main_v4 : S256x128.Idx → EReal)
      = transpose S256x128 [1, 0] (m ((c : Thread nD τ).loc main_arg13) : S128x256.Idx → EReal) transposes_S128x256_S256x128_1_0 := by
    show StableHlo.after hostOps0 (W0 m ρ c) (Proc.devRef .tc main_v4) = _
    after_results
  exact (congrArg wOfT e).trans (wOfT_transpose _ _)

theorem b_V1_v15 (c : Dev nD) : bOfT (V1 m ρ c main_v15 : A2 1 128) = bOf (m ((c : Thread nD τ).loc main_arg14) : A1 128) := by
  have e : (V1 m ρ c main_v15 : S1x128.Idx → EReal)
      = shapeCast S1x128 (m ((c : Thread nD τ).loc main_arg14) : S128.Idx → EReal) shapeCasts_S128_S1x128 := by
    show StableHlo.after hostOps0 (W0 m ρ c) (Proc.devRef .tc main_v15) = _
    after_results
    rfl
  exact (congrArg bOfT e).trans (bOfT_shapeCast _ _)

theorem V1_arg0 (c : Dev nD) : V1 m ρ c main_arg0 = m ((c : Thread nD τ).loc main_arg0) := by
  show StableHlo.after hostOps0 (W0 m ρ c) (Proc.devRef .tc main_arg0) = _
  after_results

theorem V1_arg1 (c : Dev nD) : V1 m ρ c main_arg1 = m ((c : Thread nD τ).loc main_arg1) := by
  show StableHlo.after hostOps0 (W0 m ρ c) (Proc.devRef .tc main_arg1) = _
  after_results

theorem V1_arg2 (c : Dev nD) : V1 m ρ c main_arg2 = m ((c : Thread nD τ).loc main_arg2) := by
  show StableHlo.after hostOps0 (W0 m ρ c) (Proc.devRef .tc main_arg2) = _
  after_results

theorem w_V3_v5 (c : Dev nD) : wOfT (V3 m ρ c main_v5 : A2 256 256) = wOf (m ((c : Thread nD τ).loc main_arg15) : A2 256 256) := by
  have e : (V3 m ρ c main_v5 : S256x256.Idx → EReal)
      = transpose S256x256 [1, 0] (m ((c : Thread nD τ).loc main_arg15) : S256x256.Idx → EReal) transposes_S256x256_S256x256_1_0 := by
    show StableHlo.after hostOps1 (W2 m ρ c) (Proc.devRef .tc main_v5) = _
    after_results
    rw [W2_of_ne m ρ c main_v5 (by decide)]
    show StableHlo.after hostOps0 (W0 m ρ c) (Proc.devRef .tc main_v5) = _
    after_results
  exact (congrArg wOfT e).trans (wOfT_transpose _ _)

theorem b_V3_v16 (c : Dev nD) : bOfT (V3 m ρ c main_v16 : A2 1 256) = bOf (m ((c : Thread nD τ).loc main_arg16) : A1 256) := by
  have e : (V3 m ρ c main_v16 : S1x256.Idx → EReal)
      = shapeCast S1x256 (m ((c : Thread nD τ).loc main_arg16) : S256.Idx → EReal) shapeCasts_S256_S1x256 := by
    show StableHlo.after hostOps1 (W2 m ρ c) (Proc.devRef .tc main_v16) = _
    after_results
    rw [W2_of_ne m ρ c main_v16 (by decide)]
    show StableHlo.after hostOps0 (W0 m ρ c) (Proc.devRef .tc main_v16) = _
    after_results
    rfl
  exact (congrArg bOfT e).trans (bOfT_shapeCast _ _)

theorem w_V3_v6 (c : Dev nD) : wOfT (V3 m ρ c main_v6 : A2 256 128) = wOf (m ((c : Thread nD τ).loc main_arg17) : A2 128 256) := by
  have e : (V3 m ρ c main_v6 : S256x128.Idx → EReal)
      = transpose S256x128 [1, 0] (m ((c : Thread nD τ).loc main_arg17) : S128x256.Idx → EReal) transposes_S128x256_S256x128_1_0 := by
    show StableHlo.after hostOps1 (W2 m ρ c) (Proc.devRef .tc main_v6) = _
    after_results
    rw [W2_of_ne m ρ c main_v6 (by decide)]
    show StableHlo.after hostOps0 (W0 m ρ c) (Proc.devRef .tc main_v6) = _
    after_results
  exact (congrArg wOfT e).trans (wOfT_transpose _ _)

theorem b_V3_v17 (c : Dev nD) : bOfT (V3 m ρ c main_v17 : A2 1 128) = bOf (m ((c : Thread nD τ).loc main_arg18) : A1 128) := by
  have e : (V3 m ρ c main_v17 : S1x128.Idx → EReal)
      = shapeCast S1x128 (m ((c : Thread nD τ).loc main_arg18) : S128.Idx → EReal) shapeCasts_S128_S1x128 := by
    show StableHlo.after hostOps1 (W2 m ρ c) (Proc.devRef .tc main_v17) = _
    after_results
    rw [W2_of_ne m ρ c main_v17 (by decide)]
    show StableHlo.after hostOps0 (W0 m ρ c) (Proc.devRef .tc main_v17) = _
    after_results
    rfl
  exact (congrArg bOfT e).trans (bOfT_shapeCast _ _)

theorem w_V5_v7 (c : Dev nD) : wOfT (V5 m ρ c main_v7 : A2 256 256) = wOf (m ((c : Thread nD τ).loc main_arg19) : A2 256 256) := by
  have e : (V5 m ρ c main_v7 : S256x256.Idx → EReal)
      = transpose S256x256 [1, 0] (m ((c : Thread nD τ).loc main_arg19) : S256x256.Idx → EReal) transposes_S256x256_S256x256_1_0 := by
    show StableHlo.after hostOps2 (W4 m ρ c) (Proc.devRef .tc main_v7) = _
    after_results
    rw [W4_of_ne m ρ c main_v7 (by decide)]
    show StableHlo.after hostOps1 (W2 m ρ c) (Proc.devRef .tc main_v7) = _
    after_results
    rw [W2_of_ne m ρ c main_v7 (by decide)]
    show StableHlo.after hostOps0 (W0 m ρ c) (Proc.devRef .tc main_v7) = _
    after_results
  exact (congrArg wOfT e).trans (wOfT_transpose _ _)

theorem b_V5_v18 (c : Dev nD) : bOfT (V5 m ρ c main_v18 : A2 1 256) = bOf (m ((c : Thread nD τ).loc main_arg20) : A1 256) := by
  have e : (V5 m ρ c main_v18 : S1x256.Idx → EReal)
      = shapeCast S1x256 (m ((c : Thread nD τ).loc main_arg20) : S256.Idx → EReal) shapeCasts_S256_S1x256 := by
    show StableHlo.after hostOps2 (W4 m ρ c) (Proc.devRef .tc main_v18) = _
    after_results
    rw [W4_of_ne m ρ c main_v18 (by decide)]
    show StableHlo.after hostOps1 (W2 m ρ c) (Proc.devRef .tc main_v18) = _
    after_results
    rw [W2_of_ne m ρ c main_v18 (by decide)]
    show StableHlo.after hostOps0 (W0 m ρ c) (Proc.devRef .tc main_v18) = _
    after_results
    rfl
  exact (congrArg bOfT e).trans (bOfT_shapeCast _ _)

theorem w_V5_v8 (c : Dev nD) : wOfT (V5 m ρ c main_v8 : A2 256 128) = wOf (m ((c : Thread nD τ).loc main_arg21) : A2 128 256) := by
  have e : (V5 m ρ c main_v8 : S256x128.Idx → EReal)
      = transpose S256x128 [1, 0] (m ((c : Thread nD τ).loc main_arg21) : S128x256.Idx → EReal) transposes_S128x256_S256x128_1_0 := by
    show StableHlo.after hostOps2 (W4 m ρ c) (Proc.devRef .tc main_v8) = _
    after_results
    rw [W4_of_ne m ρ c main_v8 (by decide)]
    show StableHlo.after hostOps1 (W2 m ρ c) (Proc.devRef .tc main_v8) = _
    after_results
    rw [W2_of_ne m ρ c main_v8 (by decide)]
    show StableHlo.after hostOps0 (W0 m ρ c) (Proc.devRef .tc main_v8) = _
    after_results
  exact (congrArg wOfT e).trans (wOfT_transpose _ _)

theorem b_V5_v19 (c : Dev nD) : bOfT (V5 m ρ c main_v19 : A2 1 128) = bOf (m ((c : Thread nD τ).loc main_arg22) : A1 128) := by
  have e : (V5 m ρ c main_v19 : S1x128.Idx → EReal)
      = shapeCast S1x128 (m ((c : Thread nD τ).loc main_arg22) : S128.Idx → EReal) shapeCasts_S128_S1x128 := by
    show StableHlo.after hostOps2 (W4 m ρ c) (Proc.devRef .tc main_v19) = _
    after_results
    rw [W4_of_ne m ρ c main_v19 (by decide)]
    show StableHlo.after hostOps1 (W2 m ρ c) (Proc.devRef .tc main_v19) = _
    after_results
    rw [W2_of_ne m ρ c main_v19 (by decide)]
    show StableHlo.after hostOps0 (W0 m ρ c) (Proc.devRef .tc main_v19) = _
    after_results
    rfl
  exact (congrArg bOfT e).trans (bOfT_shapeCast _ _)

theorem w_V5_v9 (c : Dev nD) : wOfT (V5 m ρ c main_v9 : A2 128 256) = wOf (m ((c : Thread nD τ).loc main_arg23) : A2 256 128) := by
  have e : (V5 m ρ c main_v9 : S128x256.Idx → EReal)
      = transpose S128x256 [1, 0] (m ((c : Thread nD τ).loc main_arg23) : S256x128.Idx → EReal) transposes_S256x128_S128x256_1_0 := by
    show StableHlo.after hostOps2 (W4 m ρ c) (Proc.devRef .tc main_v9) = _
    after_results
    rw [W4_of_ne m ρ c main_v9 (by decide)]
    show StableHlo.after hostOps1 (W2 m ρ c) (Proc.devRef .tc main_v9) = _
    after_results
    rw [W2_of_ne m ρ c main_v9 (by decide)]
    show StableHlo.after hostOps0 (W0 m ρ c) (Proc.devRef .tc main_v9) = _
    after_results
  exact (congrArg wOfT e).trans (wOfT_transpose _ _)

theorem b_V5_v20 (c : Dev nD) : bOfT (V5 m ρ c main_v20 : A2 1 256) = bOf (m ((c : Thread nD τ).loc main_arg24) : A1 256) := by
  have e : (V5 m ρ c main_v20 : S1x256.Idx → EReal)
      = shapeCast S1x256 (m ((c : Thread nD τ).loc main_arg24) : S256.Idx → EReal) shapeCasts_S256_S1x256 := by
    show StableHlo.after hostOps2 (W4 m ρ c) (Proc.devRef .tc main_v20) = _
    after_results
    rw [W4_of_ne m ρ c main_v20 (by decide)]
    show StableHlo.after hostOps1 (W2 m ρ c) (Proc.devRef .tc main_v20) = _
    after_results
    rw [W2_of_ne m ρ c main_v20 (by decide)]
    show StableHlo.after hostOps0 (W0 m ρ c) (Proc.devRef .tc main_v20) = _
    after_results
    rfl
  exact (congrArg bOfT e).trans (bOfT_shapeCast _ _)

theorem w_V5_v10 (c : Dev nD) : wOfT (V5 m ρ c main_v10 : A2 256 8) = wOf (m ((c : Thread nD τ).loc main_arg25) : A2 8 256) := by
  have e : (V5 m ρ c main_v10 : S256x8.Idx → EReal)
      = transpose S256x8 [1, 0] (m ((c : Thread nD τ).loc main_arg25) : S8x256.Idx → EReal) transposes_S8x256_S256x8_1_0 := by
    show StableHlo.after hostOps2 (W4 m ρ c) (Proc.devRef .tc main_v10) = _
    after_results
    rw [W4_of_ne m ρ c main_v10 (by decide)]
    show StableHlo.after hostOps1 (W2 m ρ c) (Proc.devRef .tc main_v10) = _
    after_results
    rw [W2_of_ne m ρ c main_v10 (by decide)]
    show StableHlo.after hostOps0 (W0 m ρ c) (Proc.devRef .tc main_v10) = _
    after_results
  exact (congrArg wOfT e).trans (wOfT_transpose _ _)

theorem b_V5_v21 (c : Dev nD) : bOfT (V5 m ρ c main_v21 : A2 1 8) = bOf (m ((c : Thread nD τ).loc main_arg26) : A1 8) := by
  have e : (V5 m ρ c main_v21 : S1x8.Idx → EReal)
      = shapeCast S1x8 (m ((c : Thread nD τ).loc main_arg26) : S8.Idx → EReal) shapeCasts_S8_S1x8 := by
    show StableHlo.after hostOps2 (W4 m ρ c) (Proc.devRef .tc main_v21) = _
    after_results
    rw [W4_of_ne m ρ c main_v21 (by decide)]
    show StableHlo.after hostOps1 (W2 m ρ c) (Proc.devRef .tc main_v21) = _
    after_results
    rw [W2_of_ne m ρ c main_v21 (by decide)]
    show StableHlo.after hostOps0 (W0 m ρ c) (Proc.devRef .tc main_v21) = _
    after_results
    rfl
  exact (congrArg bOfT e).trans (bOfT_shapeCast _ _)

/-! ## The results, and the node features handed to the third region -/

/-- The logits' buffer is the third region's one output array. -/
theorem W6_v42 (c : Dev nD) : W6 m ρ c (Proc.devRef .tc main_v42) = (dat2 (V5 m ρ) c).arrAt 10 cfg2.N :=
  W6_arr m ρ c 10

/-- Nothing after the first region writes its second output array, the new hidden states. -/
theorem W6_v22_1 (c : Dev nD) : W6 m ρ c (Proc.devRef .tc main_v22_1) = (dat0 (V1 m ρ) c).arrAt 14 cfg0.N := by
  rw [W6_of_ne m ρ c main_v22_1 (by decide)]
  show StableHlo.after hostOps2 (W4 m ρ c) (Proc.devRef .tc main_v22_1) = _
  after_results
  rw [W4_of_ne m ρ c main_v22_1 (by decide)]
  show StableHlo.after hostOps1 (W2 m ρ c) (Proc.devRef .tc main_v22_1) = _
  after_results
  exact W2_arr m ρ c 14

/-- Nor its third, the new cell states. -/
theorem W6_v22_2 (c : Dev nD) : W6 m ρ c (Proc.devRef .tc main_v22_2) = (dat0 (V1 m ρ) c).arrAt 15 cfg0.N := by
  rw [W6_of_ne m ρ c main_v22_2 (by decide)]
  show StableHlo.after hostOps2 (W4 m ρ c) (Proc.devRef .tc main_v22_2) = _
  after_results
  rw [W4_of_ne m ρ c main_v22_2 (by decide)]
  show StableHlo.after hostOps1 (W2 m ρ c) (Proc.devRef .tc main_v22_2) = _
  after_results
  exact W2_arr m ρ c 15

/-- The node features the third region reads are the first region's first output array. -/
theorem V5_v22_0 (c : Dev nD) : V5 m ρ c main_v22_0 = (dat0 (V1 m ρ) c).arrAt 13 cfg0.N := by
  show StableHlo.after hostOps2 (W4 m ρ c) (Proc.devRef .tc main_v22_0) = _
  after_results
  rw [W4_of_ne m ρ c main_v22_0 (by decide)]
  show StableHlo.after hostOps1 (W2 m ρ c) (Proc.devRef .tc main_v22_0) = _
  after_results
  exact W2_arr m ρ c 13

end Cert.KernelIdeal.RunVal

end
-- ==== Proof.RunGlue.lean ====
/-
  The two arrays the host builds between the kernel program's regions.

  Before the edge kernel the host gathers each edge's two endpoint rows out of the node kernel's first output and lays
  them side by side (`einpOf`); before the update kernel it sums the edge kernel's output into the destination nodes
  (`aggOf`).  Here the run's fold is read at those two buffers: the operations of each stretch applied to the previous
  region's output array and to the launch memory's index arrays (`V3_v37`, `V5_v41`).  The gathers and the scatter-add
  stay closed boxes: the reference applies the very same ones.
-/
import proofs.«159683_j88441966559674_1_alg».proof.Proof.Gen.KernelIdeal.Frame
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelIdeal.RunVal

open Idealize.ShloMosaic Idealize.ShloMosaic.ValueIdx Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.StableHlo

variable (m : (ℓ : Loc nD τ sig) → Buf (Elt Ideal) ℓ) (ρ : Dev nD → PrngReg)

/-- The edge kernel's input as the host builds it: each edge's source-node features beside its destination-node features,
    both gathered from the node features `nf` at the edge's endpoints (a negative endpoint counted from the end, as jnp
    indexing does). The gathers are never opened: both programs apply the same ones. -/
def einpOf (nf : (⟨S65536x128, .f32⟩ : BufTy).Contents (Elt Ideal)) (src dst : (⟨S524288, .i32⟩ : BufTy).Contents (Elt Ideal)) :
    (⟨S524288x256, .f32⟩ : BufTy).Contents (Elt Ideal) :=
  concatenate S524288x256 1
    [⟨S524288x128, Host.gather gather_S65536x128_S524288x1_S524288x128_1_0_n_n_0_1_1128 nf
        (broadcastInDim S524288x1 ![0] bcast_S524288_S524288x1_0
          (select (cmpi .slt src (broadcastInDim S524288 ![] bcast_S_S524288 (constantI S_ 32 0#32)))
            (addi src (broadcastInDim S524288 ![] bcast_S_S524288 (constantI S_ 32 65536#32))) src))⟩,
     ⟨S524288x128, Host.gather gather_S65536x128_S524288x1_S524288x128_1_0_n_n_0_1_1128 nf
        (broadcastInDim S524288x1 ![0] bcast_S524288_S524288x1_0
          (select (cmpi .slt dst (broadcastInDim S524288 ![] bcast_S_S524288 (constantI S_ 32 0#32)))
            (addi dst (broadcastInDim S524288 ![] bcast_S_S524288 (constantI S_ 32 65536#32))) dst))⟩]
    concatenates_S524288x128_S524288x128_S524288x256_d1

/-- The aggregated messages as the host builds them: the edge features summed into their destination nodes, from zero.
    The scatter-add is never opened: both programs apply the same one. -/
def aggOf (ef : (⟨S524288x128, .f32⟩ : BufTy).Contents (Elt Ideal)) (dst : (⟨S524288, .i32⟩ : BufTy).Contents (Elt Ideal)) :
    (⟨S65536x128, .f32⟩ : BufTy).Contents (Elt Ideal) :=
  Host.scatterAdd scatter_S65536x128_S524288x1_S524288x128_1_0_0_1
    (broadcastInDim S65536x128 ![] bcast_S_S65536x128 (constant (F := Ideal) S_ .f32 0x00000000#32))
    (broadcastInDim S524288x1 ![0] bcast_S524288_S524288x1_0 dst) ef

set_option maxHeartbeats 4000000 in
/-- What the second region finds as its gathered-features operand. -/
theorem V3_v37 (c : Dev nD) : V3 m ρ c main_v37
    = einpOf ((dat0 (V1 m ρ) c).arrAt 13 cfg0.N) (m ((c : Thread nD τ).loc main_arg3)) (m ((c : Thread nD τ).loc main_arg4)) := by
  have h22 : W2 m ρ c (Proc.devRef .tc main_v22_0) = (dat0 (V1 m ρ) c).arrAt 13 cfg0.N := W2_arr m ρ c 13
  have h3 : W2 m ρ c (Proc.devRef .tc main_arg3) = m ((c : Thread nD τ).loc main_arg3) := by
    rw [W2_of_ne m ρ c main_arg3 (by decide)]
    show StableHlo.after hostOps0 (W0 m ρ c) (Proc.devRef .tc main_arg3) = _
    after_results
  have h4 : W2 m ρ c (Proc.devRef .tc main_arg4) = m ((c : Thread nD τ).loc main_arg4) := by
    rw [W2_of_ne m ρ c main_arg4 (by decide)]
    show StableHlo.after hostOps0 (W0 m ρ c) (Proc.devRef .tc main_arg4) = _
    after_results
  show StableHlo.after hostOps1 (W2 m ρ c) (Proc.devRef .tc main_v37) = _
  after_results
  rw [h22, h3, h4]
  rfl

/-- What the third region finds as its aggregated-messages operand. -/
theorem V5_v41 (c : Dev nD) : V5 m ρ c main_v41
    = aggOf ((dat1 (V3 m ρ) c).arrAt 5 cfg1.N) (m ((c : Thread nD τ).loc main_arg4)) := by
  have h38 : W4 m ρ c (Proc.devRef .tc main_v38) = (dat1 (V3 m ρ) c).arrAt 5 cfg1.N := W4_arr m ρ c 5
  have h4 : W4 m ρ c (Proc.devRef .tc main_arg4) = m ((c : Thread nD τ).loc main_arg4) := by
    rw [W4_of_ne m ρ c main_arg4 (by decide)]
    show StableHlo.after hostOps1 (W2 m ρ c) (Proc.devRef .tc main_arg4) = _
    after_results
    rw [W2_of_ne m ρ c main_arg4 (by decide)]
    show StableHlo.after hostOps0 (W0 m ρ c) (Proc.devRef .tc main_arg4) = _
    after_results
  show StableHlo.after hostOps2 (W4 m ρ c) (Proc.devRef .tc main_v41) = _
  after_results
  rw [h38, h4]
  rfl

end Cert.KernelIdeal.RunVal

end
-- ==== Proof.MatmulAt.lean ====
/-
  A matrix product into a zero accumulator, read at one entry.

  At the ideal values `tpu.matmul a b 0` at row `p`, column `q` is the plain sum `∑ k, a (p, k) · b (k, q)` over the
  contracted axis: no rounding and no order of accumulation is left in it.  The library states the sum over the
  dimension record's own contraction index; here it is re-indexed over `Fin K` and the operands' indices are written by
  coordinates, once for each of the ten products the three kernels of this program take.
-/
import proofs.«159683_j88441966559674_1_alg».proof.Proof.Gen.KernelIdeal
import Idealize.ShloMosaic.PureOps.Ideal.Laws
import Idealize.ShloMosaic.Lib.ValueIdx

noncomputable section

open scoped BigOperators

namespace Cert.KernelIdeal.MatmulAt

open Idealize.ShloMosaic Idealize.ShloMosaic.ValueIdx Cert.KernelIdeal

/-- The left operand's row coordinate is the output's row. -/
theorem lrow_1024_256_512 (i : S1024x512.Idx) (q : dot_S1024x256_S256x512_S1024x512_1_0_0_1_n_n.contr.Idx) : (dot_S1024x256_S256x512_S1024x512_1_0_0_1_n_n.lhsIdx i q 0).val = (i 0).val := by
  unfold DotDims.lhsIdx
  rw [dif_neg (show ¬(0 : Fin S1024x256.rank) ∈ dot_S1024x256_S256x512_S1024x512_1_0_0_1_n_n.lhsBatch by decide),
    dif_pos (show (0 : Fin S1024x256.rank) ∈ dot_S1024x256_S256x512_S1024x512_1_0_0_1_n_n.lhsNonContracting by decide)]
  rfl
/-- The right operand's column coordinate is the output's column. -/
theorem rcol_1024_256_512 (i : S1024x512.Idx) (q : dot_S1024x256_S256x512_S1024x512_1_0_0_1_n_n.contr.Idx) : (dot_S1024x256_S256x512_S1024x512_1_0_0_1_n_n.rhsIdx i q 1).val = (i 1).val := by
  unfold DotDims.rhsIdx
  rw [dif_neg (show ¬(1 : Fin S256x512.rank) ∈ dot_S1024x256_S256x512_S1024x512_1_0_0_1_n_n.rhsBatch by decide),
    dif_pos (show (1 : Fin S256x512.rank) ∈ dot_S1024x256_S256x512_S1024x512_1_0_0_1_n_n.rhsNonContracting by decide)]
  rfl
/-- A `1024×256` by `256×512` product into a zero accumulator, at row `p` and column `q`. -/
theorem mm_1024_256_512 {φ₁ φ₂ : FTy} (a : FVec Ideal S1024x256 φ₁) (b : FVec Ideal S256x512 φ₂) (p : Fin 1024) (q : Fin 512) :
    matmul dot_S1024x256_S256x512_S1024x512_1_0_0_1_n_n none a b (constant (F := Ideal) S1024x512 .f32 0x00000000#32) (ix2 p q)
      = ∑ k : Fin 256, a (ix2 p k) * b (ix2 k q) := by
  simp only [matmul]
  rw [Ideal.matmul_constant_zero_apply, ← Equiv.sum_comp (contrEquiv1 dot_S1024x256_S256x512_S1024x512_1_0_0_1_n_n 256 rfl rfl).symm]
  refine Finset.sum_congr rfl fun k _ => ?_
  have hk := contrEquiv1_symm_val dot_S1024x256_S256x512_S1024x512_1_0_0_1_n_n 256 rfl rfl k
  have el : dot_S1024x256_S256x512_S1024x512_1_0_0_1_n_n.lhsIdx (ix2 p q) ((contrEquiv1 dot_S1024x256_S256x512_S1024x512_1_0_0_1_n_n 256 rfl rfl).symm k) = ix2 p k :=
    funext fun d => Fin.ext (by
      match d with
      | ⟨0, _⟩ => exact lrow_1024_256_512 _ _
      | ⟨1, _⟩ => exact (dot_S1024x256_S256x512_S1024x512_1_0_0_1_n_n.lhsIdx_val_of_single rfl _ _).trans hk)
  have er : dot_S1024x256_S256x512_S1024x512_1_0_0_1_n_n.rhsIdx (ix2 p q) ((contrEquiv1 dot_S1024x256_S256x512_S1024x512_1_0_0_1_n_n 256 rfl rfl).symm k) = ix2 k q :=
    funext fun d => Fin.ext (by
      match d with
      | ⟨0, _⟩ => exact (dot_S1024x256_S256x512_S1024x512_1_0_0_1_n_n.rhsIdx_val_of_single rfl _ _).trans hk
      | ⟨1, _⟩ => exact rcol_1024_256_512 _ _)
  rw [el, er]

/-- The left operand's row coordinate is the output's row. -/
theorem lrow_1024_512_256 (i : S1024x256.Idx) (q : dot_S1024x512_S512x256_S1024x256_1_0_0_1_n_n.contr.Idx) : (dot_S1024x512_S512x256_S1024x256_1_0_0_1_n_n.lhsIdx i q 0).val = (i 0).val := by
  unfold DotDims.lhsIdx
  rw [dif_neg (show ¬(0 : Fin S1024x512.rank) ∈ dot_S1024x512_S512x256_S1024x256_1_0_0_1_n_n.lhsBatch by decide),
    dif_pos (show (0 : Fin S1024x512.rank) ∈ dot_S1024x512_S512x256_S1024x256_1_0_0_1_n_n.lhsNonContracting by decide)]
  rfl
/-- The right operand's column coordinate is the output's column. -/
theorem rcol_1024_512_256 (i : S1024x256.Idx) (q : dot_S1024x512_S512x256_S1024x256_1_0_0_1_n_n.contr.Idx) : (dot_S1024x512_S512x256_S1024x256_1_0_0_1_n_n.rhsIdx i q 1).val = (i 1).val := by
  unfold DotDims.rhsIdx
  rw [dif_neg (show ¬(1 : Fin S512x256.rank) ∈ dot_S1024x512_S512x256_S1024x256_1_0_0_1_n_n.rhsBatch by decide),
    dif_pos (show (1 : Fin S512x256.rank) ∈ dot_S1024x512_S512x256_S1024x256_1_0_0_1_n_n.rhsNonContracting by decide)]
  rfl
/-- A `1024×512` by `512×256` product into a zero accumulator, at row `p` and column `q`. -/
theorem mm_1024_512_256 {φ₁ φ₂ : FTy} (a : FVec Ideal S1024x512 φ₁) (b : FVec Ideal S512x256 φ₂) (p : Fin 1024) (q : Fin 256) :
    matmul dot_S1024x512_S512x256_S1024x256_1_0_0_1_n_n none a b (constant (F := Ideal) S1024x256 .f32 0x00000000#32) (ix2 p q)
      = ∑ k : Fin 512, a (ix2 p k) * b (ix2 k q) := by
  simp only [matmul]
  rw [Ideal.matmul_constant_zero_apply, ← Equiv.sum_comp (contrEquiv1 dot_S1024x512_S512x256_S1024x256_1_0_0_1_n_n 512 rfl rfl).symm]
  refine Finset.sum_congr rfl fun k _ => ?_
  have hk := contrEquiv1_symm_val dot_S1024x512_S512x256_S1024x256_1_0_0_1_n_n 512 rfl rfl k
  have el : dot_S1024x512_S512x256_S1024x256_1_0_0_1_n_n.lhsIdx (ix2 p q) ((contrEquiv1 dot_S1024x512_S512x256_S1024x256_1_0_0_1_n_n 512 rfl rfl).symm k) = ix2 p k :=
    funext fun d => Fin.ext (by
      match d with
      | ⟨0, _⟩ => exact lrow_1024_512_256 _ _
      | ⟨1, _⟩ => exact (dot_S1024x512_S512x256_S1024x256_1_0_0_1_n_n.lhsIdx_val_of_single rfl _ _).trans hk)
  have er : dot_S1024x512_S512x256_S1024x256_1_0_0_1_n_n.rhsIdx (ix2 p q) ((contrEquiv1 dot_S1024x512_S512x256_S1024x256_1_0_0_1_n_n 512 rfl rfl).symm k) = ix2 k q :=
    funext fun d => Fin.ext (by
      match d with
      | ⟨0, _⟩ => exact (dot_S1024x512_S512x256_S1024x256_1_0_0_1_n_n.rhsIdx_val_of_single rfl _ _).trans hk
      | ⟨1, _⟩ => exact rcol_1024_512_256 _ _)
  rw [el, er]

/-- The left operand's row coordinate is the output's row. -/
theorem lrow_1024_256_1024 (i : S1024x1024.Idx) (q : dot_S1024x256_S256x1024_S1024x1024_1_0_0_1_n_n.contr.Idx) : (dot_S1024x256_S256x1024_S1024x1024_1_0_0_1_n_n.lhsIdx i q 0).val = (i 0).val := by
  unfold DotDims.lhsIdx
  rw [dif_neg (show ¬(0 : Fin S1024x256.rank) ∈ dot_S1024x256_S256x1024_S1024x1024_1_0_0_1_n_n.lhsBatch by decide),
    dif_pos (show (0 : Fin S1024x256.rank) ∈ dot_S1024x256_S256x1024_S1024x1024_1_0_0_1_n_n.lhsNonContracting by decide)]
  rfl
/-- The right operand's column coordinate is the output's column. -/
theorem rcol_1024_256_1024 (i : S1024x1024.Idx) (q : dot_S1024x256_S256x1024_S1024x1024_1_0_0_1_n_n.contr.Idx) : (dot_S1024x256_S256x1024_S1024x1024_1_0_0_1_n_n.rhsIdx i q 1).val = (i 1).val := by
  unfold DotDims.rhsIdx
  rw [dif_neg (show ¬(1 : Fin S256x1024.rank) ∈ dot_S1024x256_S256x1024_S1024x1024_1_0_0_1_n_n.rhsBatch by decide),
    dif_pos (show (1 : Fin S256x1024.rank) ∈ dot_S1024x256_S256x1024_S1024x1024_1_0_0_1_n_n.rhsNonContracting by decide)]
  rfl
/-- A `1024×256` by `256×1024` product into a zero accumulator, at row `p` and column `q`. -/
theorem mm_1024_256_1024 {φ₁ φ₂ : FTy} (a : FVec Ideal S1024x256 φ₁) (b : FVec Ideal S256x1024 φ₂) (p : Fin 1024) (q : Fin 1024) :
    matmul dot_S1024x256_S256x1024_S1024x1024_1_0_0_1_n_n none a b (constant (F := Ideal) S1024x1024 .f32 0x00000000#32) (ix2 p q)
      = ∑ k : Fin 256, a (ix2 p k) * b (ix2 k q) := by
  simp only [matmul]
  rw [Ideal.matmul_constant_zero_apply, ← Equiv.sum_comp (contrEquiv1 dot_S1024x256_S256x1024_S1024x1024_1_0_0_1_n_n 256 rfl rfl).symm]
  refine Finset.sum_congr rfl fun k _ => ?_
  have hk := contrEquiv1_symm_val dot_S1024x256_S256x1024_S1024x1024_1_0_0_1_n_n 256 rfl rfl k
  have el : dot_S1024x256_S256x1024_S1024x1024_1_0_0_1_n_n.lhsIdx (ix2 p q) ((contrEquiv1 dot_S1024x256_S256x1024_S1024x1024_1_0_0_1_n_n 256 rfl rfl).symm k) = ix2 p k :=
    funext fun d => Fin.ext (by
      match d with
      | ⟨0, _⟩ => exact lrow_1024_256_1024 _ _
      | ⟨1, _⟩ => exact (dot_S1024x256_S256x1024_S1024x1024_1_0_0_1_n_n.lhsIdx_val_of_single rfl _ _).trans hk)
  have er : dot_S1024x256_S256x1024_S1024x1024_1_0_0_1_n_n.rhsIdx (ix2 p q) ((contrEquiv1 dot_S1024x256_S256x1024_S1024x1024_1_0_0_1_n_n 256 rfl rfl).symm k) = ix2 k q :=
    funext fun d => Fin.ext (by
      match d with
      | ⟨0, _⟩ => exact (dot_S1024x256_S256x1024_S1024x1024_1_0_0_1_n_n.rhsIdx_val_of_single rfl _ _).trans hk
      | ⟨1, _⟩ => exact rcol_1024_256_1024 _ _)
  rw [el, er]

/-- The left operand's row coordinate is the output's row. -/
theorem lrow_1024_256_128 (i : S1024x128.Idx) (q : dot_S1024x256_S256x128_S1024x128_1_0_0_1_n_n.contr.Idx) : (dot_S1024x256_S256x128_S1024x128_1_0_0_1_n_n.lhsIdx i q 0).val = (i 0).val := by
  unfold DotDims.lhsIdx
  rw [dif_neg (show ¬(0 : Fin S1024x256.rank) ∈ dot_S1024x256_S256x128_S1024x128_1_0_0_1_n_n.lhsBatch by decide),
    dif_pos (show (0 : Fin S1024x256.rank) ∈ dot_S1024x256_S256x128_S1024x128_1_0_0_1_n_n.lhsNonContracting by decide)]
  rfl
/-- The right operand's column coordinate is the output's column. -/
theorem rcol_1024_256_128 (i : S1024x128.Idx) (q : dot_S1024x256_S256x128_S1024x128_1_0_0_1_n_n.contr.Idx) : (dot_S1024x256_S256x128_S1024x128_1_0_0_1_n_n.rhsIdx i q 1).val = (i 1).val := by
  unfold DotDims.rhsIdx
  rw [dif_neg (show ¬(1 : Fin S256x128.rank) ∈ dot_S1024x256_S256x128_S1024x128_1_0_0_1_n_n.rhsBatch by decide),
    dif_pos (show (1 : Fin S256x128.rank) ∈ dot_S1024x256_S256x128_S1024x128_1_0_0_1_n_n.rhsNonContracting by decide)]
  rfl
/-- A `1024×256` by `256×128` product into a zero accumulator, at row `p` and column `q`. -/
theorem mm_1024_256_128 {φ₁ φ₂ : FTy} (a : FVec Ideal S1024x256 φ₁) (b : FVec Ideal S256x128 φ₂) (p : Fin 1024) (q : Fin 128) :
    matmul dot_S1024x256_S256x128_S1024x128_1_0_0_1_n_n none a b (constant (F := Ideal) S1024x128 .f32 0x00000000#32) (ix2 p q)
      = ∑ k : Fin 256, a (ix2 p k) * b (ix2 k q) := by
  simp only [matmul]
  rw [Ideal.matmul_constant_zero_apply, ← Equiv.sum_comp (contrEquiv1 dot_S1024x256_S256x128_S1024x128_1_0_0_1_n_n 256 rfl rfl).symm]
  refine Finset.sum_congr rfl fun k _ => ?_
  have hk := contrEquiv1_symm_val dot_S1024x256_S256x128_S1024x128_1_0_0_1_n_n 256 rfl rfl k
  have el : dot_S1024x256_S256x128_S1024x128_1_0_0_1_n_n.lhsIdx (ix2 p q) ((contrEquiv1 dot_S1024x256_S256x128_S1024x128_1_0_0_1_n_n 256 rfl rfl).symm k) = ix2 p k :=
    funext fun d => Fin.ext (by
      match d with
      | ⟨0, _⟩ => exact lrow_1024_256_128 _ _
      | ⟨1, _⟩ => exact (dot_S1024x256_S256x128_S1024x128_1_0_0_1_n_n.lhsIdx_val_of_single rfl _ _).trans hk)
  have er : dot_S1024x256_S256x128_S1024x128_1_0_0_1_n_n.rhsIdx (ix2 p q) ((contrEquiv1 dot_S1024x256_S256x128_S1024x128_1_0_0_1_n_n 256 rfl rfl).symm k) = ix2 k q :=
    funext fun d => Fin.ext (by
      match d with
      | ⟨0, _⟩ => exact (dot_S1024x256_S256x128_S1024x128_1_0_0_1_n_n.rhsIdx_val_of_single rfl _ _).trans hk
      | ⟨1, _⟩ => exact rcol_1024_256_128 _ _)
  rw [el, er]

/-- The left operand's row coordinate is the output's row. -/
theorem lrow_8192_256_256 (i : S8192x256.Idx) (q : dot_S8192x256_S256x256_S8192x256_1_0_0_1_n_n.contr.Idx) : (dot_S8192x256_S256x256_S8192x256_1_0_0_1_n_n.lhsIdx i q 0).val = (i 0).val := by
  unfold DotDims.lhsIdx
  rw [dif_neg (show ¬(0 : Fin S8192x256.rank) ∈ dot_S8192x256_S256x256_S8192x256_1_0_0_1_n_n.lhsBatch by decide),
    dif_pos (show (0 : Fin S8192x256.rank) ∈ dot_S8192x256_S256x256_S8192x256_1_0_0_1_n_n.lhsNonContracting by decide)]
  rfl
/-- The right operand's column coordinate is the output's column. -/
theorem rcol_8192_256_256 (i : S8192x256.Idx) (q : dot_S8192x256_S256x256_S8192x256_1_0_0_1_n_n.contr.Idx) : (dot_S8192x256_S256x256_S8192x256_1_0_0_1_n_n.rhsIdx i q 1).val = (i 1).val := by
  unfold DotDims.rhsIdx
  rw [dif_neg (show ¬(1 : Fin S256x256.rank) ∈ dot_S8192x256_S256x256_S8192x256_1_0_0_1_n_n.rhsBatch by decide),
    dif_pos (show (1 : Fin S256x256.rank) ∈ dot_S8192x256_S256x256_S8192x256_1_0_0_1_n_n.rhsNonContracting by decide)]
  rfl
/-- A `8192×256` by `256×256` product into a zero accumulator, at row `p` and column `q`. -/
theorem mm_8192_256_256 {φ₁ φ₂ : FTy} (a : FVec Ideal S8192x256 φ₁) (b : FVec Ideal S256x256 φ₂) (p : Fin 8192) (q : Fin 256) :
    matmul dot_S8192x256_S256x256_S8192x256_1_0_0_1_n_n none a b (constant (F := Ideal) S8192x256 .f32 0x00000000#32) (ix2 p q)
      = ∑ k : Fin 256, a (ix2 p k) * b (ix2 k q) := by
  simp only [matmul]
  rw [Ideal.matmul_constant_zero_apply, ← Equiv.sum_comp (contrEquiv1 dot_S8192x256_S256x256_S8192x256_1_0_0_1_n_n 256 rfl rfl).symm]
  refine Finset.sum_congr rfl fun k _ => ?_
  have hk := contrEquiv1_symm_val dot_S8192x256_S256x256_S8192x256_1_0_0_1_n_n 256 rfl rfl k
  have el : dot_S8192x256_S256x256_S8192x256_1_0_0_1_n_n.lhsIdx (ix2 p q) ((contrEquiv1 dot_S8192x256_S256x256_S8192x256_1_0_0_1_n_n 256 rfl rfl).symm k) = ix2 p k :=
    funext fun d => Fin.ext (by
      match d with
      | ⟨0, _⟩ => exact lrow_8192_256_256 _ _
      | ⟨1, _⟩ => exact (dot_S8192x256_S256x256_S8192x256_1_0_0_1_n_n.lhsIdx_val_of_single rfl _ _).trans hk)
  have er : dot_S8192x256_S256x256_S8192x256_1_0_0_1_n_n.rhsIdx (ix2 p q) ((contrEquiv1 dot_S8192x256_S256x256_S8192x256_1_0_0_1_n_n 256 rfl rfl).symm k) = ix2 k q :=
    funext fun d => Fin.ext (by
      match d with
      | ⟨0, _⟩ => exact (dot_S8192x256_S256x256_S8192x256_1_0_0_1_n_n.rhsIdx_val_of_single rfl _ _).trans hk
      | ⟨1, _⟩ => exact rcol_8192_256_256 _ _)
  rw [el, er]

/-- The left operand's row coordinate is the output's row. -/
theorem lrow_8192_256_128 (i : S8192x128.Idx) (q : dot_S8192x256_S256x128_S8192x128_1_0_0_1_n_n.contr.Idx) : (dot_S8192x256_S256x128_S8192x128_1_0_0_1_n_n.lhsIdx i q 0).val = (i 0).val := by
  unfold DotDims.lhsIdx
  rw [dif_neg (show ¬(0 : Fin S8192x256.rank) ∈ dot_S8192x256_S256x128_S8192x128_1_0_0_1_n_n.lhsBatch by decide),
    dif_pos (show (0 : Fin S8192x256.rank) ∈ dot_S8192x256_S256x128_S8192x128_1_0_0_1_n_n.lhsNonContracting by decide)]
  rfl
/-- The right operand's column coordinate is the output's column. -/
theorem rcol_8192_256_128 (i : S8192x128.Idx) (q : dot_S8192x256_S256x128_S8192x128_1_0_0_1_n_n.contr.Idx) : (dot_S8192x256_S256x128_S8192x128_1_0_0_1_n_n.rhsIdx i q 1).val = (i 1).val := by
  unfold DotDims.rhsIdx
  rw [dif_neg (show ¬(1 : Fin S256x128.rank) ∈ dot_S8192x256_S256x128_S8192x128_1_0_0_1_n_n.rhsBatch by decide),
    dif_pos (show (1 : Fin S256x128.rank) ∈ dot_S8192x256_S256x128_S8192x128_1_0_0_1_n_n.rhsNonContracting by decide)]
  rfl
/-- A `8192×256` by `256×128` product into a zero accumulator, at row `p` and column `q`. -/
theorem mm_8192_256_128 {φ₁ φ₂ : FTy} (a : FVec Ideal S8192x256 φ₁) (b : FVec Ideal S256x128 φ₂) (p : Fin 8192) (q : Fin 128) :
    matmul dot_S8192x256_S256x128_S8192x128_1_0_0_1_n_n none a b (constant (F := Ideal) S8192x128 .f32 0x00000000#32) (ix2 p q)
      = ∑ k : Fin 256, a (ix2 p k) * b (ix2 k q) := by
  simp only [matmul]
  rw [Ideal.matmul_constant_zero_apply, ← Equiv.sum_comp (contrEquiv1 dot_S8192x256_S256x128_S8192x128_1_0_0_1_n_n 256 rfl rfl).symm]
  refine Finset.sum_congr rfl fun k _ => ?_
  have hk := contrEquiv1_symm_val dot_S8192x256_S256x128_S8192x128_1_0_0_1_n_n 256 rfl rfl k
  have el : dot_S8192x256_S256x128_S8192x128_1_0_0_1_n_n.lhsIdx (ix2 p q) ((contrEquiv1 dot_S8192x256_S256x128_S8192x128_1_0_0_1_n_n 256 rfl rfl).symm k) = ix2 p k :=
    funext fun d => Fin.ext (by
      match d with
      | ⟨0, _⟩ => exact lrow_8192_256_128 _ _
      | ⟨1, _⟩ => exact (dot_S8192x256_S256x128_S8192x128_1_0_0_1_n_n.lhsIdx_val_of_single rfl _ _).trans hk)
  have er : dot_S8192x256_S256x128_S8192x128_1_0_0_1_n_n.rhsIdx (ix2 p q) ((contrEquiv1 dot_S8192x256_S256x128_S8192x128_1_0_0_1_n_n 256 rfl rfl).symm k) = ix2 k q :=
    funext fun d => Fin.ext (by
      match d with
      | ⟨0, _⟩ => exact (dot_S8192x256_S256x128_S8192x128_1_0_0_1_n_n.rhsIdx_val_of_single rfl _ _).trans hk
      | ⟨1, _⟩ => exact rcol_8192_256_128 _ _)
  rw [el, er]

/-- The left operand's row coordinate is the output's row. -/
theorem lrow_2048_256_256 (i : S2048x256.Idx) (q : dot_S2048x256_S256x256_S2048x256_1_0_0_1_n_n.contr.Idx) : (dot_S2048x256_S256x256_S2048x256_1_0_0_1_n_n.lhsIdx i q 0).val = (i 0).val := by
  unfold DotDims.lhsIdx
  rw [dif_neg (show ¬(0 : Fin S2048x256.rank) ∈ dot_S2048x256_S256x256_S2048x256_1_0_0_1_n_n.lhsBatch by decide),
    dif_pos (show (0 : Fin S2048x256.rank) ∈ dot_S2048x256_S256x256_S2048x256_1_0_0_1_n_n.lhsNonContracting by decide)]
  rfl
/-- The right operand's column coordinate is the output's column. -/
theorem rcol_2048_256_256 (i : S2048x256.Idx) (q : dot_S2048x256_S256x256_S2048x256_1_0_0_1_n_n.contr.Idx) : (dot_S2048x256_S256x256_S2048x256_1_0_0_1_n_n.rhsIdx i q 1).val = (i 1).val := by
  unfold DotDims.rhsIdx
  rw [dif_neg (show ¬(1 : Fin S256x256.rank) ∈ dot_S2048x256_S256x256_S2048x256_1_0_0_1_n_n.rhsBatch by decide),
    dif_pos (show (1 : Fin S256x256.rank) ∈ dot_S2048x256_S256x256_S2048x256_1_0_0_1_n_n.rhsNonContracting by decide)]
  rfl
/-- A `2048×256` by `256×256` product into a zero accumulator, at row `p` and column `q`. -/
theorem mm_2048_256_256 {φ₁ φ₂ : FTy} (a : FVec Ideal S2048x256 φ₁) (b : FVec Ideal S256x256 φ₂) (p : Fin 2048) (q : Fin 256) :
    matmul dot_S2048x256_S256x256_S2048x256_1_0_0_1_n_n none a b (constant (F := Ideal) S2048x256 .f32 0x00000000#32) (ix2 p q)
      = ∑ k : Fin 256, a (ix2 p k) * b (ix2 k q) := by
  simp only [matmul]
  rw [Ideal.matmul_constant_zero_apply, ← Equiv.sum_comp (contrEquiv1 dot_S2048x256_S256x256_S2048x256_1_0_0_1_n_n 256 rfl rfl).symm]
  refine Finset.sum_congr rfl fun k _ => ?_
  have hk := contrEquiv1_symm_val dot_S2048x256_S256x256_S2048x256_1_0_0_1_n_n 256 rfl rfl k
  have el : dot_S2048x256_S256x256_S2048x256_1_0_0_1_n_n.lhsIdx (ix2 p q) ((contrEquiv1 dot_S2048x256_S256x256_S2048x256_1_0_0_1_n_n 256 rfl rfl).symm k) = ix2 p k :=
    funext fun d => Fin.ext (by
      match d with
      | ⟨0, _⟩ => exact lrow_2048_256_256 _ _
      | ⟨1, _⟩ => exact (dot_S2048x256_S256x256_S2048x256_1_0_0_1_n_n.lhsIdx_val_of_single rfl _ _).trans hk)
  have er : dot_S2048x256_S256x256_S2048x256_1_0_0_1_n_n.rhsIdx (ix2 p q) ((contrEquiv1 dot_S2048x256_S256x256_S2048x256_1_0_0_1_n_n 256 rfl rfl).symm k) = ix2 k q :=
    funext fun d => Fin.ext (by
      match d with
      | ⟨0, _⟩ => exact (dot_S2048x256_S256x256_S2048x256_1_0_0_1_n_n.rhsIdx_val_of_single rfl _ _).trans hk
      | ⟨1, _⟩ => exact rcol_2048_256_256 _ _)
  rw [el, er]

/-- The left operand's row coordinate is the output's row. -/
theorem lrow_2048_256_128 (i : S2048x128.Idx) (q : dot_S2048x256_S256x128_S2048x128_1_0_0_1_n_n.contr.Idx) : (dot_S2048x256_S256x128_S2048x128_1_0_0_1_n_n.lhsIdx i q 0).val = (i 0).val := by
  unfold DotDims.lhsIdx
  rw [dif_neg (show ¬(0 : Fin S2048x256.rank) ∈ dot_S2048x256_S256x128_S2048x128_1_0_0_1_n_n.lhsBatch by decide),
    dif_pos (show (0 : Fin S2048x256.rank) ∈ dot_S2048x256_S256x128_S2048x128_1_0_0_1_n_n.lhsNonContracting by decide)]
  rfl
/-- The right operand's column coordinate is the output's column. -/
theorem rcol_2048_256_128 (i : S2048x128.Idx) (q : dot_S2048x256_S256x128_S2048x128_1_0_0_1_n_n.contr.Idx) : (dot_S2048x256_S256x128_S2048x128_1_0_0_1_n_n.rhsIdx i q 1).val = (i 1).val := by
  unfold DotDims.rhsIdx
  rw [dif_neg (show ¬(1 : Fin S256x128.rank) ∈ dot_S2048x256_S256x128_S2048x128_1_0_0_1_n_n.rhsBatch by decide),
    dif_pos (show (1 : Fin S256x128.rank) ∈ dot_S2048x256_S256x128_S2048x128_1_0_0_1_n_n.rhsNonContracting by decide)]
  rfl
/-- A `2048×256` by `256×128` product into a zero accumulator, at row `p` and column `q`. -/
theorem mm_2048_256_128 {φ₁ φ₂ : FTy} (a : FVec Ideal S2048x256 φ₁) (b : FVec Ideal S256x128 φ₂) (p : Fin 2048) (q : Fin 128) :
    matmul dot_S2048x256_S256x128_S2048x128_1_0_0_1_n_n none a b (constant (F := Ideal) S2048x128 .f32 0x00000000#32) (ix2 p q)
      = ∑ k : Fin 256, a (ix2 p k) * b (ix2 k q) := by
  simp only [matmul]
  rw [Ideal.matmul_constant_zero_apply, ← Equiv.sum_comp (contrEquiv1 dot_S2048x256_S256x128_S2048x128_1_0_0_1_n_n 256 rfl rfl).symm]
  refine Finset.sum_congr rfl fun k _ => ?_
  have hk := contrEquiv1_symm_val dot_S2048x256_S256x128_S2048x128_1_0_0_1_n_n 256 rfl rfl k
  have el : dot_S2048x256_S256x128_S2048x128_1_0_0_1_n_n.lhsIdx (ix2 p q) ((contrEquiv1 dot_S2048x256_S256x128_S2048x128_1_0_0_1_n_n 256 rfl rfl).symm k) = ix2 p k :=
    funext fun d => Fin.ext (by
      match d with
      | ⟨0, _⟩ => exact lrow_2048_256_128 _ _
      | ⟨1, _⟩ => exact (dot_S2048x256_S256x128_S2048x128_1_0_0_1_n_n.lhsIdx_val_of_single rfl _ _).trans hk)
  have er : dot_S2048x256_S256x128_S2048x128_1_0_0_1_n_n.rhsIdx (ix2 p q) ((contrEquiv1 dot_S2048x256_S256x128_S2048x128_1_0_0_1_n_n 256 rfl rfl).symm k) = ix2 k q :=
    funext fun d => Fin.ext (by
      match d with
      | ⟨0, _⟩ => exact (dot_S2048x256_S256x128_S2048x128_1_0_0_1_n_n.rhsIdx_val_of_single rfl _ _).trans hk
      | ⟨1, _⟩ => exact rcol_2048_256_128 _ _)
  rw [el, er]

/-- The left operand's row coordinate is the output's row. -/
theorem lrow_2048_128_256 (i : S2048x256.Idx) (q : dot_S2048x128_S128x256_S2048x256_1_0_0_1_n_n.contr.Idx) : (dot_S2048x128_S128x256_S2048x256_1_0_0_1_n_n.lhsIdx i q 0).val = (i 0).val := by
  unfold DotDims.lhsIdx
  rw [dif_neg (show ¬(0 : Fin S2048x128.rank) ∈ dot_S2048x128_S128x256_S2048x256_1_0_0_1_n_n.lhsBatch by decide),
    dif_pos (show (0 : Fin S2048x128.rank) ∈ dot_S2048x128_S128x256_S2048x256_1_0_0_1_n_n.lhsNonContracting by decide)]
  rfl
/-- The right operand's column coordinate is the output's column. -/
theorem rcol_2048_128_256 (i : S2048x256.Idx) (q : dot_S2048x128_S128x256_S2048x256_1_0_0_1_n_n.contr.Idx) : (dot_S2048x128_S128x256_S2048x256_1_0_0_1_n_n.rhsIdx i q 1).val = (i 1).val := by
  unfold DotDims.rhsIdx
  rw [dif_neg (show ¬(1 : Fin S128x256.rank) ∈ dot_S2048x128_S128x256_S2048x256_1_0_0_1_n_n.rhsBatch by decide),
    dif_pos (show (1 : Fin S128x256.rank) ∈ dot_S2048x128_S128x256_S2048x256_1_0_0_1_n_n.rhsNonContracting by decide)]
  rfl
/-- A `2048×128` by `128×256` product into a zero accumulator, at row `p` and column `q`. -/
theorem mm_2048_128_256 {φ₁ φ₂ : FTy} (a : FVec Ideal S2048x128 φ₁) (b : FVec Ideal S128x256 φ₂) (p : Fin 2048) (q : Fin 256) :
    matmul dot_S2048x128_S128x256_S2048x256_1_0_0_1_n_n none a b (constant (F := Ideal) S2048x256 .f32 0x00000000#32) (ix2 p q)
      = ∑ k : Fin 128, a (ix2 p k) * b (ix2 k q) := by
  simp only [matmul]
  rw [Ideal.matmul_constant_zero_apply, ← Equiv.sum_comp (contrEquiv1 dot_S2048x128_S128x256_S2048x256_1_0_0_1_n_n 128 rfl rfl).symm]
  refine Finset.sum_congr rfl fun k _ => ?_
  have hk := contrEquiv1_symm_val dot_S2048x128_S128x256_S2048x256_1_0_0_1_n_n 128 rfl rfl k
  have el : dot_S2048x128_S128x256_S2048x256_1_0_0_1_n_n.lhsIdx (ix2 p q) ((contrEquiv1 dot_S2048x128_S128x256_S2048x256_1_0_0_1_n_n 128 rfl rfl).symm k) = ix2 p k :=
    funext fun d => Fin.ext (by
      match d with
      | ⟨0, _⟩ => exact lrow_2048_128_256 _ _
      | ⟨1, _⟩ => exact (dot_S2048x128_S128x256_S2048x256_1_0_0_1_n_n.lhsIdx_val_of_single rfl _ _).trans hk)
  have er : dot_S2048x128_S128x256_S2048x256_1_0_0_1_n_n.rhsIdx (ix2 p q) ((contrEquiv1 dot_S2048x128_S128x256_S2048x256_1_0_0_1_n_n 128 rfl rfl).symm k) = ix2 k q :=
    funext fun d => Fin.ext (by
      match d with
      | ⟨0, _⟩ => exact (dot_S2048x128_S128x256_S2048x256_1_0_0_1_n_n.rhsIdx_val_of_single rfl _ _).trans hk
      | ⟨1, _⟩ => exact rcol_2048_128_256 _ _)
  rw [el, er]

/-- The left operand's row coordinate is the output's row. -/
theorem lrow_2048_256_8 (i : S2048x8.Idx) (q : dot_S2048x256_S256x8_S2048x8_1_0_0_1_n_n.contr.Idx) : (dot_S2048x256_S256x8_S2048x8_1_0_0_1_n_n.lhsIdx i q 0).val = (i 0).val := by
  unfold DotDims.lhsIdx
  rw [dif_neg (show ¬(0 : Fin S2048x256.rank) ∈ dot_S2048x256_S256x8_S2048x8_1_0_0_1_n_n.lhsBatch by decide),
    dif_pos (show (0 : Fin S2048x256.rank) ∈ dot_S2048x256_S256x8_S2048x8_1_0_0_1_n_n.lhsNonContracting by decide)]
  rfl
/-- The right operand's column coordinate is the output's column. -/
theorem rcol_2048_256_8 (i : S2048x8.Idx) (q : dot_S2048x256_S256x8_S2048x8_1_0_0_1_n_n.contr.Idx) : (dot_S2048x256_S256x8_S2048x8_1_0_0_1_n_n.rhsIdx i q 1).val = (i 1).val := by
  unfold DotDims.rhsIdx
  rw [dif_neg (show ¬(1 : Fin S256x8.rank) ∈ dot_S2048x256_S256x8_S2048x8_1_0_0_1_n_n.rhsBatch by decide),
    dif_pos (show (1 : Fin S256x8.rank) ∈ dot_S2048x256_S256x8_S2048x8_1_0_0_1_n_n.rhsNonContracting by decide)]
  rfl
/-- A `2048×256` by `256×8` product into a zero accumulator, at row `p` and column `q`. -/
theorem mm_2048_256_8 {φ₁ φ₂ : FTy} (a : FVec Ideal S2048x256 φ₁) (b : FVec Ideal S256x8 φ₂) (p : Fin 2048) (q : Fin 8) :
    matmul dot_S2048x256_S256x8_S2048x8_1_0_0_1_n_n none a b (constant (F := Ideal) S2048x8 .f32 0x00000000#32) (ix2 p q)
      = ∑ k : Fin 256, a (ix2 p k) * b (ix2 k q) := by
  simp only [matmul]
  rw [Ideal.matmul_constant_zero_apply, ← Equiv.sum_comp (contrEquiv1 dot_S2048x256_S256x8_S2048x8_1_0_0_1_n_n 256 rfl rfl).symm]
  refine Finset.sum_congr rfl fun k _ => ?_
  have hk := contrEquiv1_symm_val dot_S2048x256_S256x8_S2048x8_1_0_0_1_n_n 256 rfl rfl k
  have el : dot_S2048x256_S256x8_S2048x8_1_0_0_1_n_n.lhsIdx (ix2 p q) ((contrEquiv1 dot_S2048x256_S256x8_S2048x8_1_0_0_1_n_n 256 rfl rfl).symm k) = ix2 p k :=
    funext fun d => Fin.ext (by
      match d with
      | ⟨0, _⟩ => exact lrow_2048_256_8 _ _
      | ⟨1, _⟩ => exact (dot_S2048x256_S256x8_S2048x8_1_0_0_1_n_n.lhsIdx_val_of_single rfl _ _).trans hk)
  have er : dot_S2048x256_S256x8_S2048x8_1_0_0_1_n_n.rhsIdx (ix2 p q) ((contrEquiv1 dot_S2048x256_S256x8_S2048x8_1_0_0_1_n_n 256 rfl rfl).symm k) = ix2 k q :=
    funext fun d => Fin.ext (by
      match d with
      | ⟨0, _⟩ => exact (dot_S2048x256_S256x8_S2048x8_1_0_0_1_n_n.rhsIdx_val_of_single rfl _ _).trans hk
      | ⟨1, _⟩ => exact rcol_2048_256_8 _ _)
  rw [el, er]

end Cert.KernelIdeal.MatmulAt

end
-- ==== Proof.NodeVal.lean ====
/-
  The node kernel's values: after the first region the three result arrays hold, at node `n`, the node features, the new
  hidden state and the new cell state of row `n` of the observations and of the previous hidden and cell states.

  The kernel works on 64 blocks of 1024 nodes.  At a grid point the body loads the point's blocks of the observations
  `x`, the previous hidden state `h` and the previous cell state `c`, and the whole transposed weights and one-row
  biases.  It forms the encoded row `e = relu(x · W₁ₐ + b₁ₐ) · W₁ᵦ + b₁ᵦ`, the 1024 pre-activations
  `g = (e · Wᵢₕ + h · Wₕₕ) + (bᵢₕ + bₕₕ)`, cuts `g` into four ranges of 256 columns (input gate from 0, forget gate from
  256, candidate from 512, output gate from 768), and stores the new cell `σ(g_f) · c + σ(g_i) · tanh(g_c)`, the new
  hidden state `σ(g_o) · tanh(c')` and the node features `relu(h') · W₁ + b₁`.  Every matrix product is into a zero
  accumulator, so at one entry it is a plain finite sum; the roundings to bf16 on the way into the products are the
  identity on the extended reals; nothing is reassociated, so each stored entry is, term for term, the row function of
  `Proof/RowSpec.lean` (`pay5_at`, `pay1_at`, `gates_at`, `pay2_at`, `pay3_at`, `pay4_at`, and their compositions
  `c1_pay`, `h1_pay`, `nf_pay`).  A moving block's row `r` at point `t` is the array's row `1024·t + r` (`blk0_0` …
  `blk0_2`), the weights' blocks are the whole weights (`blk0_3` … `blk0_12`), so what point `t` writes back through each
  result window is block `t` of `ArraySpec.nodeNF`, `nodeH1`, `nodeC1` (`flushed0_13`, `flushed0_14`, `flushed0_15`); the
  blocks tile the arrays (`final0_nf`, `final0_h1`, `final0_c1`).  Everything is stated for ANY contents `V` the region
  may find: which arrays those are is the run's business.
-/
import proofs.«159683_j88441966559674_1_alg».proof.Proof.Gen.KernelIdeal.Frame
import proofs.«159683_j88441966559674_1_alg».proof.Proof.RowSpec
import proofs.«159683_j88441966559674_1_alg».proof.Proof.ArraySpec
import proofs.«159683_j88441966559674_1_alg».proof.Proof.MatmulAt
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

open scoped BigOperators

namespace Cert.KernelIdeal.NodeVal

open Idealize.ShloMosaic Idealize.ShloMosaic.ValueIdx Idealize.ShloMosaic.TcCoe Idealize.SL.Sem
open Idealize.ShloMosaic.Pipeline (Dat Cfg Window)
open Cert.KernelIdeal Cert.KernelIdeal.Gen Cert.KernelIdeal.MatmulAt Cert.RowSpec Cert.ArraySpec

/-- The sum of the two recurrent products at row `r`, pre-activation `j`: the encoded observation row (an affine layer
    into 512 features, the rectifier, an affine layer into 256) against column `j` of the transposed input weight, plus
    the previous hidden row against column `j` of the transposed hidden weight. -/
theorem pay5_at (v0 : FVec Ideal S1024x256 .f32) (v2 : FVec Ideal S256x512 .f32) (v6 : FVec Ideal S1x512 .f32)
    (v12 : FVec Ideal S512x256 .f32) (v17 : FVec Ideal S1x256 .f32) (v21 : FVec Ideal S1024x256 .f32)
    (v23 : FVec Ideal S256x1024 .f32) (v26 : FVec Ideal S256x1024 .f32) (r : Fin 1024) (j : Fin 1024) :
    Gen.k0_pay5 (F := Ideal) v0 v2 v6 v12 v17 v21 v23 v26 (ix2 r j)
      = (∑ k : Fin 256, enc (fun k => v0 (ix2 r k)) (fun j k => v2 (ix2 k j)) (fun j => v6 (ix2 (0 : Fin 1) j))
            (fun j k => v12 (ix2 k j)) (fun j => v17 (ix2 (0 : Fin 1) j)) k * v23 (ix2 k j))
        + ∑ k : Fin 256, v21 (ix2 r k) * v26 (ix2 k j) := by
  unfold Gen.k0_pay5 enc lin relu
  simp only [shapeCast_self]
  refine congrArg₂ (· + ·) ((mm_1024_256_1024 _ _ r j).trans (Finset.sum_congr rfl fun k _ => ?_))
    ((mm_1024_256_1024 _ _ r j).trans (Finset.sum_congr rfl fun _ _ => rfl))
  refine congrArg₂ (· * ·) ?_ rfl
  refine congrArg₂ (· + ·) ((mm_1024_512_256 _ _ r k).trans (Finset.sum_congr rfl fun l _ => ?_))
    (broadcastTo_1b_ab_apply _ _ r k)
  refine congrArg₂ (· * ·) ?_ rfl
  refine congrArg₂ max (congrArg₂ (· + ·) (mm_1024_256_512 _ _ r l) (broadcastTo_1b_ab_apply _ _ r l)) ?_
  exact Ideal.ofBits_zero_f32

/-- Adding the two one-row biases, summed first, to every row. -/
theorem pay1_at (v33 : FVec Ideal S1024x1024 .f32) (v34 : FVec Ideal S1x1024 .f32) (v36 : FVec Ideal S1x1024 .f32)
    (r : Fin 1024) (j : Fin 1024) :
    Gen.k0_pay1 (F := Ideal) v33 v34 v36 (ix2 r j)
      = v33 (ix2 r j) + (v34 (ix2 (0 : Fin 1) j) + v36 (ix2 (0 : Fin 1) j)) := by
  unfold Gen.k0_pay1
  simp only [shapeCast_self]
  exact congrArg₂ (· + ·) rfl ((broadcastTo_1b_ab_apply _ _ r j).trans rfl)

/-- Row `r` of the block of pre-activations is the LSTM's 1024 pre-activations of the block's rows `r`. -/
theorem gates_at (v0 : FVec Ideal S1024x256 .f32) (v2 : FVec Ideal S256x512 .f32) (v6 : FVec Ideal S1x512 .f32)
    (v12 : FVec Ideal S512x256 .f32) (v17 : FVec Ideal S1x256 .f32) (v21 : FVec Ideal S1024x256 .f32)
    (v23 : FVec Ideal S256x1024 .f32) (v26 : FVec Ideal S256x1024 .f32) (v34 : FVec Ideal S1x1024 .f32)
    (v36 : FVec Ideal S1x1024 .f32) (r : Fin 1024) (j : Fin 1024) :
    Gen.k0_pay1 (F := Ideal) (Gen.k0_pay5 v0 v2 v6 v12 v17 v21 v23 v26) v34 v36 (ix2 r j)
      = gates (enc (fun k => v0 (ix2 r k)) (fun j k => v2 (ix2 k j)) (fun j => v6 (ix2 (0 : Fin 1) j))
            (fun j k => v12 (ix2 k j)) (fun j => v17 (ix2 (0 : Fin 1) j)))
          (fun k => v21 (ix2 r k)) (fun j k => v23 (ix2 k j)) (fun j k => v26 (ix2 k j))
          (fun j => v34 (ix2 (0 : Fin 1) j)) (fun j => v36 (ix2 (0 : Fin 1) j)) j :=
  (pay1_at _ _ _ r j).trans (congrArg₂ (· + ·) (pay5_at v0 v2 v6 v12 v17 v21 v23 v26 r j) rfl)

/-- The stored cell block at row `r`, feature `j`: the LSTM cell update of row `r` of the pre-activations and of the
    old cell block; the three gates are the column ranges from 256, 0 and 512. -/
theorem pay2_at (v22 : FVec Ideal S1024x256 .f32) (v33 : FVec Ideal S1024x1024 .f32) (v34 : FVec Ideal S1x1024 .f32)
    (v36 : FVec Ideal S1x1024 .f32) (r : Fin 1024) (j : Fin 256) :
    Gen.k0_pay2 (F := Ideal) v22 v33 v34 v36 (ix2 r j)
      = cell (fun q => Gen.k0_pay1 (F := Ideal) v33 v34 v36 (ix2 r q)) (fun q => v22 (ix2 r q)) j := by
  unfold Gen.k0_pay2 cell
  exact congrArg₂ (· + ·)
    (congrArg₂ (· * ·) (congrArg Ideal.logistic (slice2_axis1_eq 256 _ _ r j)) rfl)
    (congrArg₂ (· * ·) (congrArg Ideal.logistic (slice2_axis1_eq 0 _ _ r j))
      (congrArg Ideal.tanh (slice2_axis1_eq 512 _ _ r j)))

/-- The stored hidden block at row `r`, feature `j`: the output gate (the column range from 768) times tanh of the
    new cell. -/
theorem pay3_at (v22 : FVec Ideal S1024x256 .f32) (v33 : FVec Ideal S1024x1024 .f32) (v34 : FVec Ideal S1x1024 .f32)
    (v36 : FVec Ideal S1x1024 .f32) (r : Fin 1024) (j : Fin 256) :
    Gen.k0_pay3 (F := Ideal) v22 v33 v34 v36 (ix2 r j)
      = hid (fun q => Gen.k0_pay1 (F := Ideal) v33 v34 v36 (ix2 r q))
          (fun q => Gen.k0_pay2 (F := Ideal) v22 v33 v34 v36 (ix2 r q)) j := by
  unfold Gen.k0_pay3 hid
  exact congrArg₂ (· * ·) (congrArg Ideal.logistic (slice2_axis1_eq 768 _ _ r j)) rfl

/-- The stored node-feature block at row `r`, feature `j`: an affine layer of the rectified hidden row. -/
theorem pay4_at (v22 : FVec Ideal S1024x256 .f32) (v33 : FVec Ideal S1024x1024 .f32) (v34 : FVec Ideal S1x1024 .f32)
    (v36 : FVec Ideal S1x1024 .f32) (v57 : FVec Ideal S256x128 .f32) (v61 : FVec Ideal S1x128 .f32)
    (r : Fin 1024) (j : Fin 128) :
    Gen.k0_pay4 (F := Ideal) v22 v33 v34 v36 v57 v61 (ix2 r j)
      = lin (relu (fun q => Gen.k0_pay3 (F := Ideal) v22 v33 v34 v36 (ix2 r q)))
          (fun j k => v57 (ix2 k j)) (fun j => v61 (ix2 (0 : Fin 1) j)) j := by
  unfold Gen.k0_pay4 lin relu
  simp only [shapeCast_self]
  refine congrArg₂ (· + ·) ((mm_1024_256_128 _ _ r j).trans (Finset.sum_congr rfl fun k _ => ?_))
    (broadcastTo_1b_ab_apply _ _ r j)
  refine congrArg₂ (· * ·) ?_ rfl
  exact congrArg₂ max rfl Ideal.ofBits_zero_f32

/-- The stored cell block at row `r`, as a function of the rows `r` of the three moving blocks and of the weights. -/
theorem c1_pay (x0 : FVec Ideal S1024x256 .f32) (x1 : FVec Ideal S1024x256 .f32) (x2 : FVec Ideal S1024x256 .f32)
    (x3 : FVec Ideal S256x512 .f32) (x4 : FVec Ideal S1x512 .f32) (x5 : FVec Ideal S512x256 .f32) (x6 : FVec Ideal S1x256 .f32)
    (x7 : FVec Ideal S256x1024 .f32) (x8 : FVec Ideal S1x1024 .f32) (x9 : FVec Ideal S256x1024 .f32)
    (x10 : FVec Ideal S1x1024 .f32) (r : Fin 1024) (j : Fin 256) :
    Gen.k0_pay2 (F := Ideal) x2 (Gen.k0_pay5 x0 x3 x4 x5 x6 x1 x7 x9) x8 x10 (ix2 r j)
      = cell (gates (enc (fun k => x0 (ix2 r k)) (fun j k => x3 (ix2 k j)) (fun j => x4 (ix2 (0 : Fin 1) j))
              (fun j k => x5 (ix2 k j)) (fun j => x6 (ix2 (0 : Fin 1) j)))
            (fun k => x1 (ix2 r k)) (fun j k => x7 (ix2 k j)) (fun j k => x9 (ix2 k j))
            (fun j => x8 (ix2 (0 : Fin 1) j)) (fun j => x10 (ix2 (0 : Fin 1) j)))
          (fun k => x2 (ix2 r k)) j :=
  (pay2_at _ _ _ _ r j).trans
    (congrArg (fun g => cell g (fun k => x2 (ix2 r k)) j) (funext fun q => gates_at x0 x3 x4 x5 x6 x1 x7 x9 x8 x10 r q))

/-- The stored hidden block at row `r`, likewise. -/
theorem h1_pay (x0 : FVec Ideal S1024x256 .f32) (x1 : FVec Ideal S1024x256 .f32) (x2 : FVec Ideal S1024x256 .f32)
    (x3 : FVec Ideal S256x512 .f32) (x4 : FVec Ideal S1x512 .f32) (x5 : FVec Ideal S512x256 .f32) (x6 : FVec Ideal S1x256 .f32)
    (x7 : FVec Ideal S256x1024 .f32) (x8 : FVec Ideal S1x1024 .f32) (x9 : FVec Ideal S256x1024 .f32)
    (x10 : FVec Ideal S1x1024 .f32) (r : Fin 1024) (j : Fin 256) :
    Gen.k0_pay3 (F := Ideal) x2 (Gen.k0_pay5 x0 x3 x4 x5 x6 x1 x7 x9) x8 x10 (ix2 r j)
      = hid (gates (enc (fun k => x0 (ix2 r k)) (fun j k => x3 (ix2 k j)) (fun j => x4 (ix2 (0 : Fin 1) j))
              (fun j k => x5 (ix2 k j)) (fun j => x6 (ix2 (0 : Fin 1) j)))
            (fun k => x1 (ix2 r k)) (fun j k => x7 (ix2 k j)) (fun j k => x9 (ix2 k j))
            (fun j => x8 (ix2 (0 : Fin 1) j)) (fun j => x10 (ix2 (0 : Fin 1) j)))
          (cell (gates (enc (fun k => x0 (ix2 r k)) (fun j k => x3 (ix2 k j)) (fun j => x4 (ix2 (0 : Fin 1) j))
              (fun j k => x5 (ix2 k j)) (fun j => x6 (ix2 (0 : Fin 1) j)))
            (fun k => x1 (ix2 r k)) (fun j k => x7 (ix2 k j)) (fun j k => x9 (ix2 k j))
            (fun j => x8 (ix2 (0 : Fin 1) j)) (fun j => x10 (ix2 (0 : Fin 1) j)))
            (fun k => x2 (ix2 r k))) j :=
  (pay3_at _ _ _ _ r j).trans
    (congrArg₂ (fun g c => hid g c j) (funext fun q => gates_at x0 x3 x4 x5 x6 x1 x7 x9 x8 x10 r q)
      (funext fun q => c1_pay x0 x1 x2 x3 x4 x5 x6 x7 x8 x9 x10 r q))

/-- The stored node-feature block at row `r`, likewise. -/
theorem nf_pay (x0 : FVec Ideal S1024x256 .f32) (x1 : FVec Ideal S1024x256 .f32) (x2 : FVec Ideal S1024x256 .f32)
    (x3 : FVec Ideal S256x512 .f32) (x4 : FVec Ideal S1x512 .f32) (x5 : FVec Ideal S512x256 .f32) (x6 : FVec Ideal S1x256 .f32)
    (x7 : FVec Ideal S256x1024 .f32) (x8 : FVec Ideal S1x1024 .f32) (x9 : FVec Ideal S256x1024 .f32)
    (x10 : FVec Ideal S1x1024 .f32) (x11 : FVec Ideal S256x128 .f32) (x12 : FVec Ideal S1x128 .f32) (r : Fin 1024) (j : Fin 128) :
    Gen.k0_pay4 (F := Ideal) x2 (Gen.k0_pay5 x0 x3 x4 x5 x6 x1 x7 x9) x8 x10 x11 x12 (ix2 r j)
      = lin (relu (hid (gates (enc (fun k => x0 (ix2 r k)) (fun j k => x3 (ix2 k j)) (fun j => x4 (ix2 (0 : Fin 1) j))
              (fun j k => x5 (ix2 k j)) (fun j => x6 (ix2 (0 : Fin 1) j)))
            (fun k => x1 (ix2 r k)) (fun j k => x7 (ix2 k j)) (fun j k => x9 (ix2 k j))
            (fun j => x8 (ix2 (0 : Fin 1) j)) (fun j => x10 (ix2 (0 : Fin 1) j)))
          (cell (gates (enc (fun k => x0 (ix2 r k)) (fun j k => x3 (ix2 k j)) (fun j => x4 (ix2 (0 : Fin 1) j))
              (fun j k => x5 (ix2 k j)) (fun j => x6 (ix2 (0 : Fin 1) j)))
            (fun k => x1 (ix2 r k)) (fun j k => x7 (ix2 k j)) (fun j k => x9 (ix2 k j))
            (fun j => x8 (ix2 (0 : Fin 1) j)) (fun j => x10 (ix2 (0 : Fin 1) j)))
            (fun k => x2 (ix2 r k)))))
          (fun j k => x11 (ix2 k j)) (fun j => x12 (ix2 (0 : Fin 1) j)) j :=
  (pay4_at _ _ _ _ _ _ r j).trans
    (congrArg (fun h => lin (relu h) (fun j k => x11 (ix2 k j)) (fun j => x12 (ix2 (0 : Fin 1) j)) j)
      (funext fun q => h1_pay x0 x1 x2 x3 x4 x5 x6 x7 x8 x9 x10 r q))

variable (V : (c : Dev nD) → (b : Ref sig .tc) → Buf (Elt Ideal) ((c : Thread nD τ).loc b))

theorem hz : (![0, 0] : Fin 2 → Nat) = fun _ => 0 := funext fun a => by fin_cases a <;> rfl

/-! The printed index maps over the grid: the observations, the previous hidden and cell states and the three results
    move one block of 1024 rows per point; every weight and bias is whole at every point. -/
theorem idx0_0 : ∀ t : Fin cfg0.N, win0_0.index t (0 : Fin 2) = t.val ∧ win0_0.index t (1 : Fin 2) = 0 :=
  (by decide +kernel : ∀ t : Fin grid0.N, _)
theorem idx0_1 : ∀ t : Fin cfg0.N, win0_1.index t (0 : Fin 2) = t.val ∧ win0_1.index t (1 : Fin 2) = 0 :=
  (by decide +kernel : ∀ t : Fin grid0.N, _)
theorem idx0_2 : ∀ t : Fin cfg0.N, win0_2.index t (0 : Fin 2) = t.val ∧ win0_2.index t (1 : Fin 2) = 0 :=
  (by decide +kernel : ∀ t : Fin grid0.N, _)
theorem idx0_3 : ∀ t : Fin cfg0.N, win0_3.index t (0 : Fin 2) = 0 ∧ win0_3.index t (1 : Fin 2) = 0 :=
  (by decide +kernel : ∀ t : Fin grid0.N, _)
theorem idx0_4 : ∀ t : Fin cfg0.N, win0_4.index t (0 : Fin 2) = 0 ∧ win0_4.index t (1 : Fin 2) = 0 :=
  (by decide +kernel : ∀ t : Fin grid0.N, _)
theorem idx0_5 : ∀ t : Fin cfg0.N, win0_5.index t (0 : Fin 2) = 0 ∧ win0_5.index t (1 : Fin 2) = 0 :=
  (by decide +kernel : ∀ t : Fin grid0.N, _)
theorem idx0_6 : ∀ t : Fin cfg0.N, win0_6.index t (0 : Fin 2) = 0 ∧ win0_6.index t (1 : Fin 2) = 0 :=
  (by decide +kernel : ∀ t : Fin grid0.N, _)
theorem idx0_7 : ∀ t : Fin cfg0.N, win0_7.index t (0 : Fin 2) = 0 ∧ win0_7.index t (1 : Fin 2) = 0 :=
  (by decide +kernel : ∀ t : Fin grid0.N, _)
theorem idx0_8 : ∀ t : Fin cfg0.N, win0_8.index t (0 : Fin 2) = 0 ∧ win0_8.index t (1 : Fin 2) = 0 :=
  (by decide +kernel : ∀ t : Fin grid0.N, _)
theorem idx0_9 : ∀ t : Fin cfg0.N, win0_9.index t (0 : Fin 2) = 0 ∧ win0_9.index t (1 : Fin 2) = 0 :=
  (by decide +kernel : ∀ t : Fin grid0.N, _)
theorem idx0_10 : ∀ t : Fin cfg0.N, win0_10.index t (0 : Fin 2) = 0 ∧ win0_10.index t (1 : Fin 2) = 0 :=
  (by decide +kernel : ∀ t : Fin grid0.N, _)
theorem idx0_11 : ∀ t : Fin cfg0.N, win0_11.index t (0 : Fin 2) = 0 ∧ win0_11.index t (1 : Fin 2) = 0 :=
  (by decide +kernel : ∀ t : Fin grid0.N, _)
theorem idx0_12 : ∀ t : Fin cfg0.N, win0_12.index t (0 : Fin 2) = 0 ∧ win0_12.index t (1 : Fin 2) = 0 :=
  (by decide +kernel : ∀ t : Fin grid0.N, _)
theorem idx0_13 : ∀ t : Fin cfg0.N, win0_13.index t (0 : Fin 2) = t.val ∧ win0_13.index t (1 : Fin 2) = 0 :=
  (by decide +kernel : ∀ t : Fin grid0.N, _)
theorem idx0_14 : ∀ t : Fin cfg0.N, win0_14.index t (0 : Fin 2) = t.val ∧ win0_14.index t (1 : Fin 2) = 0 :=
  (by decide +kernel : ∀ t : Fin grid0.N, _)
theorem idx0_15 : ∀ t : Fin cfg0.N, win0_15.index t (0 : Fin 2) = t.val ∧ win0_15.index t (1 : Fin 2) = 0 :=
  (by decide +kernel : ∀ t : Fin grid0.N, _)

theorem blk0_0 (c : Dev nD) (t : Fin cfg0.N) (r : Fin 1024) (k : Fin 256) (n : Fin 65536) (hn : n.val = t.val * 1024 + r.val) :
    iblk0 V c 0 t (ix2 r k) = (V c main_arg0 : S65536x256.Idx → EReal) (ix2 n k) := by
  obtain ⟨e0, e1⟩ := idx0_0 t
  show (V c main_arg0 : S65536x256.Idx → EReal) (((cfg0.win 0).blk t).view.emb (ix2 r k)) = _
  refine congrArg _ (funext fun a => Fin.ext ?_)
  match a with
  | ⟨0, _⟩ => show win0_0.index t (0 : Fin 2) * 1024 + 1 * r.val = n.val; rw [e0, hn]; omega
  | ⟨1, _⟩ => show win0_0.index t (1 : Fin 2) * 256 + 1 * k.val = k.val; rw [e1]; omega
theorem blk0_1 (c : Dev nD) (t : Fin cfg0.N) (r : Fin 1024) (k : Fin 256) (n : Fin 65536) (hn : n.val = t.val * 1024 + r.val) :
    iblk0 V c 1 t (ix2 r k) = (V c main_arg1 : S65536x256.Idx → EReal) (ix2 n k) := by
  obtain ⟨e0, e1⟩ := idx0_1 t
  show (V c main_arg1 : S65536x256.Idx → EReal) (((cfg0.win 1).blk t).view.emb (ix2 r k)) = _
  refine congrArg _ (funext fun a => Fin.ext ?_)
  match a with
  | ⟨0, _⟩ => show win0_1.index t (0 : Fin 2) * 1024 + 1 * r.val = n.val; rw [e0, hn]; omega
  | ⟨1, _⟩ => show win0_1.index t (1 : Fin 2) * 256 + 1 * k.val = k.val; rw [e1]; omega
theorem blk0_2 (c : Dev nD) (t : Fin cfg0.N) (r : Fin 1024) (k : Fin 256) (n : Fin 65536) (hn : n.val = t.val * 1024 + r.val) :
    iblk0 V c 2 t (ix2 r k) = (V c main_arg2 : S65536x256.Idx → EReal) (ix2 n k) := by
  obtain ⟨e0, e1⟩ := idx0_2 t
  show (V c main_arg2 : S65536x256.Idx → EReal) (((cfg0.win 2).blk t).view.emb (ix2 r k)) = _
  refine congrArg _ (funext fun a => Fin.ext ?_)
  match a with
  | ⟨0, _⟩ => show win0_2.index t (0 : Fin 2) * 1024 + 1 * r.val = n.val; rw [e0, hn]; omega
  | ⟨1, _⟩ => show win0_2.index t (1 : Fin 2) * 256 + 1 * k.val = k.val; rw [e1]; omega
theorem blk0_3 (c : Dev nD) (t : Fin cfg0.N) (p : Fin 256) (q : Fin 512) :
    iblk0 V c 3 t (ix2 p q) = (V c main_v0 : S256x512.Idx → EReal) (ix2 p q) := by
  obtain ⟨e0, e1⟩ := idx0_3 t
  show (V c main_v0 : S256x512.Idx → EReal) (((cfg0.win 3).blk t).view.emb (ix2 p q)) = _
  refine congrArg _ (funext fun a => Fin.ext ?_)
  match a with
  | ⟨0, _⟩ => show win0_3.index t (0 : Fin 2) * 256 + 1 * p.val = p.val; rw [e0]; omega
  | ⟨1, _⟩ => show win0_3.index t (1 : Fin 2) * 512 + 1 * q.val = q.val; rw [e1]; omega
theorem blk0_4 (c : Dev nD) (t : Fin cfg0.N) (p : Fin 1) (q : Fin 512) :
    iblk0 V c 4 t (ix2 p q) = (V c main_v11 : S1x512.Idx → EReal) (ix2 p q) := by
  obtain ⟨e0, e1⟩ := idx0_4 t
  show (V c main_v11 : S1x512.Idx → EReal) (((cfg0.win 4).blk t).view.emb (ix2 p q)) = _
  refine congrArg _ (funext fun a => Fin.ext ?_)
  match a with
  | ⟨0, _⟩ => show win0_4.index t (0 : Fin 2) * 1 + 1 * p.val = p.val; rw [e0]; omega
  | ⟨1, _⟩ => show win0_4.index t (1 : Fin 2) * 512 + 1 * q.val = q.val; rw [e1]; omega
theorem blk0_5 (c : Dev nD) (t : Fin cfg0.N) (p : Fin 512) (q : Fin 256) :
    iblk0 V c 5 t (ix2 p q) = (V c main_v1 : S512x256.Idx → EReal) (ix2 p q) := by
  obtain ⟨e0, e1⟩ := idx0_5 t
  show (V c main_v1 : S512x256.Idx → EReal) (((cfg0.win 5).blk t).view.emb (ix2 p q)) = _
  refine congrArg _ (funext fun a => Fin.ext ?_)
  match a with
  | ⟨0, _⟩ => show win0_5.index t (0 : Fin 2) * 512 + 1 * p.val = p.val; rw [e0]; omega
  | ⟨1, _⟩ => show win0_5.index t (1 : Fin 2) * 256 + 1 * q.val = q.val; rw [e1]; omega
theorem blk0_6 (c : Dev nD) (t : Fin cfg0.N) (p : Fin 1) (q : Fin 256) :
    iblk0 V c 6 t (ix2 p q) = (V c main_v12 : S1x256.Idx → EReal) (ix2 p q) := by
  obtain ⟨e0, e1⟩ := idx0_6 t
  show (V c main_v12 : S1x256.Idx → EReal) (((cfg0.win 6).blk t).view.emb (ix2 p q)) = _
  refine congrArg _ (funext fun a => Fin.ext ?_)
  match a with
  | ⟨0, _⟩ => show win0_6.index t (0 : Fin 2) * 1 + 1 * p.val = p.val; rw [e0]; omega
  | ⟨1, _⟩ => show win0_6.index t (1 : Fin 2) * 256 + 1 * q.val = q.val; rw [e1]; omega
theorem blk0_7 (c : Dev nD) (t : Fin cfg0.N) (p : Fin 256) (q : Fin 1024) :
    iblk0 V c 7 t (ix2 p q) = (V c main_v2 : S256x1024.Idx → EReal) (ix2 p q) := by
  obtain ⟨e0, e1⟩ := idx0_7 t
  show (V c main_v2 : S256x1024.Idx → EReal) (((cfg0.win 7).blk t).view.emb (ix2 p q)) = _
  refine congrArg _ (funext fun a => Fin.ext ?_)
  match a with
  | ⟨0, _⟩ => show win0_7.index t (0 : Fin 2) * 256 + 1 * p.val = p.val; rw [e0]; omega
  | ⟨1, _⟩ => show win0_7.index t (1 : Fin 2) * 1024 + 1 * q.val = q.val; rw [e1]; omega
theorem blk0_8 (c : Dev nD) (t : Fin cfg0.N) (p : Fin 1) (q : Fin 1024) :
    iblk0 V c 8 t (ix2 p q) = (V c main_v13 : S1x1024.Idx → EReal) (ix2 p q) := by
  obtain ⟨e0, e1⟩ := idx0_8 t
  show (V c main_v13 : S1x1024.Idx → EReal) (((cfg0.win 8).blk t).view.emb (ix2 p q)) = _
  refine congrArg _ (funext fun a => Fin.ext ?_)
  match a with
  | ⟨0, _⟩ => show win0_8.index t (0 : Fin 2) * 1 + 1 * p.val = p.val; rw [e0]; omega
  | ⟨1, _⟩ => show win0_8.index t (1 : Fin 2) * 1024 + 1 * q.val = q.val; rw [e1]; omega
theorem blk0_9 (c : Dev nD) (t : Fin cfg0.N) (p : Fin 256) (q : Fin 1024) :
    iblk0 V c 9 t (ix2 p q) = (V c main_v3 : S256x1024.Idx → EReal) (ix2 p q) := by
  obtain ⟨e0, e1⟩ := idx0_9 t
  show (V c main_v3 : S256x1024.Idx → EReal) (((cfg0.win 9).blk t).view.emb (ix2 p q)) = _
  refine congrArg _ (funext fun a => Fin.ext ?_)
  match a with
  | ⟨0, _⟩ => show win0_9.index t (0 : Fin 2) * 256 + 1 * p.val = p.val; rw [e0]; omega
  | ⟨1, _⟩ => show win0_9.index t (1 : Fin 2) * 1024 + 1 * q.val = q.val; rw [e1]; omega
theorem blk0_10 (c : Dev nD) (t : Fin cfg0.N) (p : Fin 1) (q : Fin 1024) :
    iblk0 V c 10 t (ix2 p q) = (V c main_v14 : S1x1024.Idx → EReal) (ix2 p q) := by
  obtain ⟨e0, e1⟩ := idx0_10 t
  show (V c main_v14 : S1x1024.Idx → EReal) (((cfg0.win 10).blk t).view.emb (ix2 p q)) = _
  refine congrArg _ (funext fun a => Fin.ext ?_)
  match a with
  | ⟨0, _⟩ => show win0_10.index t (0 : Fin 2) * 1 + 1 * p.val = p.val; rw [e0]; omega
  | ⟨1, _⟩ => show win0_10.index t (1 : Fin 2) * 1024 + 1 * q.val = q.val; rw [e1]; omega
theorem blk0_11 (c : Dev nD) (t : Fin cfg0.N) (p : Fin 256) (q : Fin 128) :
    iblk0 V c 11 t (ix2 p q) = (V c main_v4 : S256x128.Idx → EReal) (ix2 p q) := by
  obtain ⟨e0, e1⟩ := idx0_11 t
  show (V c main_v4 : S256x128.Idx → EReal) (((cfg0.win 11).blk t).view.emb (ix2 p q)) = _
  refine congrArg _ (funext fun a => Fin.ext ?_)
  match a with
  | ⟨0, _⟩ => show win0_11.index t (0 : Fin 2) * 256 + 1 * p.val = p.val; rw [e0]; omega
  | ⟨1, _⟩ => show win0_11.index t (1 : Fin 2) * 128 + 1 * q.val = q.val; rw [e1]; omega
theorem blk0_12 (c : Dev nD) (t : Fin cfg0.N) (p : Fin 1) (q : Fin 128) :
    iblk0 V c 12 t (ix2 p q) = (V c main_v15 : S1x128.Idx → EReal) (ix2 p q) := by
  obtain ⟨e0, e1⟩ := idx0_12 t
  show (V c main_v15 : S1x128.Idx → EReal) (((cfg0.win 12).blk t).view.emb (ix2 p q)) = _
  refine congrArg _ (funext fun a => Fin.ext ?_)
  match a with
  | ⟨0, _⟩ => show win0_12.index t (0 : Fin 2) * 1 + 1 * p.val = p.val; rw [e0]; omega
  | ⟨1, _⟩ => show win0_12.index t (1 : Fin 2) * 128 + 1 * q.val = q.val; rw [e1]; omega

/-- What grid point `t` writes back through window 13 is block `t` of the node features, as a function of the arrays the
    region finds. -/
theorem flushed0_13 (c : Dev nD) (t : Fin cfg0.N) :
    (dat0 V c).flushed 13 t = ((cfg0.win 13).blk t).view.read (Elt Ideal)
      (nodeNF (V c main_arg0) (V c main_arg1) (V c main_arg2) (wOfT (V c main_v0)) (bOfT (V c main_v11)) (wOfT (V c main_v1)) (bOfT (V c main_v12)) (wOfT (V c main_v2)) (wOfT (V c main_v3)) (bOfT (V c main_v13)) (bOfT (V c main_v14)) (wOfT (V c main_v4)) (bOfT (V c main_v15))) := by
  show (cfg0.win 13).cut (grid0.coords t) ((dat0 V c).after 13 t) = _
  rw [after0_13]
  unfold out0_13
  rw [View.canon_unit_zero hz]
  simp only [View.ld_unit_zero (S := S1024x256) hz, View.ld_unit_zero (S := S256x512) hz, View.ld_unit_zero (S := S1x512) hz,
    View.ld_unit_zero (S := S512x256) hz, View.ld_unit_zero (S := S1x256) hz, View.ld_unit_zero (S := S256x1024) hz,
    View.ld_unit_zero (S := S1x1024) hz, View.ld_unit_zero (S := S256x128) hz, View.ld_unit_zero (S := S1x128) hz]
  funext y
  obtain ⟨r, j, rfl⟩ : ∃ (r : Fin 1024) (j : Fin 128), y = ix2 r j := ⟨y 0, y 1, eq_ix2 y⟩
  obtain ⟨e2, e3⟩ := idx0_13 t
  have hc : col (((cfg0.win 13).blk t).view.emb (ix2 r j)) = j :=
    Fin.ext (by show win0_13.index t (1 : Fin 2) * 128 + 1 * j.val = j.val; rw [e3]; omega)
  have hr : (row (((cfg0.win 13).blk t).view.emb (ix2 r j))).val = t.val * 1024 + r.val := by
    show win0_13.index t (0 : Fin 2) * 1024 + 1 * r.val = _; rw [e2]; omega
  show k0_pay4 (iblk0 V c 2 t) (k0_pay5 (iblk0 V c 0 t) (iblk0 V c 3 t) (iblk0 V c 4 t) (iblk0 V c 5 t) (iblk0 V c 6 t) (iblk0 V c 1 t) (iblk0 V c 7 t) (iblk0 V c 9 t)) (iblk0 V c 8 t) (iblk0 V c 10 t) (iblk0 V c 11 t) (iblk0 V c 12 t) (ix2 r j)
    = nodeNF (V c main_arg0) (V c main_arg1) (V c main_arg2) (wOfT (V c main_v0)) (bOfT (V c main_v11)) (wOfT (V c main_v1)) (bOfT (V c main_v12)) (wOfT (V c main_v2)) (wOfT (V c main_v3)) (bOfT (V c main_v13)) (bOfT (V c main_v14)) (wOfT (V c main_v4)) (bOfT (V c main_v15))
        (((cfg0.win 13).blk t).view.emb (ix2 r j))
  refine (nf_pay _ _ _ _ _ _ _ _ _ _ _ _ _ r j).trans ?_
  unfold nodeNF nodeHidRow nodeCellRow nodeGates
  rw [hc]
  have h0 : (fun k => iblk0 V c 0 t (ix2 r k)) = rowOf (V c main_arg0) (row (((cfg0.win 13).blk t).view.emb (ix2 r j))) :=
    funext fun k => blk0_0 V c t r k _ hr
  have h1 : (fun k => iblk0 V c 1 t (ix2 r k)) = rowOf (V c main_arg1) (row (((cfg0.win 13).blk t).view.emb (ix2 r j))) :=
    funext fun k => blk0_1 V c t r k _ hr
  have h2 : (fun k => iblk0 V c 2 t (ix2 r k)) = rowOf (V c main_arg2) (row (((cfg0.win 13).blk t).view.emb (ix2 r j))) :=
    funext fun k => blk0_2 V c t r k _ hr
  have h3 : (fun j k => iblk0 V c 3 t (ix2 k j)) = wOfT (V c main_v0) := funext fun j => funext fun k => blk0_3 V c t k j
  have h4 : (fun j => iblk0 V c 4 t (ix2 (0 : Fin 1) j)) = bOfT (V c main_v11) := funext fun j => blk0_4 V c t 0 j
  have h5 : (fun j k => iblk0 V c 5 t (ix2 k j)) = wOfT (V c main_v1) := funext fun j => funext fun k => blk0_5 V c t k j
  have h6 : (fun j => iblk0 V c 6 t (ix2 (0 : Fin 1) j)) = bOfT (V c main_v12) := funext fun j => blk0_6 V c t 0 j
  have h7 : (fun j k => iblk0 V c 7 t (ix2 k j)) = wOfT (V c main_v2) := funext fun j => funext fun k => blk0_7 V c t k j
  have h8 : (fun j => iblk0 V c 8 t (ix2 (0 : Fin 1) j)) = bOfT (V c main_v13) := funext fun j => blk0_8 V c t 0 j
  have h9 : (fun j k => iblk0 V c 9 t (ix2 k j)) = wOfT (V c main_v3) := funext fun j => funext fun k => blk0_9 V c t k j
  have h10 : (fun j => iblk0 V c 10 t (ix2 (0 : Fin 1) j)) = bOfT (V c main_v14) := funext fun j => blk0_10 V c t 0 j
  have h11 : (fun j k => iblk0 V c 11 t (ix2 k j)) = wOfT (V c main_v4) := funext fun j => funext fun k => blk0_11 V c t k j
  have h12 : (fun j => iblk0 V c 12 t (ix2 (0 : Fin 1) j)) = bOfT (V c main_v15) := funext fun j => blk0_12 V c t 0 j
  rw [h0, h1, h2, h3, h4, h5, h6, h7, h8, h9, h10, h11, h12]

/-- An index of the result array of window 13 is in point `t`'s block iff each coordinate is in the block's range on
    its axis. -/
theorem mem_blk0_13 (t : Fin cfg0.N) (i : S65536x128.Idx) :
    i ∈ ((cfg0.win 13).blk t).view.set ↔ ∀ a : Fin 2, win0_13.index t a * S1024x128.size a ≤ (i a).val
      ∧ (i a).val < win0_13.index t a * S1024x128.size a + S1024x128.size a := by
  show i ∈ ((View.whole main_v22_0).slice (win0_13.rect t)).set ↔ _
  rw [View.set_slice_whole, Rect.mem_set_unit]
  exact Iff.rfl

/-- The 64 blocks of 1024 rows tile the 65536 rows, so after the region the array of window 13 IS the node features of the
    arrays the region found: row `i` lies in the block of point `i / 1024`. -/
theorem final0_nf (c : Dev nD) :
    (dat0 V c).arrAt 13 cfg0.N
      = nodeNF (V c main_arg0) (V c main_arg1) (V c main_arg2) (wOfT (V c main_v0)) (bOfT (V c main_v11)) (wOfT (V c main_v1)) (bOfT (V c main_v12)) (wOfT (V c main_v2)) (wOfT (V c main_v3)) (bOfT (V c main_v13)) (bOfT (V c main_v14)) (wOfT (V c main_v4)) (bOfT (V c main_v15)) :=
  (dat0 V c).arrAt_eq_of_cover 13 _ (fun t _ => flushed0_13 V c t) fun i => by
    have hN : grid0.N = 64 := N_0
    have hi0 : (i 0).val < 65536 := (i 0).isLt
    have hi1 : (i 1).val < 128 := (i 1).isLt
    have ht : (i 0).val / 1024 < grid0.N := by omega
    refine ⟨⟨(i 0).val / 1024, ht⟩, flush0_13 _, ?_⟩
    rw [mem_blk0_13]
    obtain ⟨e2, e3⟩ := idx0_13 ⟨(i 0).val / 1024, ht⟩
    intro a
    match a with
    | ⟨0, _⟩ =>
      show win0_13.index ⟨(i 0).val / 1024, ht⟩ (0 : Fin 2) * 1024 ≤ (i 0).val
        ∧ (i 0).val < win0_13.index ⟨(i 0).val / 1024, ht⟩ (0 : Fin 2) * 1024 + 1024
      rw [e2]; show (i 0).val / 1024 * 1024 ≤ (i 0).val ∧ (i 0).val < (i 0).val / 1024 * 1024 + 1024; omega
    | ⟨1, _⟩ =>
      show win0_13.index ⟨(i 0).val / 1024, ht⟩ (1 : Fin 2) * 128 ≤ (i 1).val
        ∧ (i 1).val < win0_13.index ⟨(i 0).val / 1024, ht⟩ (1 : Fin 2) * 128 + 128
      rw [e3]; omega

/-- What grid point `t` writes back through window 14 is block `t` of the new hidden states, as a function of the arrays the
    region finds. -/
theorem flushed0_14 (c : Dev nD) (t : Fin cfg0.N) :
    (dat0 V c).flushed 14 t = ((cfg0.win 14).blk t).view.read (Elt Ideal)
      (nodeH1 (V c main_arg0) (V c main_arg1) (V c main_arg2) (wOfT (V c main_v0)) (bOfT (V c main_v11)) (wOfT (V c main_v1)) (bOfT (V c main_v12)) (wOfT (V c main_v2)) (wOfT (V c main_v3)) (bOfT (V c main_v13)) (bOfT (V c main_v14))) := by
  show (cfg0.win 14).cut (grid0.coords t) ((dat0 V c).after 14 t) = _
  rw [after0_14]
  unfold out0_14
  rw [View.canon_unit_zero hz]
  simp only [View.ld_unit_zero (S := S1024x256) hz, View.ld_unit_zero (S := S256x512) hz, View.ld_unit_zero (S := S1x512) hz,
    View.ld_unit_zero (S := S512x256) hz, View.ld_unit_zero (S := S1x256) hz, View.ld_unit_zero (S := S256x1024) hz,
    View.ld_unit_zero (S := S1x1024) hz, View.ld_unit_zero (S := S256x128) hz, View.ld_unit_zero (S := S1x128) hz]
  funext y
  obtain ⟨r, j, rfl⟩ : ∃ (r : Fin 1024) (j : Fin 256), y = ix2 r j := ⟨y 0, y 1, eq_ix2 y⟩
  obtain ⟨e2, e3⟩ := idx0_14 t
  have hc : col (((cfg0.win 14).blk t).view.emb (ix2 r j)) = j :=
    Fin.ext (by show win0_14.index t (1 : Fin 2) * 256 + 1 * j.val = j.val; rw [e3]; omega)
  have hr : (row (((cfg0.win 14).blk t).view.emb (ix2 r j))).val = t.val * 1024 + r.val := by
    show win0_14.index t (0 : Fin 2) * 1024 + 1 * r.val = _; rw [e2]; omega
  show k0_pay3 (iblk0 V c 2 t) (k0_pay5 (iblk0 V c 0 t) (iblk0 V c 3 t) (iblk0 V c 4 t) (iblk0 V c 5 t) (iblk0 V c 6 t) (iblk0 V c 1 t) (iblk0 V c 7 t) (iblk0 V c 9 t)) (iblk0 V c 8 t) (iblk0 V c 10 t) (ix2 r j)
    = nodeH1 (V c main_arg0) (V c main_arg1) (V c main_arg2) (wOfT (V c main_v0)) (bOfT (V c main_v11)) (wOfT (V c main_v1)) (bOfT (V c main_v12)) (wOfT (V c main_v2)) (wOfT (V c main_v3)) (bOfT (V c main_v13)) (bOfT (V c main_v14))
        (((cfg0.win 14).blk t).view.emb (ix2 r j))
  refine (h1_pay _ _ _ _ _ _ _ _ _ _ _ r j).trans ?_
  unfold nodeH1 nodeHidRow nodeCellRow nodeGates
  rw [hc]
  have h0 : (fun k => iblk0 V c 0 t (ix2 r k)) = rowOf (V c main_arg0) (row (((cfg0.win 14).blk t).view.emb (ix2 r j))) :=
    funext fun k => blk0_0 V c t r k _ hr
  have h1 : (fun k => iblk0 V c 1 t (ix2 r k)) = rowOf (V c main_arg1) (row (((cfg0.win 14).blk t).view.emb (ix2 r j))) :=
    funext fun k => blk0_1 V c t r k _ hr
  have h2 : (fun k => iblk0 V c 2 t (ix2 r k)) = rowOf (V c main_arg2) (row (((cfg0.win 14).blk t).view.emb (ix2 r j))) :=
    funext fun k => blk0_2 V c t r k _ hr
  have h3 : (fun j k => iblk0 V c 3 t (ix2 k j)) = wOfT (V c main_v0) := funext fun j => funext fun k => blk0_3 V c t k j
  have h4 : (fun j => iblk0 V c 4 t (ix2 (0 : Fin 1) j)) = bOfT (V c main_v11) := funext fun j => blk0_4 V c t 0 j
  have h5 : (fun j k => iblk0 V c 5 t (ix2 k j)) = wOfT (V c main_v1) := funext fun j => funext fun k => blk0_5 V c t k j
  have h6 : (fun j => iblk0 V c 6 t (ix2 (0 : Fin 1) j)) = bOfT (V c main_v12) := funext fun j => blk0_6 V c t 0 j
  have h7 : (fun j k => iblk0 V c 7 t (ix2 k j)) = wOfT (V c main_v2) := funext fun j => funext fun k => blk0_7 V c t k j
  have h8 : (fun j => iblk0 V c 8 t (ix2 (0 : Fin 1) j)) = bOfT (V c main_v13) := funext fun j => blk0_8 V c t 0 j
  have h9 : (fun j k => iblk0 V c 9 t (ix2 k j)) = wOfT (V c main_v3) := funext fun j => funext fun k => blk0_9 V c t k j
  have h10 : (fun j => iblk0 V c 10 t (ix2 (0 : Fin 1) j)) = bOfT (V c main_v14) := funext fun j => blk0_10 V c t 0 j
  rw [h0, h1, h2, h3, h4, h5, h6, h7, h8, h9, h10]

/-- An index of the result array of window 14 is in point `t`'s block iff each coordinate is in the block's range on
    its axis. -/
theorem mem_blk0_14 (t : Fin cfg0.N) (i : S65536x256.Idx) :
    i ∈ ((cfg0.win 14).blk t).view.set ↔ ∀ a : Fin 2, win0_14.index t a * S1024x256.size a ≤ (i a).val
      ∧ (i a).val < win0_14.index t a * S1024x256.size a + S1024x256.size a := by
  show i ∈ ((View.whole main_v22_1).slice (win0_14.rect t)).set ↔ _
  rw [View.set_slice_whole, Rect.mem_set_unit]
  exact Iff.rfl

/-- The 64 blocks of 1024 rows tile the 65536 rows, so after the region the array of window 14 IS the new hidden states of the
    arrays the region found: row `i` lies in the block of point `i / 1024`. -/
theorem final0_h1 (c : Dev nD) :
    (dat0 V c).arrAt 14 cfg0.N
      = nodeH1 (V c main_arg0) (V c main_arg1) (V c main_arg2) (wOfT (V c main_v0)) (bOfT (V c main_v11)) (wOfT (V c main_v1)) (bOfT (V c main_v12)) (wOfT (V c main_v2)) (wOfT (V c main_v3)) (bOfT (V c main_v13)) (bOfT (V c main_v14)) :=
  (dat0 V c).arrAt_eq_of_cover 14 _ (fun t _ => flushed0_14 V c t) fun i => by
    have hN : grid0.N = 64 := N_0
    have hi0 : (i 0).val < 65536 := (i 0).isLt
    have hi1 : (i 1).val < 256 := (i 1).isLt
    have ht : (i 0).val / 1024 < grid0.N := by omega
    refine ⟨⟨(i 0).val / 1024, ht⟩, flush0_14 _, ?_⟩
    rw [mem_blk0_14]
    obtain ⟨e2, e3⟩ := idx0_14 ⟨(i 0).val / 1024, ht⟩
    intro a
    match a with
    | ⟨0, _⟩ =>
      show win0_14.index ⟨(i 0).val / 1024, ht⟩ (0 : Fin 2) * 1024 ≤ (i 0).val
        ∧ (i 0).val < win0_14.index ⟨(i 0).val / 1024, ht⟩ (0 : Fin 2) * 1024 + 1024
      rw [e2]; show (i 0).val / 1024 * 1024 ≤ (i 0).val ∧ (i 0).val < (i 0).val / 1024 * 1024 + 1024; omega
    | ⟨1, _⟩ =>
      show win0_14.index ⟨(i 0).val / 1024, ht⟩ (1 : Fin 2) * 256 ≤ (i 1).val
        ∧ (i 1).val < win0_14.index ⟨(i 0).val / 1024, ht⟩ (1 : Fin 2) * 256 + 256
      rw [e3]; omega

/-- What grid point `t` writes back through window 15 is block `t` of the new cell states, as a function of the arrays the
    region finds. -/
theorem flushed0_15 (c : Dev nD) (t : Fin cfg0.N) :
    (dat0 V c).flushed 15 t = ((cfg0.win 15).blk t).view.read (Elt Ideal)
      (nodeC1 (V c main_arg0) (V c main_arg1) (V c main_arg2) (wOfT (V c main_v0)) (bOfT (V c main_v11)) (wOfT (V c main_v1)) (bOfT (V c main_v12)) (wOfT (V c main_v2)) (wOfT (V c main_v3)) (bOfT (V c main_v13)) (bOfT (V c main_v14))) := by
  show (cfg0.win 15).cut (grid0.coords t) ((dat0 V c).after 15 t) = _
  rw [after0_15]
  unfold out0_15
  rw [View.canon_unit_zero hz]
  simp only [View.ld_unit_zero (S := S1024x256) hz, View.ld_unit_zero (S := S256x512) hz, View.ld_unit_zero (S := S1x512) hz,
    View.ld_unit_zero (S := S512x256) hz, View.ld_unit_zero (S := S1x256) hz, View.ld_unit_zero (S := S256x1024) hz,
    View.ld_unit_zero (S := S1x1024) hz, View.ld_unit_zero (S := S256x128) hz, View.ld_unit_zero (S := S1x128) hz]
  funext y
  obtain ⟨r, j, rfl⟩ : ∃ (r : Fin 1024) (j : Fin 256), y = ix2 r j := ⟨y 0, y 1, eq_ix2 y⟩
  obtain ⟨e2, e3⟩ := idx0_15 t
  have hc : col (((cfg0.win 15).blk t).view.emb (ix2 r j)) = j :=
    Fin.ext (by show win0_15.index t (1 : Fin 2) * 256 + 1 * j.val = j.val; rw [e3]; omega)
  have hr : (row (((cfg0.win 15).blk t).view.emb (ix2 r j))).val = t.val * 1024 + r.val := by
    show win0_15.index t (0 : Fin 2) * 1024 + 1 * r.val = _; rw [e2]; omega
  show k0_pay2 (iblk0 V c 2 t) (k0_pay5 (iblk0 V c 0 t) (iblk0 V c 3 t) (iblk0 V c 4 t) (iblk0 V c 5 t) (iblk0 V c 6 t) (iblk0 V c 1 t) (iblk0 V c 7 t) (iblk0 V c 9 t)) (iblk0 V c 8 t) (iblk0 V c 10 t) (ix2 r j)
    = nodeC1 (V c main_arg0) (V c main_arg1) (V c main_arg2) (wOfT (V c main_v0)) (bOfT (V c main_v11)) (wOfT (V c main_v1)) (bOfT (V c main_v12)) (wOfT (V c main_v2)) (wOfT (V c main_v3)) (bOfT (V c main_v13)) (bOfT (V c main_v14))
        (((cfg0.win 15).blk t).view.emb (ix2 r j))
  refine (c1_pay _ _ _ _ _ _ _ _ _ _ _ r j).trans ?_
  unfold nodeC1 nodeCellRow nodeGates
  rw [hc]
  have h0 : (fun k => iblk0 V c 0 t (ix2 r k)) = rowOf (V c main_arg0) (row (((cfg0.win 15).blk t).view.emb (ix2 r j))) :=
    funext fun k => blk0_0 V c t r k _ hr
  have h1 : (fun k => iblk0 V c 1 t (ix2 r k)) = rowOf (V c main_arg1) (row (((cfg0.win 15).blk t).view.emb (ix2 r j))) :=
    funext fun k => blk0_1 V c t r k _ hr
  have h2 : (fun k => iblk0 V c 2 t (ix2 r k)) = rowOf (V c main_arg2) (row (((cfg0.win 15).blk t).view.emb (ix2 r j))) :=
    funext fun k => blk0_2 V c t r k _ hr
  have h3 : (fun j k => iblk0 V c 3 t (ix2 k j)) = wOfT (V c main_v0) := funext fun j => funext fun k => blk0_3 V c t k j
  have h4 : (fun j => iblk0 V c 4 t (ix2 (0 : Fin 1) j)) = bOfT (V c main_v11) := funext fun j => blk0_4 V c t 0 j
  have h5 : (fun j k => iblk0 V c 5 t (ix2 k j)) = wOfT (V c main_v1) := funext fun j => funext fun k => blk0_5 V c t k j
  have h6 : (fun j => iblk0 V c 6 t (ix2 (0 : Fin 1) j)) = bOfT (V c main_v12) := funext fun j => blk0_6 V c t 0 j
  have h7 : (fun j k => iblk0 V c 7 t (ix2 k j)) = wOfT (V c main_v2) := funext fun j => funext fun k => blk0_7 V c t k j
  have h8 : (fun j => iblk0 V c 8 t (ix2 (0 : Fin 1) j)) = bOfT (V c main_v13) := funext fun j => blk0_8 V c t 0 j
  have h9 : (fun j k => iblk0 V c 9 t (ix2 k j)) = wOfT (V c main_v3) := funext fun j => funext fun k => blk0_9 V c t k j
  have h10 : (fun j => iblk0 V c 10 t (ix2 (0 : Fin 1) j)) = bOfT (V c main_v14) := funext fun j => blk0_10 V c t 0 j
  rw [h0, h1, h2, h3, h4, h5, h6, h7, h8, h9, h10]

/-- An index of the result array of window 15 is in point `t`'s block iff each coordinate is in the block's range on
    its axis. -/
theorem mem_blk0_15 (t : Fin cfg0.N) (i : S65536x256.Idx) :
    i ∈ ((cfg0.win 15).blk t).view.set ↔ ∀ a : Fin 2, win0_15.index t a * S1024x256.size a ≤ (i a).val
      ∧ (i a).val < win0_15.index t a * S1024x256.size a + S1024x256.size a := by
  show i ∈ ((View.whole main_v22_2).slice (win0_15.rect t)).set ↔ _
  rw [View.set_slice_whole, Rect.mem_set_unit]
  exact Iff.rfl

/-- The 64 blocks of 1024 rows tile the 65536 rows, so after the region the array of window 15 IS the new cell states of the
    arrays the region found: row `i` lies in the block of point `i / 1024`. -/
theorem final0_c1 (c : Dev nD) :
    (dat0 V c).arrAt 15 cfg0.N
      = nodeC1 (V c main_arg0) (V c main_arg1) (V c main_arg2) (wOfT (V c main_v0)) (bOfT (V c main_v11)) (wOfT (V c main_v1)) (bOfT (V c main_v12)) (wOfT (V c main_v2)) (wOfT (V c main_v3)) (bOfT (V c main_v13)) (bOfT (V c main_v14)) :=
  (dat0 V c).arrAt_eq_of_cover 15 _ (fun t _ => flushed0_15 V c t) fun i => by
    have hN : grid0.N = 64 := N_0
    have hi0 : (i 0).val < 65536 := (i 0).isLt
    have hi1 : (i 1).val < 256 := (i 1).isLt
    have ht : (i 0).val / 1024 < grid0.N := by omega
    refine ⟨⟨(i 0).val / 1024, ht⟩, flush0_15 _, ?_⟩
    rw [mem_blk0_15]
    obtain ⟨e2, e3⟩ := idx0_15 ⟨(i 0).val / 1024, ht⟩
    intro a
    match a with
    | ⟨0, _⟩ =>
      show win0_15.index ⟨(i 0).val / 1024, ht⟩ (0 : Fin 2) * 1024 ≤ (i 0).val
        ∧ (i 0).val < win0_15.index ⟨(i 0).val / 1024, ht⟩ (0 : Fin 2) * 1024 + 1024
      rw [e2]; show (i 0).val / 1024 * 1024 ≤ (i 0).val ∧ (i 0).val < (i 0).val / 1024 * 1024 + 1024; omega
    | ⟨1, _⟩ =>
      show win0_15.index ⟨(i 0).val / 1024, ht⟩ (1 : Fin 2) * 256 ≤ (i 1).val
        ∧ (i 1).val < win0_15.index ⟨(i 0).val / 1024, ht⟩ (1 : Fin 2) * 256 + 256
      rw [e3]; omega

end Cert.KernelIdeal.NodeVal

end
-- ==== Proof.EdgeVal.lean ====
/-
  The edge kernel's value: after the second region the edge-feature array holds, at edge `e` and feature `j`, the
  two-layer perceptron of row `e` of the gathered features.

  The kernel works on 64 blocks of 8192 edges.  At a grid point the body loads the point's block of gathered features and
  the whole weights and biases, and stores `relu(x · Wₑ + bₑ) · Wₑ₂ + bₑ₂` — two matrix products into zero accumulators,
  two row broadcasts, one rectifier; the roundings to bf16 on the way into the products are the identity on the extended
  reals.  Read at one entry (`edge_pay`) this is `RowSpec.mlp2` of the block's row.  A block's row `r` at point `t` is the
  array's row `8192·t + r` (`blk1_0`), the weights' blocks are the whole weights (`blk1_1` … `blk1_4`), so what point `t`
  writes back is block `t` of `ArraySpec.edgeEF` (`flushed1`); the blocks tile the array (`final1`).  Everything is stated
  for ANY contents `V` the region may find: which arrays those are is the run's business.
-/
import proofs.«159683_j88441966559674_1_alg».proof.Proof.Gen.KernelIdeal.Frame
import proofs.«159683_j88441966559674_1_alg».proof.Proof.RowSpec
import proofs.«159683_j88441966559674_1_alg».proof.Proof.ArraySpec
import proofs.«159683_j88441966559674_1_alg».proof.Proof.MatmulAt
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

open scoped BigOperators

namespace Cert.KernelIdeal.EdgeVal

open Idealize.ShloMosaic Idealize.ShloMosaic.ValueIdx Idealize.ShloMosaic.TcCoe Idealize.SL.Sem
open Idealize.ShloMosaic.Pipeline (Dat Cfg Window)
open Cert.KernelIdeal Cert.KernelIdeal.Gen Cert.KernelIdeal.MatmulAt Cert.RowSpec Cert.ArraySpec

/-- The edge kernel's stored block at row `r`, feature `j`: the two-layer perceptron of row `r` of the block of gathered
    features, the weights read transposed and the biases as one-row matrices. -/
theorem edge_pay (x0 : FVec Ideal S8192x256 .f32) (x1 : FVec Ideal S256x256 .f32) (x2 : FVec Ideal S1x256 .f32)
    (x3 : FVec Ideal S256x128 .f32) (x4 : FVec Ideal S1x128 .f32) (r : Fin 8192) (j : Fin 128) :
    Gen.k1_pay1 (F := Ideal) x0 x1 x2 x3 x4 (ix2 r j)
      = mlp2 (fun k => x0 (ix2 r k)) (fun j k => x1 (ix2 k j)) (fun j => x2 (ix2 (0 : Fin 1) j))
          (fun j k => x3 (ix2 k j)) (fun j => x4 (ix2 (0 : Fin 1) j)) j := by
  unfold Gen.k1_pay1 mlp2 lin relu
  simp only [shapeCast_self]
  refine congrArg₂ (· + ·) ((mm_8192_256_128 _ _ r j).trans (Finset.sum_congr rfl fun k _ => ?_))
    (broadcastTo_1b_ab_apply _ _ r j)
  refine congrArg₂ (· * ·) ?_ rfl
  refine congrArg₂ max (congrArg₂ (· + ·) (mm_8192_256_256 _ _ r k) (broadcastTo_1b_ab_apply _ _ r k)) ?_
  exact Ideal.ofBits_zero_f32

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the gathered features and the result move one block of 8192 rows per point;
    the weights and biases are whole at every point. -/
theorem idx1 : ∀ t : Fin cfg1.N, win1_0.index t (0 : Fin 2) = t.val ∧ win1_0.index t (1 : Fin 2) = 0
    ∧ win1_5.index t (0 : Fin 2) = t.val ∧ win1_5.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0 :=
  (by decide +kernel : ∀ t : Fin grid1.N, _)

theorem blk1_0 (c : Dev nD) (t : Fin cfg1.N) (r : Fin 8192) (k : Fin 256) (n : Fin 524288) (hn : n.val = t.val * 8192 + r.val) :
    iblk1 V c 0 t (ix2 r k) = (V c main_v37 : S524288x256.Idx → EReal) (ix2 n k) := by
  obtain ⟨e0, e1, -⟩ := idx1 t
  show (V c main_v37 : S524288x256.Idx → EReal) (((cfg1.win 0).blk t).view.emb (ix2 r k)) = _
  refine congrArg _ (funext fun a => Fin.ext ?_)
  match a with
  | ⟨0, _⟩ => show win1_0.index t (0 : Fin 2) * 8192 + 1 * r.val = n.val; rw [e0, hn]; omega
  | ⟨1, _⟩ => show win1_0.index t (1 : Fin 2) * 256 + 1 * k.val = k.val; rw [e1]; omega

theorem blk1_1 (c : Dev nD) (t : Fin cfg1.N) (p : Fin 256) (q : Fin 256) :
    iblk1 V c 1 t (ix2 p q) = (V c main_v5 : S256x256.Idx → EReal) (ix2 p q) := by
  have e := idx1 t
  show (V c main_v5 : S256x256.Idx → EReal) (((cfg1.win 1).blk t).view.emb (ix2 p q)) = _
  refine congrArg _ (funext fun a => Fin.ext ?_)
  match a with
  | ⟨0, _⟩ => show win1_1.index t (0 : Fin 2) * 256 + 1 * p.val = p.val; rw [e.2.2.2.2.1]; omega
  | ⟨1, _⟩ => show win1_1.index t (1 : Fin 2) * 256 + 1 * q.val = q.val; rw [e.2.2.2.2.2.1]; omega
theorem blk1_2 (c : Dev nD) (t : Fin cfg1.N) (p : Fin 1) (q : Fin 256) :
    iblk1 V c 2 t (ix2 p q) = (V c main_v16 : S1x256.Idx → EReal) (ix2 p q) := by
  have e := idx1 t
  show (V c main_v16 : S1x256.Idx → EReal) (((cfg1.win 2).blk t).view.emb (ix2 p q)) = _
  refine congrArg _ (funext fun a => Fin.ext ?_)
  match a with
  | ⟨0, _⟩ => show win1_2.index t (0 : Fin 2) * 1 + 1 * p.val = p.val; rw [e.2.2.2.2.2.2.1]; omega
  | ⟨1, _⟩ => show win1_2.index t (1 : Fin 2) * 256 + 1 * q.val = q.val; rw [e.2.2.2.2.2.2.2.1]; omega
theorem blk1_3 (c : Dev nD) (t : Fin cfg1.N) (p : Fin 256) (q : Fin 128) :
    iblk1 V c 3 t (ix2 p q) = (V c main_v6 : S256x128.Idx → EReal) (ix2 p q) := by
  have e := idx1 t
  show (V c main_v6 : S256x128.Idx → EReal) (((cfg1.win 3).blk t).view.emb (ix2 p q)) = _
  refine congrArg _ (funext fun a => Fin.ext ?_)
  match a with
  | ⟨0, _⟩ => show win1_3.index t (0 : Fin 2) * 256 + 1 * p.val = p.val; rw [e.2.2.2.2.2.2.2.2.1]; omega
  | ⟨1, _⟩ => show win1_3.index t (1 : Fin 2) * 128 + 1 * q.val = q.val; rw [e.2.2.2.2.2.2.2.2.2.1]; omega
theorem blk1_4 (c : Dev nD) (t : Fin cfg1.N) (p : Fin 1) (q : Fin 128) :
    iblk1 V c 4 t (ix2 p q) = (V c main_v17 : S1x128.Idx → EReal) (ix2 p q) := by
  have e := idx1 t
  show (V c main_v17 : S1x128.Idx → EReal) (((cfg1.win 4).blk t).view.emb (ix2 p q)) = _
  refine congrArg _ (funext fun a => Fin.ext ?_)
  match a with
  | ⟨0, _⟩ => show win1_4.index t (0 : Fin 2) * 1 + 1 * p.val = p.val; rw [e.2.2.2.2.2.2.2.2.2.2.1]; omega
  | ⟨1, _⟩ => show win1_4.index t (1 : Fin 2) * 128 + 1 * q.val = q.val; rw [e.2.2.2.2.2.2.2.2.2.2.2]; omega

/-- What grid point `t` writes back is block `t` of the edge features, as a function of the arrays the region finds. -/
theorem flushed1 (c : Dev nD) (t : Fin cfg1.N) :
    (dat1 V c).flushed 5 t = ((cfg1.win 5).blk t).view.read (Elt Ideal)
      (edgeEF (V c main_v37) (wOfT (V c main_v5)) (bOfT (V c main_v16)) (wOfT (V c main_v6)) (bOfT (V c main_v17))) := by
  show (cfg1.win 5).cut (grid1.coords t) ((dat1 V c).after 5 t) = _
  rw [after1_5]
  unfold out1_5
  rw [View.canon_unit_zero hz]
  simp only [View.ld_unit_zero (S := S8192x256) hz, View.ld_unit_zero (S := S256x256) hz, View.ld_unit_zero (S := S1x256) hz,
    View.ld_unit_zero (S := S256x128) hz, View.ld_unit_zero (S := S1x128) hz]
  funext y
  obtain ⟨r, j, rfl⟩ : ∃ (r : Fin 8192) (j : Fin 128), y = ix2 r j := ⟨y 0, y 1, eq_ix2 y⟩
  obtain ⟨-, -, e2, e3, -⟩ := idx1 t
  have hc : col (((cfg1.win 5).blk t).view.emb (ix2 r j)) = j :=
    Fin.ext (by show win1_5.index t (1 : Fin 2) * 128 + 1 * j.val = j.val; rw [e3]; omega)
  have hr : (row (((cfg1.win 5).blk t).view.emb (ix2 r j))).val = t.val * 8192 + r.val := by
    show win1_5.index t (0 : Fin 2) * 8192 + 1 * r.val = _; rw [e2]; omega
  show k1_pay1 (iblk1 V c 0 t) (iblk1 V c 1 t) (iblk1 V c 2 t) (iblk1 V c 3 t) (iblk1 V c 4 t) (ix2 r j)
    = edgeEF (V c main_v37) (wOfT (V c main_v5)) (bOfT (V c main_v16)) (wOfT (V c main_v6)) (bOfT (V c main_v17))
        (((cfg1.win 5).blk t).view.emb (ix2 r j))
  refine (edge_pay _ _ _ _ _ r j).trans ?_
  unfold edgeEF
  rw [hc]
  have h0 : (fun k => iblk1 V c 0 t (ix2 r k)) = rowOf (V c main_v37) (row (((cfg1.win 5).blk t).view.emb (ix2 r j))) :=
    funext fun k => blk1_0 V c t r k _ hr
  have h1 : (fun j k => iblk1 V c 1 t (ix2 k j)) = wOfT (V c main_v5) := funext fun j => funext fun k => blk1_1 V c t k j
  have h2 : (fun j => iblk1 V c 2 t (ix2 (0 : Fin 1) j)) = bOfT (V c main_v16) := funext fun j => blk1_2 V c t 0 j
  have h3 : (fun j k => iblk1 V c 3 t (ix2 k j)) = wOfT (V c main_v6) := funext fun j => funext fun k => blk1_3 V c t k j
  have h4 : (fun j => iblk1 V c 4 t (ix2 (0 : Fin 1) j)) = bOfT (V c main_v17) := funext fun j => blk1_4 V c t 0 j
  rw [h0, h1, h2, h3, h4]

/-- An index of the edge-feature array is in point `t`'s block iff each coordinate is in the block's range on its axis. -/
theorem mem_blk1 (t : Fin cfg1.N) (i : S524288x128.Idx) :
    i ∈ ((cfg1.win 5).blk t).view.set ↔ ∀ a : Fin 2, win1_5.index t a * S8192x128.size a ≤ (i a).val
      ∧ (i a).val < win1_5.index t a * S8192x128.size a + S8192x128.size a := by
  show i ∈ ((View.whole main_v38).slice (win1_5.rect t)).set ↔ _
  rw [View.set_slice_whole, Rect.mem_set_unit]
  exact Iff.rfl

/-- The 64 blocks of 8192 rows tile the 524288 rows, so after the region the edge-feature array IS the edge features
    of the arrays the region found: row `i` lies in the block of point `i / 8192`. -/
theorem final1 (c : Dev nD) :
    (dat1 V c).arrAt 5 cfg1.N
      = edgeEF (V c main_v37) (wOfT (V c main_v5)) (bOfT (V c main_v16)) (wOfT (V c main_v6)) (bOfT (V c main_v17)) :=
  (dat1 V c).arrAt_eq_of_cover 5 _ (fun t _ => flushed1 V c t) fun i => by
    have hN : grid1.N = 64 := N_1
    have hi0 : (i 0).val < 524288 := (i 0).isLt
    have hi1 : (i 1).val < 128 := (i 1).isLt
    have ht : (i 0).val / 8192 < grid1.N := by omega
    refine ⟨⟨(i 0).val / 8192, ht⟩, flush1_5 _, ?_⟩
    rw [mem_blk1]
    obtain ⟨-, -, e2, e3, -⟩ := idx1 ⟨(i 0).val / 8192, ht⟩
    intro a
    match a with
    | ⟨0, _⟩ =>
      show win1_5.index ⟨(i 0).val / 8192, ht⟩ (0 : Fin 2) * 8192 ≤ (i 0).val
        ∧ (i 0).val < win1_5.index ⟨(i 0).val / 8192, ht⟩ (0 : Fin 2) * 8192 + 8192
      rw [e2]; show (i 0).val / 8192 * 8192 ≤ (i 0).val ∧ (i 0).val < (i 0).val / 8192 * 8192 + 8192; omega
    | ⟨1, _⟩ =>
      show win1_5.index ⟨(i 0).val / 8192, ht⟩ (1 : Fin 2) * 128 ≤ (i 1).val
        ∧ (i 1).val < win1_5.index ⟨(i 0).val / 8192, ht⟩ (1 : Fin 2) * 128 + 128
      rw [e3]; omega

end Cert.KernelIdeal.EdgeVal
end
-- ==== Proof.UpdVal.lean ====
/-
  The update kernel's value: after the third region the logits array holds, at node `n` and logit `j`, the readout of
  the node update of row `n` of the node features laid beside row `n` of the aggregated messages.

  The kernel works on 32 blocks of 2048 nodes.  At a grid point the body loads the point's block of node features and its
  block of aggregated messages, lays them side by side along the feature axis (256 features: the node's 128, then the
  messages' 128), and with the whole weights and biases computes
  `relu((relu(x · Wₙ + bₙ) · Wₙ₂ + bₙ₂) · Wᵣ + bᵣ) · Wᵣ₂ + bᵣ₂` — four matrix products into zero accumulators, four row
  broadcasts, two rectifiers; the roundings to bf16 on the way into the products are the identity on the extended reals.
  The side-by-side block read at one entry is `RowSpec.cat` of the two blocks' rows (`cat_at`); the hidden block read at
  one entry is the rectified first readout layer of the node update of that row (`upd_pay2`); the stored block read at
  one entry is the last affine layer of the hidden block's row (`upd_pay1`).  A moving block's row `r` at point `t`
  is the array's row `2048·t + r` (`blk2_0`, `blk2_1`), the weights' and biases' blocks are the whole arrays
  (`blk2_2` … `blk2_9`), so what point `t` writes back is block `t` of `ArraySpec.updLogits` (`flushed2`); the
  blocks tile the array (`final2`).  Everything is stated for ANY contents `V` the region may find: which arrays those
  are is the run's business.
-/
import proofs.«159683_j88441966559674_1_alg».proof.Proof.Gen.KernelIdeal.Frame
import proofs.«159683_j88441966559674_1_alg».proof.Proof.RowSpec
import proofs.«159683_j88441966559674_1_alg».proof.Proof.ArraySpec
import proofs.«159683_j88441966559674_1_alg».proof.Proof.MatmulAt
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

open scoped BigOperators

namespace Cert.KernelIdeal.UpdVal

open Idealize.ShloMosaic Idealize.ShloMosaic.ValueIdx Idealize.ShloMosaic.TcCoe Idealize.SL.Sem
open Idealize.ShloMosaic.Pipeline (Dat Cfg Window)
open Cert.KernelIdeal Cert.KernelIdeal.Gen Cert.KernelIdeal.MatmulAt Cert.RowSpec Cert.ArraySpec

/-- Two blocks of 128 features laid side by side along the feature axis, read at row `r`, feature `k`: the first
    block's row below feature 128, the second block's row from feature 128 on, 128 less. -/
theorem cat_at (x0 x1 : FVec Ideal S2048x128 .f32) (r : Fin 2048) (k : Fin 256) :
    concatenate S2048x256 1 [⟨S2048x128, x0⟩, ⟨S2048x128, x1⟩] concatenates_S2048x128_S2048x128_S2048x256_d1 (ix2 r k)
      = cat (fun k => x0 (ix2 r k)) (fun k => x1 (ix2 r k)) k := by
  unfold cat
  by_cases h : k.val < 128
  · rw [dif_pos h]
    exact concatenate_pair_apply_left (t := S2048x256) (s₁ := S2048x128) (s₂ := S2048x128) (1 : Fin 2) _ _ _ _ rfl
      (ix2 r (⟨k.val, h⟩ : Fin 128)) (by
        intro b
        match b with
        | ⟨0, _⟩ => rfl
        | ⟨1, _⟩ => rfl)
  · rw [dif_neg h]
    exact concatenate_pair_apply_right (t := S2048x256) (s₁ := S2048x128) (s₂ := S2048x128) (1 : Fin 2) _ _ _ _ rfl rfl
      (ix2 r (⟨k.val - 128, by have := k.isLt; omega⟩ : Fin 128)) (by
        intro b hb
        match b with
        | ⟨0, _⟩ => rfl
        | ⟨1, _⟩ => exact absurd rfl hb) (by
        show k.val - 128 + 128 = k.val; omega)

/-- The update kernel's hidden block at row `r`, feature `j`: the node update (a two-layer perceptron of the node's
    features beside its aggregated messages) through the readout's first affine layer and the rectifier; the weights
    read transposed, the biases as one-row matrices. -/
theorem upd_pay2 (x0 x1 : FVec Ideal S2048x128 .f32) (x2 : FVec Ideal S256x256 .f32) (x3 : FVec Ideal S1x256 .f32)
    (x4 : FVec Ideal S256x128 .f32) (x5 : FVec Ideal S1x128 .f32) (x6 : FVec Ideal S128x256 .f32)
    (x7 : FVec Ideal S1x256 .f32) (r : Fin 2048) (j : Fin 256) :
    Gen.k2_pay2 (F := Ideal) x0 x1 x2 x3 x4 x5 x6 x7 (ix2 r j)
      = relu (lin (mlp2 (cat (fun k => x0 (ix2 r k)) (fun k => x1 (ix2 r k)))
          (fun j k => x2 (ix2 k j)) (fun j => x3 (ix2 (0 : Fin 1) j))
          (fun j k => x4 (ix2 k j)) (fun j => x5 (ix2 (0 : Fin 1) j)))
          (fun j k => x6 (ix2 k j)) (fun j => x7 (ix2 (0 : Fin 1) j))) j := by
  unfold Gen.k2_pay2 mlp2 lin relu
  simp only [shapeCast_self]
  refine congrArg₂ max (congrArg₂ (· + ·) ((mm_2048_128_256 _ _ r j).trans (Finset.sum_congr rfl fun k _ => ?_))
    (broadcastTo_1b_ab_apply _ _ r j)) Ideal.ofBits_zero_f32
  refine congrArg₂ (· * ·) ?_ rfl
  refine congrArg₂ (· + ·) ((mm_2048_256_128 _ _ r k).trans (Finset.sum_congr rfl fun k' _ => ?_))
    (broadcastTo_1b_ab_apply _ _ r k)
  refine congrArg₂ (· * ·) ?_ rfl
  refine congrArg₂ max (congrArg₂ (· + ·) ((mm_2048_256_256 _ _ r k').trans (Finset.sum_congr rfl fun k'' _ => ?_))
    (broadcastTo_1b_ab_apply _ _ r k')) Ideal.ofBits_zero_f32
  exact congrArg₂ (· * ·) ((cat_at _ _ r k'').trans (by simp only [shapeCast_self])) rfl

/-- The update kernel's stored block at row `r`, logit `j`: the readout's last affine layer of row `r` of the hidden
    block. -/
theorem upd_pay1 (v35 : FVec Ideal S2048x256 .f32) (v36 : FVec Ideal S256x8 .f32) (v41 : FVec Ideal S1x8 .f32)
    (r : Fin 2048) (j : Fin 8) :
    Gen.k2_pay1 (F := Ideal) v35 v36 v41 (ix2 r j)
      = lin (fun k => v35 (ix2 r k)) (fun j k => v36 (ix2 k j)) (fun j => v41 (ix2 (0 : Fin 1) j)) j := by
  unfold Gen.k2_pay1 lin
  simp only [shapeCast_self]
  exact congrArg₂ (· + ·) (mm_2048_256_8 _ _ r j) (broadcastTo_1b_ab_apply _ _ r j)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid, the windows that move: the node features, the aggregated messages and the
    logits move one block of 2048 rows per point. -/
theorem idx2_mov : ∀ t : Fin cfg2.N, (win2_0.index t (0 : Fin 2) = t.val ∧ win2_0.index t (1 : Fin 2) = 0)
    ∧ (win2_1.index t (0 : Fin 2) = t.val ∧ win2_1.index t (1 : Fin 2) = 0)
    ∧ (win2_10.index t (0 : Fin 2) = t.val ∧ win2_10.index t (1 : Fin 2) = 0) :=
  (by decide +kernel : ∀ t : Fin grid2.N, _)

/-- The printed index maps over the grid, the windows that stay: the weights and biases are whole at every point. -/
theorem idx2_whole : ∀ t : Fin cfg2.N, (win2_2.index t (0 : Fin 2) = 0 ∧ win2_2.index t (1 : Fin 2) = 0)
    ∧ (win2_3.index t (0 : Fin 2) = 0 ∧ win2_3.index t (1 : Fin 2) = 0)
    ∧ (win2_4.index t (0 : Fin 2) = 0 ∧ win2_4.index t (1 : Fin 2) = 0)
    ∧ (win2_5.index t (0 : Fin 2) = 0 ∧ win2_5.index t (1 : Fin 2) = 0)
    ∧ (win2_6.index t (0 : Fin 2) = 0 ∧ win2_6.index t (1 : Fin 2) = 0)
    ∧ (win2_7.index t (0 : Fin 2) = 0 ∧ win2_7.index t (1 : Fin 2) = 0)
    ∧ (win2_8.index t (0 : Fin 2) = 0 ∧ win2_8.index t (1 : Fin 2) = 0)
    ∧ (win2_9.index t (0 : Fin 2) = 0 ∧ win2_9.index t (1 : Fin 2) = 0) :=
  (by decide +kernel : ∀ t : Fin grid2.N, _)

theorem blk2_0 (c : Dev nD) (t : Fin cfg2.N) (r : Fin 2048) (k : Fin 128) (n : Fin 65536) (hn : n.val = t.val * 2048 + r.val) :
    iblk2 V c 0 t (ix2 r k) = (V c main_v22_0 : S65536x128.Idx → EReal) (ix2 n k) := by
  obtain ⟨⟨e0, e1⟩, -, -⟩ := idx2_mov t
  show (V c main_v22_0 : S65536x128.Idx → EReal) (((cfg2.win 0).blk t).view.emb (ix2 r k)) = _
  refine congrArg _ (funext fun a => Fin.ext ?_)
  match a with
  | ⟨0, _⟩ => show win2_0.index t (0 : Fin 2) * 2048 + 1 * r.val = n.val; rw [e0, hn]; omega
  | ⟨1, _⟩ => show win2_0.index t (1 : Fin 2) * 128 + 1 * k.val = k.val; rw [e1]; omega
theorem blk2_1 (c : Dev nD) (t : Fin cfg2.N) (r : Fin 2048) (k : Fin 128) (n : Fin 65536) (hn : n.val = t.val * 2048 + r.val) :
    iblk2 V c 1 t (ix2 r k) = (V c main_v41 : S65536x128.Idx → EReal) (ix2 n k) := by
  obtain ⟨-, ⟨e0, e1⟩, -⟩ := idx2_mov t
  show (V c main_v41 : S65536x128.Idx → EReal) (((cfg2.win 1).blk t).view.emb (ix2 r k)) = _
  refine congrArg _ (funext fun a => Fin.ext ?_)
  match a with
  | ⟨0, _⟩ => show win2_1.index t (0 : Fin 2) * 2048 + 1 * r.val = n.val; rw [e0, hn]; omega
  | ⟨1, _⟩ => show win2_1.index t (1 : Fin 2) * 128 + 1 * k.val = k.val; rw [e1]; omega
theorem blk2_2 (c : Dev nD) (t : Fin cfg2.N) (p : Fin 256) (q : Fin 256) :
    iblk2 V c 2 t (ix2 p q) = (V c main_v7 : S256x256.Idx → EReal) (ix2 p q) := by
  obtain ⟨⟨e0, e1⟩, -, -, -, -, -, -, -⟩ := idx2_whole t
  show (V c main_v7 : S256x256.Idx → EReal) (((cfg2.win 2).blk t).view.emb (ix2 p q)) = _
  refine congrArg _ (funext fun a => Fin.ext ?_)
  match a with
  | ⟨0, _⟩ => show win2_2.index t (0 : Fin 2) * 256 + 1 * p.val = p.val; rw [e0]; omega
  | ⟨1, _⟩ => show win2_2.index t (1 : Fin 2) * 256 + 1 * q.val = q.val; rw [e1]; omega
theorem blk2_3 (c : Dev nD) (t : Fin cfg2.N) (p : Fin 1) (q : Fin 256) :
    iblk2 V c 3 t (ix2 p q) = (V c main_v18 : S1x256.Idx → EReal) (ix2 p q) := by
  obtain ⟨-, ⟨e0, e1⟩, -, -, -, -, -, -⟩ := idx2_whole t
  show (V c main_v18 : S1x256.Idx → EReal) (((cfg2.win 3).blk t).view.emb (ix2 p q)) = _
  refine congrArg _ (funext fun a => Fin.ext ?_)
  match a with
  | ⟨0, _⟩ => show win2_3.index t (0 : Fin 2) * 1 + 1 * p.val = p.val; rw [e0]; omega
  | ⟨1, _⟩ => show win2_3.index t (1 : Fin 2) * 256 + 1 * q.val = q.val; rw [e1]; omega
theorem blk2_4 (c : Dev nD) (t : Fin cfg2.N) (p : Fin 256) (q : Fin 128) :
    iblk2 V c 4 t (ix2 p q) = (V c main_v8 : S256x128.Idx → EReal) (ix2 p q) := by
  obtain ⟨-, -, ⟨e0, e1⟩, -, -, -, -, -⟩ := idx2_whole t
  show (V c main_v8 : S256x128.Idx → EReal) (((cfg2.win 4).blk t).view.emb (ix2 p q)) = _
  refine congrArg _ (funext fun a => Fin.ext ?_)
  match a with
  | ⟨0, _⟩ => show win2_4.index t (0 : Fin 2) * 256 + 1 * p.val = p.val; rw [e0]; omega
  | ⟨1, _⟩ => show win2_4.index t (1 : Fin 2) * 128 + 1 * q.val = q.val; rw [e1]; omega
theorem blk2_5 (c : Dev nD) (t : Fin cfg2.N) (p : Fin 1) (q : Fin 128) :
    iblk2 V c 5 t (ix2 p q) = (V c main_v19 : S1x128.Idx → EReal) (ix2 p q) := by
  obtain ⟨-, -, -, ⟨e0, e1⟩, -, -, -, -⟩ := idx2_whole t
  show (V c main_v19 : S1x128.Idx → EReal) (((cfg2.win 5).blk t).view.emb (ix2 p q)) = _
  refine congrArg _ (funext fun a => Fin.ext ?_)
  match a with
  | ⟨0, _⟩ => show win2_5.index t (0 : Fin 2) * 1 + 1 * p.val = p.val; rw [e0]; omega
  | ⟨1, _⟩ => show win2_5.index t (1 : Fin 2) * 128 + 1 * q.val = q.val; rw [e1]; omega
theorem blk2_6 (c : Dev nD) (t : Fin cfg2.N) (p : Fin 128) (q : Fin 256) :
    iblk2 V c 6 t (ix2 p q) = (V c main_v9 : S128x256.Idx → EReal) (ix2 p q) := by
  obtain ⟨-, -, -, -, ⟨e0, e1⟩, -, -, -⟩ := idx2_whole t
  show (V c main_v9 : S128x256.Idx → EReal) (((cfg2.win 6).blk t).view.emb (ix2 p q)) = _
  refine congrArg _ (funext fun a => Fin.ext ?_)
  match a with
  | ⟨0, _⟩ => show win2_6.index t (0 : Fin 2) * 128 + 1 * p.val = p.val; rw [e0]; omega
  | ⟨1, _⟩ => show win2_6.index t (1 : Fin 2) * 256 + 1 * q.val = q.val; rw [e1]; omega
theorem blk2_7 (c : Dev nD) (t : Fin cfg2.N) (p : Fin 1) (q : Fin 256) :
    iblk2 V c 7 t (ix2 p q) = (V c main_v20 : S1x256.Idx → EReal) (ix2 p q) := by
  obtain ⟨-, -, -, -, -, ⟨e0, e1⟩, -, -⟩ := idx2_whole t
  show (V c main_v20 : S1x256.Idx → EReal) (((cfg2.win 7).blk t).view.emb (ix2 p q)) = _
  refine congrArg _ (funext fun a => Fin.ext ?_)
  match a with
  | ⟨0, _⟩ => show win2_7.index t (0 : Fin 2) * 1 + 1 * p.val = p.val; rw [e0]; omega
  | ⟨1, _⟩ => show win2_7.index t (1 : Fin 2) * 256 + 1 * q.val = q.val; rw [e1]; omega
theorem blk2_8 (c : Dev nD) (t : Fin cfg2.N) (p : Fin 256) (q : Fin 8) :
    iblk2 V c 8 t (ix2 p q) = (V c main_v10 : S256x8.Idx → EReal) (ix2 p q) := by
  obtain ⟨-, -, -, -, -, -, ⟨e0, e1⟩, -⟩ := idx2_whole t
  show (V c main_v10 : S256x8.Idx → EReal) (((cfg2.win 8).blk t).view.emb (ix2 p q)) = _
  refine congrArg _ (funext fun a => Fin.ext ?_)
  match a with
  | ⟨0, _⟩ => show win2_8.index t (0 : Fin 2) * 256 + 1 * p.val = p.val; rw [e0]; omega
  | ⟨1, _⟩ => show win2_8.index t (1 : Fin 2) * 8 + 1 * q.val = q.val; rw [e1]; omega
theorem blk2_9 (c : Dev nD) (t : Fin cfg2.N) (p : Fin 1) (q : Fin 8) :
    iblk2 V c 9 t (ix2 p q) = (V c main_v21 : S1x8.Idx → EReal) (ix2 p q) := by
  obtain ⟨-, -, -, -, -, -, -, ⟨e0, e1⟩⟩ := idx2_whole t
  show (V c main_v21 : S1x8.Idx → EReal) (((cfg2.win 9).blk t).view.emb (ix2 p q)) = _
  refine congrArg _ (funext fun a => Fin.ext ?_)
  match a with
  | ⟨0, _⟩ => show win2_9.index t (0 : Fin 2) * 1 + 1 * p.val = p.val; rw [e0]; omega
  | ⟨1, _⟩ => show win2_9.index t (1 : Fin 2) * 8 + 1 * q.val = q.val; rw [e1]; omega

/-- What grid point `t` writes back is block `t` of the logits, as a function of the arrays the region finds. -/
theorem flushed2 (c : Dev nD) (t : Fin cfg2.N) :
    (dat2 V c).flushed 10 t = ((cfg2.win 10).blk t).view.read (Elt Ideal)
      (updLogits (V c main_v22_0) (V c main_v41) (wOfT (V c main_v7)) (bOfT (V c main_v18)) (wOfT (V c main_v8))
        (bOfT (V c main_v19)) (wOfT (V c main_v9)) (bOfT (V c main_v20)) (wOfT (V c main_v10)) (bOfT (V c main_v21))) := by
  show (cfg2.win 10).cut (grid2.coords t) ((dat2 V c).after 10 t) = _
  rw [after2_10]
  unfold out2_10
  rw [View.canon_unit_zero hz]
  simp only [View.ld_unit_zero (S := S2048x128) hz, View.ld_unit_zero (S := S256x256) hz, View.ld_unit_zero (S := S1x256) hz,
    View.ld_unit_zero (S := S256x128) hz, View.ld_unit_zero (S := S1x128) hz, View.ld_unit_zero (S := S128x256) hz,
    View.ld_unit_zero (S := S256x8) hz, View.ld_unit_zero (S := S1x8) hz]
  funext y
  obtain ⟨r, j, rfl⟩ : ∃ (r : Fin 2048) (j : Fin 8), y = ix2 r j := ⟨y 0, y 1, eq_ix2 y⟩
  obtain ⟨-, -, ⟨e2, e3⟩⟩ := idx2_mov t
  have hc : col (((cfg2.win 10).blk t).view.emb (ix2 r j)) = j :=
    Fin.ext (by show win2_10.index t (1 : Fin 2) * 8 + 1 * j.val = j.val; rw [e3]; omega)
  have hr : (row (((cfg2.win 10).blk t).view.emb (ix2 r j))).val = t.val * 2048 + r.val := by
    show win2_10.index t (0 : Fin 2) * 2048 + 1 * r.val = _; rw [e2]; omega
  show k2_pay1 (k2_pay2 (iblk2 V c 0 t) (iblk2 V c 1 t) (iblk2 V c 2 t) (iblk2 V c 3 t) (iblk2 V c 4 t) (iblk2 V c 5 t)
      (iblk2 V c 6 t) (iblk2 V c 7 t)) (iblk2 V c 8 t) (iblk2 V c 9 t) (ix2 r j)
    = updLogits (V c main_v22_0) (V c main_v41) (wOfT (V c main_v7)) (bOfT (V c main_v18)) (wOfT (V c main_v8))
        (bOfT (V c main_v19)) (wOfT (V c main_v9)) (bOfT (V c main_v20)) (wOfT (V c main_v10)) (bOfT (V c main_v21))
        (((cfg2.win 10).blk t).view.emb (ix2 r j))
  refine (upd_pay1 _ _ _ r j).trans ?_
  unfold updLogits
  rw [hc]
  have hh : (fun k => k2_pay2 (iblk2 V c 0 t) (iblk2 V c 1 t) (iblk2 V c 2 t) (iblk2 V c 3 t) (iblk2 V c 4 t) (iblk2 V c 5 t)
      (iblk2 V c 6 t) (iblk2 V c 7 t) (ix2 r k))
      = relu (lin (mlp2 (cat (fun k => iblk2 V c 0 t (ix2 r k)) (fun k => iblk2 V c 1 t (ix2 r k)))
          (fun j k => iblk2 V c 2 t (ix2 k j)) (fun j => iblk2 V c 3 t (ix2 (0 : Fin 1) j))
          (fun j k => iblk2 V c 4 t (ix2 k j)) (fun j => iblk2 V c 5 t (ix2 (0 : Fin 1) j)))
          (fun j k => iblk2 V c 6 t (ix2 k j)) (fun j => iblk2 V c 7 t (ix2 (0 : Fin 1) j))) :=
    funext fun k => upd_pay2 _ _ _ _ _ _ _ _ r k
  have h0 : (fun k => iblk2 V c 0 t (ix2 r k)) = rowOf (V c main_v22_0) (row (((cfg2.win 10).blk t).view.emb (ix2 r j))) :=
    funext fun k => blk2_0 V c t r k _ hr
  have h1 : (fun k => iblk2 V c 1 t (ix2 r k)) = rowOf (V c main_v41) (row (((cfg2.win 10).blk t).view.emb (ix2 r j))) :=
    funext fun k => blk2_1 V c t r k _ hr
  have h2 : (fun j k => iblk2 V c 2 t (ix2 k j)) = wOfT (V c main_v7) := funext fun j => funext fun k => blk2_2 V c t k j
  have h3 : (fun j => iblk2 V c 3 t (ix2 (0 : Fin 1) j)) = bOfT (V c main_v18) := funext fun j => blk2_3 V c t 0 j
  have h4 : (fun j k => iblk2 V c 4 t (ix2 k j)) = wOfT (V c main_v8) := funext fun j => funext fun k => blk2_4 V c t k j
  have h5 : (fun j => iblk2 V c 5 t (ix2 (0 : Fin 1) j)) = bOfT (V c main_v19) := funext fun j => blk2_5 V c t 0 j
  have h6 : (fun j k => iblk2 V c 6 t (ix2 k j)) = wOfT (V c main_v9) := funext fun j => funext fun k => blk2_6 V c t k j
  have h7 : (fun j => iblk2 V c 7 t (ix2 (0 : Fin 1) j)) = bOfT (V c main_v20) := funext fun j => blk2_7 V c t 0 j
  have h8 : (fun j k => iblk2 V c 8 t (ix2 k j)) = wOfT (V c main_v10) := funext fun j => funext fun k => blk2_8 V c t k j
  have h9 : (fun j => iblk2 V c 9 t (ix2 (0 : Fin 1) j)) = bOfT (V c main_v21) := funext fun j => blk2_9 V c t 0 j
  rw [hh, h0, h1, h2, h3, h4, h5, h6, h7, h8, h9]

/-- An index of the logits array is in point `t`'s block iff each coordinate is in the block's range on its axis. -/
theorem mem_blk2 (t : Fin cfg2.N) (i : S65536x8.Idx) :
    i ∈ ((cfg2.win 10).blk t).view.set ↔ ∀ a : Fin 2, win2_10.index t a * S2048x8.size a ≤ (i a).val
      ∧ (i a).val < win2_10.index t a * S2048x8.size a + S2048x8.size a := by
  show i ∈ ((View.whole main_v42).slice (win2_10.rect t)).set ↔ _
  rw [View.set_slice_whole, Rect.mem_set_unit]
  exact Iff.rfl

/-- The 32 blocks of 2048 rows tile the 65536 rows, so after the region the logits array IS the logits of the arrays
    the region found: row `i` lies in the block of point `i / 2048`. -/
theorem final2 (c : Dev nD) :
    (dat2 V c).arrAt 10 cfg2.N
      = updLogits (V c main_v22_0) (V c main_v41) (wOfT (V c main_v7)) (bOfT (V c main_v18)) (wOfT (V c main_v8))
          (bOfT (V c main_v19)) (wOfT (V c main_v9)) (bOfT (V c main_v20)) (wOfT (V c main_v10)) (bOfT (V c main_v21)) :=
  (dat2 V c).arrAt_eq_of_cover 10 _ (fun t _ => flushed2 V c t) fun i => by
    have hN : grid2.N = 32 := N_2
    have hi0 : (i 0).val < 65536 := (i 0).isLt
    have hi1 : (i 1).val < 8 := (i 1).isLt
    have ht : (i 0).val / 2048 < grid2.N := by omega
    refine ⟨⟨(i 0).val / 2048, ht⟩, flush2_10 _, ?_⟩
    rw [mem_blk2]
    obtain ⟨-, -, ⟨e2, e3⟩⟩ := idx2_mov ⟨(i 0).val / 2048, ht⟩
    intro a
    match a with
    | ⟨0, _⟩ =>
      show win2_10.index ⟨(i 0).val / 2048, ht⟩ (0 : Fin 2) * 2048 ≤ (i 0).val
        ∧ (i 0).val < win2_10.index ⟨(i 0).val / 2048, ht⟩ (0 : Fin 2) * 2048 + 2048
      rw [e2]; show (i 0).val / 2048 * 2048 ≤ (i 0).val ∧ (i 0).val < (i 0).val / 2048 * 2048 + 2048; omega
    | ⟨1, _⟩ =>
      show win2_10.index ⟨(i 0).val / 2048, ht⟩ (1 : Fin 2) * 8 ≤ (i 1).val
        ∧ (i 1).val < win2_10.index ⟨(i 0).val / 2048, ht⟩ (1 : Fin 2) * 8 + 8
      rw [e3]; omega

end Cert.KernelIdeal.UpdVal

end
-- ==== Proof.RefVal.lean ====
/-
  The reference's stages are the network's stages, index by index.

  The reference computes the message-passing network one whole-array operation at a time.  Read at one index `(n, j)`,
  every stage depends on its input arrays only through row `n`, so each stage is identified with the row function of
  `Proof/RowSpec.lean` applied to row `n` (`ArraySpec.rowOf`) of the stage before it:

  * an affine layer is a contraction with the transposed weight plus the bias broadcast along the rows; at `(n, j)` the
    contraction is `∑ k, X (n, k) * W (j, k)` and the broadcast reads `b j`, which is `RowSpec.lin` of row `n` of `X` with the
    weight and bias read as given (`wOf`, `bOf`) — `v4_at`, `v11_at`, `v55_at`, `v75_at`, `v82_at`, `v91_at`, `v98_at`,
    `v103_at`, `v110_at`;
  * a maximum with the zero constant is `RowSpec.relu` of the row — the `_row` lemmas of stages 6, 50, 77, 93, 105;
  * the LSTM's 1024 pre-activations are `(X·W_ihᵀ + H₀·W_hhᵀ) + (b_ih + b_hh)`, which is `RowSpec.gates` (`v20_at`); the four
    column slices read pre-activations `j`, `256 + j`, `512 + j`, `768 + j`; the quotient `1 / (1 + exp (-x))` with the constant
    one is the logistic function (`logistic_spelled`), so the new cell and hidden states are `RowSpec.cell` and `RowSpec.hid`
    (`v40_at`, `v48_at`);
  * the concatenation of the node features with the aggregated messages along the feature axis reads the first operand at
    features 0–127 and the second at 128–255, which is `RowSpec.cat` of the two rows (`v86_row`).

  Chaining the rows gives the five statements the certificate uses: the new cell states, the new hidden states and the node
  features as functions of the arguments (`c1_eq`, `h1_eq`, `nf_eq`); the edge features as the two-layer perceptron of the
  gathered array, whatever that array is (`ef_eq`); and the logits as the node update and readout of the node features and
  the aggregated messages, whatever the latter are (`logits_eq`).  No sum is reordered here: every sum is read term by
  term, in the order both sides already share.
-/
import proofs.«159683_j88441966559674_1_alg».proof.Proof.Gen.ReferenceIdeal.Read
import proofs.«159683_j88441966559674_1_alg».proof.Proof.RowSpec
import proofs.«159683_j88441966559674_1_alg».proof.Proof.ArraySpec
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

open scoped BigOperators

namespace Cert.ReferenceIdeal.RefVal

open Cert.ReferenceIdeal Cert.ReferenceIdeal.Gen Cert.ReferenceIdeal.Read Cert.RowSpec Cert.ArraySpec Idealize.ShloMosaic
  Idealize.ShloMosaic.ValueIdx

/-- Two matrix indices with equal coordinates are equal. -/
theorem idx2_ext {n0 n1 : ℕ} (i i' : (⟨2, ![n0, n1]⟩ : Shape).Idx) (h0 : (i 0).val = (i' 0).val)
    (h1 : (i 1).val = (i' 1).val) : i = i' :=
  funext fun a => Fin.ext (by
    match a with
    | ⟨0, _⟩ => exact h0
    | ⟨1, _⟩ => exact h1)

/-- Two vector indices with equal coordinates are equal. -/
theorem idx1_ext {n0 : ℕ} (i i' : (⟨1, ![n0]⟩ : Shape).Idx) (h0 : (i 0).val = (i' 0).val) : i = i' :=
  funext fun a => Fin.ext (by
    match a with
    | ⟨0, _⟩ => exact h0)

/-- The f32 pattern `0x3F800000` is the extended real one. -/
theorem one_f32 : (FloatOps.ofBits (F := Ideal) .f32 0x3F800000#32 : Ideal .f32) = 1 :=
  IdealRules.sign_bit.ideal_onePat .f32

/-- The quotient `1 / (1 + exp (-x))`, spelled with the host's divide, add, exponential and negate and the constant
    one, is the logistic function of `x`. -/
theorem logistic_spelled (x : Ideal .f32) :
    FloatOps.hostDivf (F := Ideal) (FloatOps.ofBits .f32 0x3F800000#32)
      (FloatOps.addf (FloatOps.ofBits .f32 0x3F800000#32) (FloatOps.hostUnary .exp (FloatOps.hostNegf x)))
      = Ideal.logistic x := by
  rw [one_f32]; rfl

/-- The encoder's first affine layer at node `n`, feature `j`. -/
theorem v4_at (x0 : (⟨S65536x256, .f32⟩ : BufTy).Contents (Elt Ideal)) (x5 : (⟨S512x256, .f32⟩ : BufTy).Contents (Elt Ideal)) (x6 : (⟨S512, .f32⟩ : BufTy).Contents (Elt Ideal)) (n : Fin 65536) (j : Fin 512) :
    val_main_v4 (F := Ideal) x0 x5 x6 (ix2 n j) = lin (rowOf (x0) n) (wOf x5) (bOf x6) j := by
  rw [val_main_v4_apply, val_main_v1_apply, val_main_v3_apply, val_main_v2_apply]
  unfold lin
  refine congrArg₂ (· + ·) (Finset.sum_congr rfl fun k _ => ?_) (congrArg x6 (idx1_ext _ _ rfl))
  rw [val_main_v0_apply]
  exact congrArg₂ (· * ·) (congrArg (x0) (idx2_ext _ _ rfl rfl)) (congrArg x5 (idx2_ext _ _ rfl rfl))

/-- The rectified first layer, row `n`. -/
theorem v6_row (x0 : (⟨S65536x256, .f32⟩ : BufTy).Contents (Elt Ideal)) (x5 : (⟨S512x256, .f32⟩ : BufTy).Contents (Elt Ideal)) (x6 : (⟨S512, .f32⟩ : BufTy).Contents (Elt Ideal)) (n : Fin 65536) :
    rowOf (val_main_v6 (F := Ideal) x0 x5 x6) n = relu (rowOf (val_main_v4 (F := Ideal) x0 x5 x6) n) := by
  funext k
  show val_main_v6 (F := Ideal) x0 x5 x6 (ix2 n k) = max ((val_main_v4 (F := Ideal) x0 x5 x6) (ix2 n k)) 0
  rw [val_main_v6_apply, val_main_v5_apply, val_main_cst_apply]
  exact congrArg₂ max rfl Ideal.ofBits_zero_f32

/-- The encoder's second affine layer at node `n`, feature `j`, of the rectified first layer's row. -/
theorem v11_at (x0 : (⟨S65536x256, .f32⟩ : BufTy).Contents (Elt Ideal)) (x5 : (⟨S512x256, .f32⟩ : BufTy).Contents (Elt Ideal)) (x6 : (⟨S512, .f32⟩ : BufTy).Contents (Elt Ideal)) (x7 : (⟨S256x512, .f32⟩ : BufTy).Contents (Elt Ideal)) (x8 : (⟨S256, .f32⟩ : BufTy).Contents (Elt Ideal)) (n : Fin 65536) (j : Fin 256) :
    val_main_v11 (F := Ideal) x0 x5 x6 x7 x8 (ix2 n j) = lin (rowOf (val_main_v6 (F := Ideal) x0 x5 x6) n) (wOf x7) (bOf x8) j := by
  rw [val_main_v11_apply, val_main_v8_apply, val_main_v10_apply, val_main_v9_apply]
  unfold lin
  refine congrArg₂ (· + ·) (Finset.sum_congr rfl fun k _ => ?_) (congrArg x8 (idx1_ext _ _ rfl))
  rw [val_main_v7_apply]
  exact congrArg₂ (· * ·) (congrArg (val_main_v6 (F := Ideal) x0 x5 x6) (idx2_ext _ _ rfl rfl)) (congrArg x7 (idx2_ext _ _ rfl rfl))

/-- Row `n` of the encoder's output is the encoder of row `n` of the observations. -/
theorem v11_row (x0 : (⟨S65536x256, .f32⟩ : BufTy).Contents (Elt Ideal)) (x5 : (⟨S512x256, .f32⟩ : BufTy).Contents (Elt Ideal)) (x6 : (⟨S512, .f32⟩ : BufTy).Contents (Elt Ideal)) (x7 : (⟨S256x512, .f32⟩ : BufTy).Contents (Elt Ideal)) (x8 : (⟨S256, .f32⟩ : BufTy).Contents (Elt Ideal)) (n : Fin 65536) :
    rowOf (val_main_v11 (F := Ideal) x0 x5 x6 x7 x8) n = enc (rowOf x0 n) (wOf x5) (bOf x6) (wOf x7) (bOf x8) := by
  funext j
  refine (v11_at x0 x5 x6 x7 x8 n j).trans ?_
  rw [v6_row]
  have h : rowOf (val_main_v4 (F := Ideal) x0 x5 x6) n = lin (rowOf x0 n) (wOf x5) (bOf x6) := funext fun k => v4_at x0 x5 x6 n k
  rw [h]
  rfl

/-- The LSTM's pre-activation `j` of node `n`: the encoder's row through `w_ih`, the previous hidden row through `w_hh`,
    and the sum of the two biases. -/
theorem v20_at (x0 : (⟨S65536x256, .f32⟩ : BufTy).Contents (Elt Ideal)) (x1 : (⟨S65536x256, .f32⟩ : BufTy).Contents (Elt Ideal)) (x5 : (⟨S512x256, .f32⟩ : BufTy).Contents (Elt Ideal)) (x6 : (⟨S512, .f32⟩ : BufTy).Contents (Elt Ideal)) (x7 : (⟨S256x512, .f32⟩ : BufTy).Contents (Elt Ideal)) (x8 : (⟨S256, .f32⟩ : BufTy).Contents (Elt Ideal)) (x9 : (⟨S1024x256, .f32⟩ : BufTy).Contents (Elt Ideal)) (x10 : (⟨S1024, .f32⟩ : BufTy).Contents (Elt Ideal)) (x11 : (⟨S1024x256, .f32⟩ : BufTy).Contents (Elt Ideal)) (x12 : (⟨S1024, .f32⟩ : BufTy).Contents (Elt Ideal)) (n : Fin 65536) (j : Fin 1024) :
    val_main_v20 (F := Ideal) x0 x1 x5 x6 x7 x8 x9 x10 x11 x12 (ix2 n j)
      = gates (rowOf (val_main_v11 (F := Ideal) x0 x5 x6 x7 x8) n) (rowOf x1 n) (wOf x9) (wOf x11) (bOf x10) (bOf x12) j := by
  rw [val_main_v20_apply, val_main_v16_apply, val_main_v13_apply, val_main_v15_apply, val_main_v19_apply,
    val_main_v18_apply, val_main_v17_apply]
  unfold gates
  refine congrArg₂ (· + ·)
    (congrArg₂ (· + ·) (Finset.sum_congr rfl fun k _ => ?_) (Finset.sum_congr rfl fun k _ => ?_))
    (congrArg₂ (· + ·) (congrArg x10 (idx1_ext _ _ rfl)) (congrArg x12 (idx1_ext _ _ rfl)))
  · rw [val_main_v12_apply]
    exact congrArg₂ (· * ·) (congrArg (val_main_v11 (F := Ideal) x0 x5 x6 x7 x8) (idx2_ext _ _ rfl rfl)) (congrArg x9 (idx2_ext _ _ rfl rfl))
  · rw [val_main_v14_apply]
    exact congrArg₂ (· * ·) (congrArg x1 (idx2_ext _ _ rfl rfl)) (congrArg x11 (idx2_ext _ _ rfl rfl))

/-- Row `n` of the pre-activations is the node's 1024 gates. -/
theorem v20_row (x0 : (⟨S65536x256, .f32⟩ : BufTy).Contents (Elt Ideal)) (x1 : (⟨S65536x256, .f32⟩ : BufTy).Contents (Elt Ideal)) (x5 : (⟨S512x256, .f32⟩ : BufTy).Contents (Elt Ideal)) (x6 : (⟨S512, .f32⟩ : BufTy).Contents (Elt Ideal)) (x7 : (⟨S256x512, .f32⟩ : BufTy).Contents (Elt Ideal)) (x8 : (⟨S256, .f32⟩ : BufTy).Contents (Elt Ideal)) (x9 : (⟨S1024x256, .f32⟩ : BufTy).Contents (Elt Ideal)) (x10 : (⟨S1024, .f32⟩ : BufTy).Contents (Elt Ideal)) (x11 : (⟨S1024x256, .f32⟩ : BufTy).Contents (Elt Ideal)) (x12 : (⟨S1024, .f32⟩ : BufTy).Contents (Elt Ideal)) (n : Fin 65536) :
    rowOf (val_main_v20 (F := Ideal) x0 x1 x5 x6 x7 x8 x9 x10 x11 x12) n = nodeGates x0 x1 (wOf x5) (bOf x6) (wOf x7) (bOf x8) (wOf x9) (wOf x11) (bOf x10) (bOf x12) n := by
  funext j
  refine (v20_at x0 x1 x5 x6 x7 x8 x9 x10 x11 x12 n j).trans ?_
  rw [v11_row]
  rfl

/-- The forget gate: the logistic function of pre-activation `256 + j`. -/
theorem v30_at (x0 : (⟨S65536x256, .f32⟩ : BufTy).Contents (Elt Ideal)) (x1 : (⟨S65536x256, .f32⟩ : BufTy).Contents (Elt Ideal)) (x5 : (⟨S512x256, .f32⟩ : BufTy).Contents (Elt Ideal)) (x6 : (⟨S512, .f32⟩ : BufTy).Contents (Elt Ideal)) (x7 : (⟨S256x512, .f32⟩ : BufTy).Contents (Elt Ideal)) (x8 : (⟨S256, .f32⟩ : BufTy).Contents (Elt Ideal)) (x9 : (⟨S1024x256, .f32⟩ : BufTy).Contents (Elt Ideal)) (x10 : (⟨S1024, .f32⟩ : BufTy).Contents (Elt Ideal)) (x11 : (⟨S1024x256, .f32⟩ : BufTy).Contents (Elt Ideal)) (x12 : (⟨S1024, .f32⟩ : BufTy).Contents (Elt Ideal)) (n : Fin 65536) (j : Fin 256) :
    val_main_v30 (F := Ideal) x0 x1 x5 x6 x7 x8 x9 x10 x11 x12 (ix2 n j) = Ideal.logistic (rowOf (val_main_v20 (F := Ideal) x0 x1 x5 x6 x7 x8 x9 x10 x11 x12) n ⟨256 + j.val, by have := j.isLt; omega⟩) := by
  rw [val_main_v30_apply, val_main_v29_apply, val_main_cst_1_apply, val_main_v28_apply, val_main_v27_apply,
    val_main_cst_0_apply, val_main_v26_apply, val_main_v25_apply, val_main_v22_apply]
  exact (logistic_spelled _).trans (congrArg Ideal.logistic (congrArg (val_main_v20 (F := Ideal) x0 x1 x5 x6 x7 x8 x9 x10 x11 x12) (idx2_ext _ _ rfl rfl)))

/-- The input gate: the logistic function of pre-activation `0 + j`. -/
theorem v37_at (x0 : (⟨S65536x256, .f32⟩ : BufTy).Contents (Elt Ideal)) (x1 : (⟨S65536x256, .f32⟩ : BufTy).Contents (Elt Ideal)) (x5 : (⟨S512x256, .f32⟩ : BufTy).Contents (Elt Ideal)) (x6 : (⟨S512, .f32⟩ : BufTy).Contents (Elt Ideal)) (x7 : (⟨S256x512, .f32⟩ : BufTy).Contents (Elt Ideal)) (x8 : (⟨S256, .f32⟩ : BufTy).Contents (Elt Ideal)) (x9 : (⟨S1024x256, .f32⟩ : BufTy).Contents (Elt Ideal)) (x10 : (⟨S1024, .f32⟩ : BufTy).Contents (Elt Ideal)) (x11 : (⟨S1024x256, .f32⟩ : BufTy).Contents (Elt Ideal)) (x12 : (⟨S1024, .f32⟩ : BufTy).Contents (Elt Ideal)) (n : Fin 65536) (j : Fin 256) :
    val_main_v37 (F := Ideal) x0 x1 x5 x6 x7 x8 x9 x10 x11 x12 (ix2 n j) = Ideal.logistic (rowOf (val_main_v20 (F := Ideal) x0 x1 x5 x6 x7 x8 x9 x10 x11 x12) n ⟨0 + j.val, by have := j.isLt; omega⟩) := by
  rw [val_main_v37_apply, val_main_v36_apply, val_main_cst_3_apply, val_main_v35_apply, val_main_v34_apply,
    val_main_cst_2_apply, val_main_v33_apply, val_main_v32_apply, val_main_v21_apply]
  exact (logistic_spelled _).trans (congrArg Ideal.logistic (congrArg (val_main_v20 (F := Ideal) x0 x1 x5 x6 x7 x8 x9 x10 x11 x12) (idx2_ext _ _ rfl (Nat.zero_add _).symm)))

/-- The output gate: the logistic function of pre-activation `768 + j`. -/
theorem v46_at (x0 : (⟨S65536x256, .f32⟩ : BufTy).Contents (Elt Ideal)) (x1 : (⟨S65536x256, .f32⟩ : BufTy).Contents (Elt Ideal)) (x5 : (⟨S512x256, .f32⟩ : BufTy).Contents (Elt Ideal)) (x6 : (⟨S512, .f32⟩ : BufTy).Contents (Elt Ideal)) (x7 : (⟨S256x512, .f32⟩ : BufTy).Contents (Elt Ideal)) (x8 : (⟨S256, .f32⟩ : BufTy).Contents (Elt Ideal)) (x9 : (⟨S1024x256, .f32⟩ : BufTy).Contents (Elt Ideal)) (x10 : (⟨S1024, .f32⟩ : BufTy).Contents (Elt Ideal)) (x11 : (⟨S1024x256, .f32⟩ : BufTy).Contents (Elt Ideal)) (x12 : (⟨S1024, .f32⟩ : BufTy).Contents (Elt Ideal)) (n : Fin 65536) (j : Fin 256) :
    val_main_v46 (F := Ideal) x0 x1 x5 x6 x7 x8 x9 x10 x11 x12 (ix2 n j) = Ideal.logistic (rowOf (val_main_v20 (F := Ideal) x0 x1 x5 x6 x7 x8 x9 x10 x11 x12) n ⟨768 + j.val, by have := j.isLt; omega⟩) := by
  rw [val_main_v46_apply, val_main_v45_apply, val_main_cst_5_apply, val_main_v44_apply, val_main_v43_apply,
    val_main_cst_4_apply, val_main_v42_apply, val_main_v41_apply, val_main_v24_apply]
  exact (logistic_spelled _).trans (congrArg Ideal.logistic (congrArg (val_main_v20 (F := Ideal) x0 x1 x5 x6 x7 x8 x9 x10 x11 x12) (idx2_ext _ _ rfl rfl)))

/-- The candidate: the hyperbolic tangent of pre-activation `512 + j`. -/
theorem v38_at (x0 : (⟨S65536x256, .f32⟩ : BufTy).Contents (Elt Ideal)) (x1 : (⟨S65536x256, .f32⟩ : BufTy).Contents (Elt Ideal)) (x5 : (⟨S512x256, .f32⟩ : BufTy).Contents (Elt Ideal)) (x6 : (⟨S512, .f32⟩ : BufTy).Contents (Elt Ideal)) (x7 : (⟨S256x512, .f32⟩ : BufTy).Contents (Elt Ideal)) (x8 : (⟨S256, .f32⟩ : BufTy).Contents (Elt Ideal)) (x9 : (⟨S1024x256, .f32⟩ : BufTy).Contents (Elt Ideal)) (x10 : (⟨S1024, .f32⟩ : BufTy).Contents (Elt Ideal)) (x11 : (⟨S1024x256, .f32⟩ : BufTy).Contents (Elt Ideal)) (x12 : (⟨S1024, .f32⟩ : BufTy).Contents (Elt Ideal)) (n : Fin 65536) (j : Fin 256) :
    val_main_v38 (F := Ideal) x0 x1 x5 x6 x7 x8 x9 x10 x11 x12 (ix2 n j) = Ideal.tanh (rowOf (val_main_v20 (F := Ideal) x0 x1 x5 x6 x7 x8 x9 x10 x11 x12) n ⟨512 + j.val, by have := j.isLt; omega⟩) := by
  rw [val_main_v38_apply, val_main_v23_apply]
  exact congrArg Ideal.tanh (congrArg (val_main_v20 (F := Ideal) x0 x1 x5 x6 x7 x8 x9 x10 x11 x12) (idx2_ext _ _ rfl rfl))

/-- The new cell state at node `n`, feature `j`. -/
theorem v40_at (x0 : (⟨S65536x256, .f32⟩ : BufTy).Contents (Elt Ideal)) (x1 : (⟨S65536x256, .f32⟩ : BufTy).Contents (Elt Ideal)) (x2 : (⟨S65536x256, .f32⟩ : BufTy).Contents (Elt Ideal)) (x5 : (⟨S512x256, .f32⟩ : BufTy).Contents (Elt Ideal)) (x6 : (⟨S512, .f32⟩ : BufTy).Contents (Elt Ideal)) (x7 : (⟨S256x512, .f32⟩ : BufTy).Contents (Elt Ideal)) (x8 : (⟨S256, .f32⟩ : BufTy).Contents (Elt Ideal)) (x9 : (⟨S1024x256, .f32⟩ : BufTy).Contents (Elt Ideal)) (x10 : (⟨S1024, .f32⟩ : BufTy).Contents (Elt Ideal)) (x11 : (⟨S1024x256, .f32⟩ : BufTy).Contents (Elt Ideal)) (x12 : (⟨S1024, .f32⟩ : BufTy).Contents (Elt Ideal)) (n : Fin 65536) (j : Fin 256) :
    val_main_v40 (F := Ideal) x0 x1 x2 x5 x6 x7 x8 x9 x10 x11 x12 (ix2 n j) = cell (rowOf (val_main_v20 (F := Ideal) x0 x1 x5 x6 x7 x8 x9 x10 x11 x12) n) (rowOf x2 n) j := by
  rw [val_main_v40_apply, val_main_v31_apply, val_main_v39_apply]
  unfold cell
  exact congrArg₂ (· + ·) (congrArg₂ (· * ·) (v30_at x0 x1 x5 x6 x7 x8 x9 x10 x11 x12 n j) rfl)
    (congrArg₂ (· * ·) (v37_at x0 x1 x5 x6 x7 x8 x9 x10 x11 x12 n j) (v38_at x0 x1 x5 x6 x7 x8 x9 x10 x11 x12 n j))

/-- Row `n` of the new cell states is the node's new cell row. -/
theorem v40_row (x0 : (⟨S65536x256, .f32⟩ : BufTy).Contents (Elt Ideal)) (x1 : (⟨S65536x256, .f32⟩ : BufTy).Contents (Elt Ideal)) (x2 : (⟨S65536x256, .f32⟩ : BufTy).Contents (Elt Ideal)) (x5 : (⟨S512x256, .f32⟩ : BufTy).Contents (Elt Ideal)) (x6 : (⟨S512, .f32⟩ : BufTy).Contents (Elt Ideal)) (x7 : (⟨S256x512, .f32⟩ : BufTy).Contents (Elt Ideal)) (x8 : (⟨S256, .f32⟩ : BufTy).Contents (Elt Ideal)) (x9 : (⟨S1024x256, .f32⟩ : BufTy).Contents (Elt Ideal)) (x10 : (⟨S1024, .f32⟩ : BufTy).Contents (Elt Ideal)) (x11 : (⟨S1024x256, .f32⟩ : BufTy).Contents (Elt Ideal)) (x12 : (⟨S1024, .f32⟩ : BufTy).Contents (Elt Ideal)) (n : Fin 65536) :
    rowOf (val_main_v40 (F := Ideal) x0 x1 x2 x5 x6 x7 x8 x9 x10 x11 x12) n = nodeCellRow x0 x1 x2 (wOf x5) (bOf x6) (wOf x7) (bOf x8) (wOf x9) (wOf x11) (bOf x10) (bOf x12) n := by
  funext j
  refine (v40_at x0 x1 x2 x5 x6 x7 x8 x9 x10 x11 x12 n j).trans ?_
  rw [v20_row]
  rfl

/-- The new hidden state at node `n`, feature `j`: the output gate times the hyperbolic tangent of the new cell state. -/
theorem v48_at (x0 : (⟨S65536x256, .f32⟩ : BufTy).Contents (Elt Ideal)) (x1 : (⟨S65536x256, .f32⟩ : BufTy).Contents (Elt Ideal)) (x2 : (⟨S65536x256, .f32⟩ : BufTy).Contents (Elt Ideal)) (x5 : (⟨S512x256, .f32⟩ : BufTy).Contents (Elt Ideal)) (x6 : (⟨S512, .f32⟩ : BufTy).Contents (Elt Ideal)) (x7 : (⟨S256x512, .f32⟩ : BufTy).Contents (Elt Ideal)) (x8 : (⟨S256, .f32⟩ : BufTy).Contents (Elt Ideal)) (x9 : (⟨S1024x256, .f32⟩ : BufTy).Contents (Elt Ideal)) (x10 : (⟨S1024, .f32⟩ : BufTy).Contents (Elt Ideal)) (x11 : (⟨S1024x256, .f32⟩ : BufTy).Contents (Elt Ideal)) (x12 : (⟨S1024, .f32⟩ : BufTy).Contents (Elt Ideal)) (n : Fin 65536) (j : Fin 256) :
    val_main_v48 (F := Ideal) x0 x1 x2 x5 x6 x7 x8 x9 x10 x11 x12 (ix2 n j) = hid (rowOf (val_main_v20 (F := Ideal) x0 x1 x5 x6 x7 x8 x9 x10 x11 x12) n) (rowOf (val_main_v40 (F := Ideal) x0 x1 x2 x5 x6 x7 x8 x9 x10 x11 x12) n) j := by
  rw [val_main_v48_apply, val_main_v47_apply]
  unfold hid
  exact congrArg₂ (· * ·) (v46_at x0 x1 x5 x6 x7 x8 x9 x10 x11 x12 n j) rfl

/-- Row `n` of the new hidden states is the node's new hidden row. -/
theorem v48_row (x0 : (⟨S65536x256, .f32⟩ : BufTy).Contents (Elt Ideal)) (x1 : (⟨S65536x256, .f32⟩ : BufTy).Contents (Elt Ideal)) (x2 : (⟨S65536x256, .f32⟩ : BufTy).Contents (Elt Ideal)) (x5 : (⟨S512x256, .f32⟩ : BufTy).Contents (Elt Ideal)) (x6 : (⟨S512, .f32⟩ : BufTy).Contents (Elt Ideal)) (x7 : (⟨S256x512, .f32⟩ : BufTy).Contents (Elt Ideal)) (x8 : (⟨S256, .f32⟩ : BufTy).Contents (Elt Ideal)) (x9 : (⟨S1024x256, .f32⟩ : BufTy).Contents (Elt Ideal)) (x10 : (⟨S1024, .f32⟩ : BufTy).Contents (Elt Ideal)) (x11 : (⟨S1024x256, .f32⟩ : BufTy).Contents (Elt Ideal)) (x12 : (⟨S1024, .f32⟩ : BufTy).Contents (Elt Ideal)) (n : Fin 65536) :
    rowOf (val_main_v48 (F := Ideal) x0 x1 x2 x5 x6 x7 x8 x9 x10 x11 x12) n = nodeHidRow x0 x1 x2 (wOf x5) (bOf x6) (wOf x7) (bOf x8) (wOf x9) (wOf x11) (bOf x10) (bOf x12) n := by
  funext j
  refine (v48_at x0 x1 x2 x5 x6 x7 x8 x9 x10 x11 x12 n j).trans ?_
  rw [v20_row, v40_row]
  rfl

/-- The reference's new cell states are the network's. -/
theorem c1_eq (x0 : (⟨S65536x256, .f32⟩ : BufTy).Contents (Elt Ideal)) (x1 : (⟨S65536x256, .f32⟩ : BufTy).Contents (Elt Ideal)) (x2 : (⟨S65536x256, .f32⟩ : BufTy).Contents (Elt Ideal)) (x5 : (⟨S512x256, .f32⟩ : BufTy).Contents (Elt Ideal)) (x6 : (⟨S512, .f32⟩ : BufTy).Contents (Elt Ideal)) (x7 : (⟨S256x512, .f32⟩ : BufTy).Contents (Elt Ideal)) (x8 : (⟨S256, .f32⟩ : BufTy).Contents (Elt Ideal)) (x9 : (⟨S1024x256, .f32⟩ : BufTy).Contents (Elt Ideal)) (x10 : (⟨S1024, .f32⟩ : BufTy).Contents (Elt Ideal)) (x11 : (⟨S1024x256, .f32⟩ : BufTy).Contents (Elt Ideal)) (x12 : (⟨S1024, .f32⟩ : BufTy).Contents (Elt Ideal)) :
    val_main_v40 (F := Ideal) x0 x1 x2 x5 x6 x7 x8 x9 x10 x11 x12 = nodeC1 x0 x1 x2 (wOf x5) (bOf x6) (wOf x7) (bOf x8) (wOf x9) (wOf x11) (bOf x10) (bOf x12) := by
  funext i
  obtain ⟨n, j, rfl⟩ : ∃ (n : Fin 65536) (j : Fin 256), i = ix2 n j := ⟨i 0, i 1, eq_ix2 i⟩
  exact congrFun (v40_row x0 x1 x2 x5 x6 x7 x8 x9 x10 x11 x12 n) j

/-- The reference's new hidden states are the network's. -/
theorem h1_eq (x0 : (⟨S65536x256, .f32⟩ : BufTy).Contents (Elt Ideal)) (x1 : (⟨S65536x256, .f32⟩ : BufTy).Contents (Elt Ideal)) (x2 : (⟨S65536x256, .f32⟩ : BufTy).Contents (Elt Ideal)) (x5 : (⟨S512x256, .f32⟩ : BufTy).Contents (Elt Ideal)) (x6 : (⟨S512, .f32⟩ : BufTy).Contents (Elt Ideal)) (x7 : (⟨S256x512, .f32⟩ : BufTy).Contents (Elt Ideal)) (x8 : (⟨S256, .f32⟩ : BufTy).Contents (Elt Ideal)) (x9 : (⟨S1024x256, .f32⟩ : BufTy).Contents (Elt Ideal)) (x10 : (⟨S1024, .f32⟩ : BufTy).Contents (Elt Ideal)) (x11 : (⟨S1024x256, .f32⟩ : BufTy).Contents (Elt Ideal)) (x12 : (⟨S1024, .f32⟩ : BufTy).Contents (Elt Ideal)) :
    val_main_v48 (F := Ideal) x0 x1 x2 x5 x6 x7 x8 x9 x10 x11 x12 = nodeH1 x0 x1 x2 (wOf x5) (bOf x6) (wOf x7) (bOf x8) (wOf x9) (wOf x11) (bOf x10) (bOf x12) := by
  funext i
  obtain ⟨n, j, rfl⟩ : ∃ (n : Fin 65536) (j : Fin 256), i = ix2 n j := ⟨i 0, i 1, eq_ix2 i⟩
  exact congrFun (v48_row x0 x1 x2 x5 x6 x7 x8 x9 x10 x11 x12 n) j

/-- The rectified hidden states, row `n`. -/
theorem v50_row (x0 : (⟨S65536x256, .f32⟩ : BufTy).Contents (Elt Ideal)) (x1 : (⟨S65536x256, .f32⟩ : BufTy).Contents (Elt Ideal)) (x2 : (⟨S65536x256, .f32⟩ : BufTy).Contents (Elt Ideal)) (x5 : (⟨S512x256, .f32⟩ : BufTy).Contents (Elt Ideal)) (x6 : (⟨S512, .f32⟩ : BufTy).Contents (Elt Ideal)) (x7 : (⟨S256x512, .f32⟩ : BufTy).Contents (Elt Ideal)) (x8 : (⟨S256, .f32⟩ : BufTy).Contents (Elt Ideal)) (x9 : (⟨S1024x256, .f32⟩ : BufTy).Contents (Elt Ideal)) (x10 : (⟨S1024, .f32⟩ : BufTy).Contents (Elt Ideal)) (x11 : (⟨S1024x256, .f32⟩ : BufTy).Contents (Elt Ideal)) (x12 : (⟨S1024, .f32⟩ : BufTy).Contents (Elt Ideal)) (n : Fin 65536) :
    rowOf (val_main_v50 (F := Ideal) x0 x1 x2 x5 x6 x7 x8 x9 x10 x11 x12) n = relu (rowOf (val_main_v48 (F := Ideal) x0 x1 x2 x5 x6 x7 x8 x9 x10 x11 x12) n) := by
  funext k
  show val_main_v50 (F := Ideal) x0 x1 x2 x5 x6 x7 x8 x9 x10 x11 x12 (ix2 n k) = max ((val_main_v48 (F := Ideal) x0 x1 x2 x5 x6 x7 x8 x9 x10 x11 x12) (ix2 n k)) 0
  rw [val_main_v50_apply, val_main_v49_apply, val_main_cst_6_apply]
  exact congrArg₂ max rfl Ideal.ofBits_zero_f32

/-- The node features at node `n`, feature `j`: an affine layer of the rectified hidden row. -/
theorem v55_at (x0 : (⟨S65536x256, .f32⟩ : BufTy).Contents (Elt Ideal)) (x1 : (⟨S65536x256, .f32⟩ : BufTy).Contents (Elt Ideal)) (x2 : (⟨S65536x256, .f32⟩ : BufTy).Contents (Elt Ideal)) (x5 : (⟨S512x256, .f32⟩ : BufTy).Contents (Elt Ideal)) (x6 : (⟨S512, .f32⟩ : BufTy).Contents (Elt Ideal)) (x7 : (⟨S256x512, .f32⟩ : BufTy).Contents (Elt Ideal)) (x8 : (⟨S256, .f32⟩ : BufTy).Contents (Elt Ideal)) (x9 : (⟨S1024x256, .f32⟩ : BufTy).Contents (Elt Ideal)) (x10 : (⟨S1024, .f32⟩ : BufTy).Contents (Elt Ideal)) (x11 : (⟨S1024x256, .f32⟩ : BufTy).Contents (Elt Ideal)) (x12 : (⟨S1024, .f32⟩ : BufTy).Contents (Elt Ideal)) (x13 : (⟨S128x256, .f32⟩ : BufTy).Contents (Elt Ideal)) (x14 : (⟨S128, .f32⟩ : BufTy).Contents (Elt Ideal)) (n : Fin 65536) (j : Fin 128) :
    val_main_v55 (F := Ideal) x0 x1 x2 x5 x6 x7 x8 x9 x10 x11 x12 x13 x14 (ix2 n j) = lin (rowOf (val_main_v50 (F := Ideal) x0 x1 x2 x5 x6 x7 x8 x9 x10 x11 x12) n) (wOf x13) (bOf x14) j := by
  rw [val_main_v55_apply, val_main_v52_apply, val_main_v54_apply, val_main_v53_apply]
  unfold lin
  refine congrArg₂ (· + ·) (Finset.sum_congr rfl fun k _ => ?_) (congrArg x14 (idx1_ext _ _ rfl))
  rw [val_main_v51_apply]
  exact congrArg₂ (· * ·) (congrArg (val_main_v50 (F := Ideal) x0 x1 x2 x5 x6 x7 x8 x9 x10 x11 x12) (idx2_ext _ _ rfl rfl)) (congrArg x13 (idx2_ext _ _ rfl rfl))

/-- The reference's node features are the network's. -/
theorem nf_eq (x0 : (⟨S65536x256, .f32⟩ : BufTy).Contents (Elt Ideal)) (x1 : (⟨S65536x256, .f32⟩ : BufTy).Contents (Elt Ideal)) (x2 : (⟨S65536x256, .f32⟩ : BufTy).Contents (Elt Ideal)) (x5 : (⟨S512x256, .f32⟩ : BufTy).Contents (Elt Ideal)) (x6 : (⟨S512, .f32⟩ : BufTy).Contents (Elt Ideal)) (x7 : (⟨S256x512, .f32⟩ : BufTy).Contents (Elt Ideal)) (x8 : (⟨S256, .f32⟩ : BufTy).Contents (Elt Ideal)) (x9 : (⟨S1024x256, .f32⟩ : BufTy).Contents (Elt Ideal)) (x10 : (⟨S1024, .f32⟩ : BufTy).Contents (Elt Ideal)) (x11 : (⟨S1024x256, .f32⟩ : BufTy).Contents (Elt Ideal)) (x12 : (⟨S1024, .f32⟩ : BufTy).Contents (Elt Ideal)) (x13 : (⟨S128x256, .f32⟩ : BufTy).Contents (Elt Ideal)) (x14 : (⟨S128, .f32⟩ : BufTy).Contents (Elt Ideal)) :
    val_main_v55 (F := Ideal) x0 x1 x2 x5 x6 x7 x8 x9 x10 x11 x12 x13 x14 = nodeNF x0 x1 x2 (wOf x5) (bOf x6) (wOf x7) (bOf x8) (wOf x9) (wOf x11) (bOf x10) (bOf x12) (wOf x13) (bOf x14) := by
  funext i
  obtain ⟨n, j, rfl⟩ : ∃ (n : Fin 65536) (j : Fin 128), i = ix2 n j := ⟨i 0, i 1, eq_ix2 i⟩
  refine (v55_at x0 x1 x2 x5 x6 x7 x8 x9 x10 x11 x12 x13 x14 n j).trans ?_
  rw [v50_row, v48_row]
  rfl

/-- The edge perceptron's first affine layer at edge `n`, feature `j`, of the edge's gathered features. -/
theorem v75_at (x0 : (⟨S65536x256, .f32⟩ : BufTy).Contents (Elt Ideal)) (x1 : (⟨S65536x256, .f32⟩ : BufTy).Contents (Elt Ideal)) (x2 : (⟨S65536x256, .f32⟩ : BufTy).Contents (Elt Ideal)) (x3 : (⟨S524288, .i32⟩ : BufTy).Contents (Elt Ideal)) (x4 : (⟨S524288, .i32⟩ : BufTy).Contents (Elt Ideal)) (x5 : (⟨S512x256, .f32⟩ : BufTy).Contents (Elt Ideal)) (x6 : (⟨S512, .f32⟩ : BufTy).Contents (Elt Ideal)) (x7 : (⟨S256x512, .f32⟩ : BufTy).Contents (Elt Ideal)) (x8 : (⟨S256, .f32⟩ : BufTy).Contents (Elt Ideal)) (x9 : (⟨S1024x256, .f32⟩ : BufTy).Contents (Elt Ideal)) (x10 : (⟨S1024, .f32⟩ : BufTy).Contents (Elt Ideal)) (x11 : (⟨S1024x256, .f32⟩ : BufTy).Contents (Elt Ideal)) (x12 : (⟨S1024, .f32⟩ : BufTy).Contents (Elt Ideal)) (x13 : (⟨S128x256, .f32⟩ : BufTy).Contents (Elt Ideal)) (x14 : (⟨S128, .f32⟩ : BufTy).Contents (Elt Ideal)) (x15 : (⟨S256x256, .f32⟩ : BufTy).Contents (Elt Ideal)) (x16 : (⟨S256, .f32⟩ : BufTy).Contents (Elt Ideal)) (n : Fin 524288) (j : Fin 256) :
    val_main_v75 (F := Ideal) x0 x1 x2 x3 x4 x5 x6 x7 x8 x9 x10 x11 x12 x13 x14 x15 x16 (ix2 n j) = lin (rowOf (val_main_v70 (F := Ideal) x0 x1 x2 x3 x4 x5 x6 x7 x8 x9 x10 x11 x12 x13 x14) n) (wOf x15) (bOf x16) j := by
  rw [val_main_v75_apply, val_main_v72_apply, val_main_v74_apply, val_main_v73_apply]
  unfold lin
  refine congrArg₂ (· + ·) (Finset.sum_congr rfl fun k _ => ?_) (congrArg x16 (idx1_ext _ _ rfl))
  rw [val_main_v71_apply]
  exact congrArg₂ (· * ·) (congrArg (val_main_v70 (F := Ideal) x0 x1 x2 x3 x4 x5 x6 x7 x8 x9 x10 x11 x12 x13 x14) (idx2_ext _ _ rfl rfl)) (congrArg x15 (idx2_ext _ _ rfl rfl))

/-- The rectified first layer of the edge perceptron, row `n`. -/
theorem v77_row (x0 : (⟨S65536x256, .f32⟩ : BufTy).Contents (Elt Ideal)) (x1 : (⟨S65536x256, .f32⟩ : BufTy).Contents (Elt Ideal)) (x2 : (⟨S65536x256, .f32⟩ : BufTy).Contents (Elt Ideal)) (x3 : (⟨S524288, .i32⟩ : BufTy).Contents (Elt Ideal)) (x4 : (⟨S524288, .i32⟩ : BufTy).Contents (Elt Ideal)) (x5 : (⟨S512x256, .f32⟩ : BufTy).Contents (Elt Ideal)) (x6 : (⟨S512, .f32⟩ : BufTy).Contents (Elt Ideal)) (x7 : (⟨S256x512, .f32⟩ : BufTy).Contents (Elt Ideal)) (x8 : (⟨S256, .f32⟩ : BufTy).Contents (Elt Ideal)) (x9 : (⟨S1024x256, .f32⟩ : BufTy).Contents (Elt Ideal)) (x10 : (⟨S1024, .f32⟩ : BufTy).Contents (Elt Ideal)) (x11 : (⟨S1024x256, .f32⟩ : BufTy).Contents (Elt Ideal)) (x12 : (⟨S1024, .f32⟩ : BufTy).Contents (Elt Ideal)) (x13 : (⟨S128x256, .f32⟩ : BufTy).Contents (Elt Ideal)) (x14 : (⟨S128, .f32⟩ : BufTy).Contents (Elt Ideal)) (x15 : (⟨S256x256, .f32⟩ : BufTy).Contents (Elt Ideal)) (x16 : (⟨S256, .f32⟩ : BufTy).Contents (Elt Ideal)) (n : Fin 524288) :
    rowOf (val_main_v77 (F := Ideal) x0 x1 x2 x3 x4 x5 x6 x7 x8 x9 x10 x11 x12 x13 x14 x15 x16) n = relu (rowOf (val_main_v75 (F := Ideal) x0 x1 x2 x3 x4 x5 x6 x7 x8 x9 x10 x11 x12 x13 x14 x15 x16) n) := by
  funext k
  show val_main_v77 (F := Ideal) x0 x1 x2 x3 x4 x5 x6 x7 x8 x9 x10 x11 x12 x13 x14 x15 x16 (ix2 n k) = max ((val_main_v75 (F := Ideal) x0 x1 x2 x3 x4 x5 x6 x7 x8 x9 x10 x11 x12 x13 x14 x15 x16) (ix2 n k)) 0
  rw [val_main_v77_apply, val_main_v76_apply, val_main_cst_10_apply]
  exact congrArg₂ max rfl Ideal.ofBits_zero_f32

/-- The edge perceptron's second affine layer at edge `n`, feature `j`. -/
theorem v82_at (x0 : (⟨S65536x256, .f32⟩ : BufTy).Contents (Elt Ideal)) (x1 : (⟨S65536x256, .f32⟩ : BufTy).Contents (Elt Ideal)) (x2 : (⟨S65536x256, .f32⟩ : BufTy).Contents (Elt Ideal)) (x3 : (⟨S524288, .i32⟩ : BufTy).Contents (Elt Ideal)) (x4 : (⟨S524288, .i32⟩ : BufTy).Contents (Elt Ideal)) (x5 : (⟨S512x256, .f32⟩ : BufTy).Contents (Elt Ideal)) (x6 : (⟨S512, .f32⟩ : BufTy).Contents (Elt Ideal)) (x7 : (⟨S256x512, .f32⟩ : BufTy).Contents (Elt Ideal)) (x8 : (⟨S256, .f32⟩ : BufTy).Contents (Elt Ideal)) (x9 : (⟨S1024x256, .f32⟩ : BufTy).Contents (Elt Ideal)) (x10 : (⟨S1024, .f32⟩ : BufTy).Contents (Elt Ideal)) (x11 : (⟨S1024x256, .f32⟩ : BufTy).Contents (Elt Ideal)) (x12 : (⟨S1024, .f32⟩ : BufTy).Contents (Elt Ideal)) (x13 : (⟨S128x256, .f32⟩ : BufTy).Contents (Elt Ideal)) (x14 : (⟨S128, .f32⟩ : BufTy).Contents (Elt Ideal)) (x15 : (⟨S256x256, .f32⟩ : BufTy).Contents (Elt Ideal)) (x16 : (⟨S256, .f32⟩ : BufTy).Contents (Elt Ideal)) (x17 : (⟨S128x256, .f32⟩ : BufTy).Contents (Elt Ideal)) (x18 : (⟨S128, .f32⟩ : BufTy).Contents (Elt Ideal)) (n : Fin 524288) (j : Fin 128) :
    val_main_v82 (F := Ideal) x0 x1 x2 x3 x4 x5 x6 x7 x8 x9 x10 x11 x12 x13 x14 x15 x16 x17 x18 (ix2 n j) = lin (rowOf (val_main_v77 (F := Ideal) x0 x1 x2 x3 x4 x5 x6 x7 x8 x9 x10 x11 x12 x13 x14 x15 x16) n) (wOf x17) (bOf x18) j := by
  rw [val_main_v82_apply, val_main_v79_apply, val_main_v81_apply, val_main_v80_apply]
  unfold lin
  refine congrArg₂ (· + ·) (Finset.sum_congr rfl fun k _ => ?_) (congrArg x18 (idx1_ext _ _ rfl))
  rw [val_main_v78_apply]
  exact congrArg₂ (· * ·) (congrArg (val_main_v77 (F := Ideal) x0 x1 x2 x3 x4 x5 x6 x7 x8 x9 x10 x11 x12 x13 x14 x15 x16) (idx2_ext _ _ rfl rfl)) (congrArg x17 (idx2_ext _ _ rfl rfl))

/-- The reference's edge features are the two-layer perceptron of each edge's gathered features. -/
theorem ef_eq (x0 : (⟨S65536x256, .f32⟩ : BufTy).Contents (Elt Ideal)) (x1 : (⟨S65536x256, .f32⟩ : BufTy).Contents (Elt Ideal)) (x2 : (⟨S65536x256, .f32⟩ : BufTy).Contents (Elt Ideal)) (x3 : (⟨S524288, .i32⟩ : BufTy).Contents (Elt Ideal)) (x4 : (⟨S524288, .i32⟩ : BufTy).Contents (Elt Ideal)) (x5 : (⟨S512x256, .f32⟩ : BufTy).Contents (Elt Ideal)) (x6 : (⟨S512, .f32⟩ : BufTy).Contents (Elt Ideal)) (x7 : (⟨S256x512, .f32⟩ : BufTy).Contents (Elt Ideal)) (x8 : (⟨S256, .f32⟩ : BufTy).Contents (Elt Ideal)) (x9 : (⟨S1024x256, .f32⟩ : BufTy).Contents (Elt Ideal)) (x10 : (⟨S1024, .f32⟩ : BufTy).Contents (Elt Ideal)) (x11 : (⟨S1024x256, .f32⟩ : BufTy).Contents (Elt Ideal)) (x12 : (⟨S1024, .f32⟩ : BufTy).Contents (Elt Ideal)) (x13 : (⟨S128x256, .f32⟩ : BufTy).Contents (Elt Ideal)) (x14 : (⟨S128, .f32⟩ : BufTy).Contents (Elt Ideal)) (x15 : (⟨S256x256, .f32⟩ : BufTy).Contents (Elt Ideal)) (x16 : (⟨S256, .f32⟩ : BufTy).Contents (Elt Ideal)) (x17 : (⟨S128x256, .f32⟩ : BufTy).Contents (Elt Ideal)) (x18 : (⟨S128, .f32⟩ : BufTy).Contents (Elt Ideal)) :
    val_main_v82 (F := Ideal) x0 x1 x2 x3 x4 x5 x6 x7 x8 x9 x10 x11 x12 x13 x14 x15 x16 x17 x18
      = edgeEF (val_main_v70 (F := Ideal) x0 x1 x2 x3 x4 x5 x6 x7 x8 x9 x10 x11 x12 x13 x14) (wOf x15) (bOf x16) (wOf x17) (bOf x18) := by
  funext i
  obtain ⟨n, j, rfl⟩ : ∃ (n : Fin 524288) (j : Fin 128), i = ix2 n j := ⟨i 0, i 1, eq_ix2 i⟩
  refine (v82_at x0 x1 x2 x3 x4 x5 x6 x7 x8 x9 x10 x11 x12 x13 x14 x15 x16 x17 x18 n j).trans ?_
  rw [v77_row]
  have h : rowOf (val_main_v75 (F := Ideal) x0 x1 x2 x3 x4 x5 x6 x7 x8 x9 x10 x11 x12 x13 x14 x15 x16) n = lin (rowOf (val_main_v70 (F := Ideal) x0 x1 x2 x3 x4 x5 x6 x7 x8 x9 x10 x11 x12 x13 x14) n) (wOf x15) (bOf x16) :=
    funext fun k => v75_at x0 x1 x2 x3 x4 x5 x6 x7 x8 x9 x10 x11 x12 x13 x14 x15 x16 n k
  rw [h]
  rfl

/-- Row `n` of the node update's input: the node's 128 features beside its 128 aggregated messages. -/
theorem v86_row (x0 : (⟨S65536x256, .f32⟩ : BufTy).Contents (Elt Ideal)) (x1 : (⟨S65536x256, .f32⟩ : BufTy).Contents (Elt Ideal)) (x2 : (⟨S65536x256, .f32⟩ : BufTy).Contents (Elt Ideal)) (x3 : (⟨S524288, .i32⟩ : BufTy).Contents (Elt Ideal)) (x4 : (⟨S524288, .i32⟩ : BufTy).Contents (Elt Ideal)) (x5 : (⟨S512x256, .f32⟩ : BufTy).Contents (Elt Ideal)) (x6 : (⟨S512, .f32⟩ : BufTy).Contents (Elt Ideal)) (x7 : (⟨S256x512, .f32⟩ : BufTy).Contents (Elt Ideal)) (x8 : (⟨S256, .f32⟩ : BufTy).Contents (Elt Ideal)) (x9 : (⟨S1024x256, .f32⟩ : BufTy).Contents (Elt Ideal)) (x10 : (⟨S1024, .f32⟩ : BufTy).Contents (Elt Ideal)) (x11 : (⟨S1024x256, .f32⟩ : BufTy).Contents (Elt Ideal)) (x12 : (⟨S1024, .f32⟩ : BufTy).Contents (Elt Ideal)) (x13 : (⟨S128x256, .f32⟩ : BufTy).Contents (Elt Ideal)) (x14 : (⟨S128, .f32⟩ : BufTy).Contents (Elt Ideal)) (x15 : (⟨S256x256, .f32⟩ : BufTy).Contents (Elt Ideal)) (x16 : (⟨S256, .f32⟩ : BufTy).Contents (Elt Ideal)) (x17 : (⟨S128x256, .f32⟩ : BufTy).Contents (Elt Ideal)) (x18 : (⟨S128, .f32⟩ : BufTy).Contents (Elt Ideal)) (n : Fin 65536) :
    rowOf (val_main_v86 (F := Ideal) x0 x1 x2 x3 x4 x5 x6 x7 x8 x9 x10 x11 x12 x13 x14 x15 x16 x17 x18) n
      = cat (rowOf (val_main_v55 (F := Ideal) x0 x1 x2 x5 x6 x7 x8 x9 x10 x11 x12 x13 x14) n) (rowOf (val_main_v85 (F := Ideal) x0 x1 x2 x3 x4 x5 x6 x7 x8 x9 x10 x11 x12 x13 x14 x15 x16 x17 x18) n) := by
  funext k
  show val_main_v86 (F := Ideal) x0 x1 x2 x3 x4 x5 x6 x7 x8 x9 x10 x11 x12 x13 x14 x15 x16 x17 x18 (ix2 n k) = cat (rowOf (val_main_v55 (F := Ideal) x0 x1 x2 x5 x6 x7 x8 x9 x10 x11 x12 x13 x14) n) (rowOf (val_main_v85 (F := Ideal) x0 x1 x2 x3 x4 x5 x6 x7 x8 x9 x10 x11 x12 x13 x14 x15 x16 x17 x18) n) k
  unfold val_main_v86 cat
  by_cases hk : k.val < 128
  · rw [dif_pos hk]
    exact concatenate_pair_apply_left (1 : Fin S65536x256.rank) _ _ concatenates_S65536x128_S65536x128_S65536x256_d1
      (ix2 n k) rfl (ix2 n (⟨k.val, hk⟩ : Fin 128)) (fun b => match b with
        | ⟨0, _⟩ => rfl
        | ⟨1, _⟩ => rfl)
  · rw [dif_neg hk]
    exact concatenate_pair_apply_right (1 : Fin S65536x256.rank) _ _ concatenates_S65536x128_S65536x128_S65536x256_d1
      (ix2 n k) rfl rfl (ix2 n (⟨k.val - 128, by have := k.isLt; omega⟩ : Fin 128))
      (fun b hb => match b, hb with
        | ⟨0, _⟩, _ => rfl
        | ⟨1, _⟩, hb => absurd rfl hb)
      (by show (k.val - 128) + 128 = k.val; omega)

/-- The node update's first affine layer at node `n`, feature `j`. -/
theorem v91_at (x0 : (⟨S65536x256, .f32⟩ : BufTy).Contents (Elt Ideal)) (x1 : (⟨S65536x256, .f32⟩ : BufTy).Contents (Elt Ideal)) (x2 : (⟨S65536x256, .f32⟩ : BufTy).Contents (Elt Ideal)) (x3 : (⟨S524288, .i32⟩ : BufTy).Contents (Elt Ideal)) (x4 : (⟨S524288, .i32⟩ : BufTy).Contents (Elt Ideal)) (x5 : (⟨S512x256, .f32⟩ : BufTy).Contents (Elt Ideal)) (x6 : (⟨S512, .f32⟩ : BufTy).Contents (Elt Ideal)) (x7 : (⟨S256x512, .f32⟩ : BufTy).Contents (Elt Ideal)) (x8 : (⟨S256, .f32⟩ : BufTy).Contents (Elt Ideal)) (x9 : (⟨S1024x256, .f32⟩ : BufTy).Contents (Elt Ideal)) (x10 : (⟨S1024, .f32⟩ : BufTy).Contents (Elt Ideal)) (x11 : (⟨S1024x256, .f32⟩ : BufTy).Contents (Elt Ideal)) (x12 : (⟨S1024, .f32⟩ : BufTy).Contents (Elt Ideal)) (x13 : (⟨S128x256, .f32⟩ : BufTy).Contents (Elt Ideal)) (x14 : (⟨S128, .f32⟩ : BufTy).Contents (Elt Ideal)) (x15 : (⟨S256x256, .f32⟩ : BufTy).Contents (Elt Ideal)) (x16 : (⟨S256, .f32⟩ : BufTy).Contents (Elt Ideal)) (x17 : (⟨S128x256, .f32⟩ : BufTy).Contents (Elt Ideal)) (x18 : (⟨S128, .f32⟩ : BufTy).Contents (Elt Ideal)) (x19 : (⟨S256x256, .f32⟩ : BufTy).Contents (Elt Ideal)) (x20 : (⟨S256, .f32⟩ : BufTy).Contents (Elt Ideal)) (n : Fin 65536) (j : Fin 256) :
    val_main_v91 (F := Ideal) x0 x1 x2 x3 x4 x5 x6 x7 x8 x9 x10 x11 x12 x13 x14 x15 x16 x17 x18 x19 x20 (ix2 n j) = lin (rowOf (val_main_v86 (F := Ideal) x0 x1 x2 x3 x4 x5 x6 x7 x8 x9 x10 x11 x12 x13 x14 x15 x16 x17 x18) n) (wOf x19) (bOf x20) j := by
  rw [val_main_v91_apply, val_main_v88_apply, val_main_v90_apply, val_main_v89_apply]
  unfold lin
  refine congrArg₂ (· + ·) (Finset.sum_congr rfl fun k _ => ?_) (congrArg x20 (idx1_ext _ _ rfl))
  rw [val_main_v87_apply]
  exact congrArg₂ (· * ·) (congrArg (val_main_v86 (F := Ideal) x0 x1 x2 x3 x4 x5 x6 x7 x8 x9 x10 x11 x12 x13 x14 x15 x16 x17 x18) (idx2_ext _ _ rfl rfl)) (congrArg x19 (idx2_ext _ _ rfl rfl))

/-- The rectified first layer of the node update, row `n`. -/
theorem v93_row (x0 : (⟨S65536x256, .f32⟩ : BufTy).Contents (Elt Ideal)) (x1 : (⟨S65536x256, .f32⟩ : BufTy).Contents (Elt Ideal)) (x2 : (⟨S65536x256, .f32⟩ : BufTy).Contents (Elt Ideal)) (x3 : (⟨S524288, .i32⟩ : BufTy).Contents (Elt Ideal)) (x4 : (⟨S524288, .i32⟩ : BufTy).Contents (Elt Ideal)) (x5 : (⟨S512x256, .f32⟩ : BufTy).Contents (Elt Ideal)) (x6 : (⟨S512, .f32⟩ : BufTy).Contents (Elt Ideal)) (x7 : (⟨S256x512, .f32⟩ : BufTy).Contents (Elt Ideal)) (x8 : (⟨S256, .f32⟩ : BufTy).Contents (Elt Ideal)) (x9 : (⟨S1024x256, .f32⟩ : BufTy).Contents (Elt Ideal)) (x10 : (⟨S1024, .f32⟩ : BufTy).Contents (Elt Ideal)) (x11 : (⟨S1024x256, .f32⟩ : BufTy).Contents (Elt Ideal)) (x12 : (⟨S1024, .f32⟩ : BufTy).Contents (Elt Ideal)) (x13 : (⟨S128x256, .f32⟩ : BufTy).Contents (Elt Ideal)) (x14 : (⟨S128, .f32⟩ : BufTy).Contents (Elt Ideal)) (x15 : (⟨S256x256, .f32⟩ : BufTy).Contents (Elt Ideal)) (x16 : (⟨S256, .f32⟩ : BufTy).Contents (Elt Ideal)) (x17 : (⟨S128x256, .f32⟩ : BufTy).Contents (Elt Ideal)) (x18 : (⟨S128, .f32⟩ : BufTy).Contents (Elt Ideal)) (x19 : (⟨S256x256, .f32⟩ : BufTy).Contents (Elt Ideal)) (x20 : (⟨S256, .f32⟩ : BufTy).Contents (Elt Ideal)) (n : Fin 65536) :
    rowOf (val_main_v93 (F := Ideal) x0 x1 x2 x3 x4 x5 x6 x7 x8 x9 x10 x11 x12 x13 x14 x15 x16 x17 x18 x19 x20) n = relu (rowOf (val_main_v91 (F := Ideal) x0 x1 x2 x3 x4 x5 x6 x7 x8 x9 x10 x11 x12 x13 x14 x15 x16 x17 x18 x19 x20) n) := by
  funext k
  show val_main_v93 (F := Ideal) x0 x1 x2 x3 x4 x5 x6 x7 x8 x9 x10 x11 x12 x13 x14 x15 x16 x17 x18 x19 x20 (ix2 n k) = max ((val_main_v91 (F := Ideal) x0 x1 x2 x3 x4 x5 x6 x7 x8 x9 x10 x11 x12 x13 x14 x15 x16 x17 x18 x19 x20) (ix2 n k)) 0
  rw [val_main_v93_apply, val_main_v92_apply, val_main_cst_12_apply]
  exact congrArg₂ max rfl Ideal.ofBits_zero_f32

/-- The node update's second affine layer at node `n`, feature `j`. -/
theorem v98_at (x0 : (⟨S65536x256, .f32⟩ : BufTy).Contents (Elt Ideal)) (x1 : (⟨S65536x256, .f32⟩ : BufTy).Contents (Elt Ideal)) (x2 : (⟨S65536x256, .f32⟩ : BufTy).Contents (Elt Ideal)) (x3 : (⟨S524288, .i32⟩ : BufTy).Contents (Elt Ideal)) (x4 : (⟨S524288, .i32⟩ : BufTy).Contents (Elt Ideal)) (x5 : (⟨S512x256, .f32⟩ : BufTy).Contents (Elt Ideal)) (x6 : (⟨S512, .f32⟩ : BufTy).Contents (Elt Ideal)) (x7 : (⟨S256x512, .f32⟩ : BufTy).Contents (Elt Ideal)) (x8 : (⟨S256, .f32⟩ : BufTy).Contents (Elt Ideal)) (x9 : (⟨S1024x256, .f32⟩ : BufTy).Contents (Elt Ideal)) (x10 : (⟨S1024, .f32⟩ : BufTy).Contents (Elt Ideal)) (x11 : (⟨S1024x256, .f32⟩ : BufTy).Contents (Elt Ideal)) (x12 : (⟨S1024, .f32⟩ : BufTy).Contents (Elt Ideal)) (x13 : (⟨S128x256, .f32⟩ : BufTy).Contents (Elt Ideal)) (x14 : (⟨S128, .f32⟩ : BufTy).Contents (Elt Ideal)) (x15 : (⟨S256x256, .f32⟩ : BufTy).Contents (Elt Ideal)) (x16 : (⟨S256, .f32⟩ : BufTy).Contents (Elt Ideal)) (x17 : (⟨S128x256, .f32⟩ : BufTy).Contents (Elt Ideal)) (x18 : (⟨S128, .f32⟩ : BufTy).Contents (Elt Ideal)) (x19 : (⟨S256x256, .f32⟩ : BufTy).Contents (Elt Ideal)) (x20 : (⟨S256, .f32⟩ : BufTy).Contents (Elt Ideal)) (x21 : (⟨S128x256, .f32⟩ : BufTy).Contents (Elt Ideal)) (x22 : (⟨S128, .f32⟩ : BufTy).Contents (Elt Ideal)) (n : Fin 65536) (j : Fin 128) :
    val_main_v98 (F := Ideal) x0 x1 x2 x3 x4 x5 x6 x7 x8 x9 x10 x11 x12 x13 x14 x15 x16 x17 x18 x19 x20 x21 x22 (ix2 n j) = lin (rowOf (val_main_v93 (F := Ideal) x0 x1 x2 x3 x4 x5 x6 x7 x8 x9 x10 x11 x12 x13 x14 x15 x16 x17 x18 x19 x20) n) (wOf x21) (bOf x22) j := by
  rw [val_main_v98_apply, val_main_v95_apply, val_main_v97_apply, val_main_v96_apply]
  unfold lin
  refine congrArg₂ (· + ·) (Finset.sum_congr rfl fun k _ => ?_) (congrArg x22 (idx1_ext _ _ rfl))
  rw [val_main_v94_apply]
  exact congrArg₂ (· * ·) (congrArg (val_main_v93 (F := Ideal) x0 x1 x2 x3 x4 x5 x6 x7 x8 x9 x10 x11 x12 x13 x14 x15 x16 x17 x18 x19 x20) (idx2_ext _ _ rfl rfl)) (congrArg x21 (idx2_ext _ _ rfl rfl))

/-- The readout's first affine layer at node `n`, feature `j`, of the updated node row. -/
theorem v103_at (x0 : (⟨S65536x256, .f32⟩ : BufTy).Contents (Elt Ideal)) (x1 : (⟨S65536x256, .f32⟩ : BufTy).Contents (Elt Ideal)) (x2 : (⟨S65536x256, .f32⟩ : BufTy).Contents (Elt Ideal)) (x3 : (⟨S524288, .i32⟩ : BufTy).Contents (Elt Ideal)) (x4 : (⟨S524288, .i32⟩ : BufTy).Contents (Elt Ideal)) (x5 : (⟨S512x256, .f32⟩ : BufTy).Contents (Elt Ideal)) (x6 : (⟨S512, .f32⟩ : BufTy).Contents (Elt Ideal)) (x7 : (⟨S256x512, .f32⟩ : BufTy).Contents (Elt Ideal)) (x8 : (⟨S256, .f32⟩ : BufTy).Contents (Elt Ideal)) (x9 : (⟨S1024x256, .f32⟩ : BufTy).Contents (Elt Ideal)) (x10 : (⟨S1024, .f32⟩ : BufTy).Contents (Elt Ideal)) (x11 : (⟨S1024x256, .f32⟩ : BufTy).Contents (Elt Ideal)) (x12 : (⟨S1024, .f32⟩ : BufTy).Contents (Elt Ideal)) (x13 : (⟨S128x256, .f32⟩ : BufTy).Contents (Elt Ideal)) (x14 : (⟨S128, .f32⟩ : BufTy).Contents (Elt Ideal)) (x15 : (⟨S256x256, .f32⟩ : BufTy).Contents (Elt Ideal)) (x16 : (⟨S256, .f32⟩ : BufTy).Contents (Elt Ideal)) (x17 : (⟨S128x256, .f32⟩ : BufTy).Contents (Elt Ideal)) (x18 : (⟨S128, .f32⟩ : BufTy).Contents (Elt Ideal)) (x19 : (⟨S256x256, .f32⟩ : BufTy).Contents (Elt Ideal)) (x20 : (⟨S256, .f32⟩ : BufTy).Contents (Elt Ideal)) (x21 : (⟨S128x256, .f32⟩ : BufTy).Contents (Elt Ideal)) (x22 : (⟨S128, .f32⟩ : BufTy).Contents (Elt Ideal)) (x23 : (⟨S256x128, .f32⟩ : BufTy).Contents (Elt Ideal)) (x24 : (⟨S256, .f32⟩ : BufTy).Contents (Elt Ideal)) (n : Fin 65536) (j : Fin 256) :
    val_main_v103 (F := Ideal) x0 x1 x2 x3 x4 x5 x6 x7 x8 x9 x10 x11 x12 x13 x14 x15 x16 x17 x18 x19 x20 x21 x22 x23 x24 (ix2 n j) = lin (rowOf (val_main_v98 (F := Ideal) x0 x1 x2 x3 x4 x5 x6 x7 x8 x9 x10 x11 x12 x13 x14 x15 x16 x17 x18 x19 x20 x21 x22) n) (wOf x23) (bOf x24) j := by
  rw [val_main_v103_apply, val_main_v100_apply, val_main_v102_apply, val_main_v101_apply]
  unfold lin
  refine congrArg₂ (· + ·) (Finset.sum_congr rfl fun k _ => ?_) (congrArg x24 (idx1_ext _ _ rfl))
  rw [val_main_v99_apply]
  exact congrArg₂ (· * ·) (congrArg (val_main_v98 (F := Ideal) x0 x1 x2 x3 x4 x5 x6 x7 x8 x9 x10 x11 x12 x13 x14 x15 x16 x17 x18 x19 x20 x21 x22) (idx2_ext _ _ rfl rfl)) (congrArg x23 (idx2_ext _ _ rfl rfl))

/-- The rectified first layer of the readout, row `n`. -/
theorem v105_row (x0 : (⟨S65536x256, .f32⟩ : BufTy).Contents (Elt Ideal)) (x1 : (⟨S65536x256, .f32⟩ : BufTy).Contents (Elt Ideal)) (x2 : (⟨S65536x256, .f32⟩ : BufTy).Contents (Elt Ideal)) (x3 : (⟨S524288, .i32⟩ : BufTy).Contents (Elt Ideal)) (x4 : (⟨S524288, .i32⟩ : BufTy).Contents (Elt Ideal)) (x5 : (⟨S512x256, .f32⟩ : BufTy).Contents (Elt Ideal)) (x6 : (⟨S512, .f32⟩ : BufTy).Contents (Elt Ideal)) (x7 : (⟨S256x512, .f32⟩ : BufTy).Contents (Elt Ideal)) (x8 : (⟨S256, .f32⟩ : BufTy).Contents (Elt Ideal)) (x9 : (⟨S1024x256, .f32⟩ : BufTy).Contents (Elt Ideal)) (x10 : (⟨S1024, .f32⟩ : BufTy).Contents (Elt Ideal)) (x11 : (⟨S1024x256, .f32⟩ : BufTy).Contents (Elt Ideal)) (x12 : (⟨S1024, .f32⟩ : BufTy).Contents (Elt Ideal)) (x13 : (⟨S128x256, .f32⟩ : BufTy).Contents (Elt Ideal)) (x14 : (⟨S128, .f32⟩ : BufTy).Contents (Elt Ideal)) (x15 : (⟨S256x256, .f32⟩ : BufTy).Contents (Elt Ideal)) (x16 : (⟨S256, .f32⟩ : BufTy).Contents (Elt Ideal)) (x17 : (⟨S128x256, .f32⟩ : BufTy).Contents (Elt Ideal)) (x18 : (⟨S128, .f32⟩ : BufTy).Contents (Elt Ideal)) (x19 : (⟨S256x256, .f32⟩ : BufTy).Contents (Elt Ideal)) (x20 : (⟨S256, .f32⟩ : BufTy).Contents (Elt Ideal)) (x21 : (⟨S128x256, .f32⟩ : BufTy).Contents (Elt Ideal)) (x22 : (⟨S128, .f32⟩ : BufTy).Contents (Elt Ideal)) (x23 : (⟨S256x128, .f32⟩ : BufTy).Contents (Elt Ideal)) (x24 : (⟨S256, .f32⟩ : BufTy).Contents (Elt Ideal)) (n : Fin 65536) :
    rowOf (val_main_v105 (F := Ideal) x0 x1 x2 x3 x4 x5 x6 x7 x8 x9 x10 x11 x12 x13 x14 x15 x16 x17 x18 x19 x20 x21 x22 x23 x24) n = relu (rowOf (val_main_v103 (F := Ideal) x0 x1 x2 x3 x4 x5 x6 x7 x8 x9 x10 x11 x12 x13 x14 x15 x16 x17 x18 x19 x20 x21 x22 x23 x24) n) := by
  funext k
  show val_main_v105 (F := Ideal) x0 x1 x2 x3 x4 x5 x6 x7 x8 x9 x10 x11 x12 x13 x14 x15 x16 x17 x18 x19 x20 x21 x22 x23 x24 (ix2 n k) = max ((val_main_v103 (F := Ideal) x0 x1 x2 x3 x4 x5 x6 x7 x8 x9 x10 x11 x12 x13 x14 x15 x16 x17 x18 x19 x20 x21 x22 x23 x24) (ix2 n k)) 0
  rw [val_main_v105_apply, val_main_v104_apply, val_main_cst_13_apply]
  exact congrArg₂ max rfl Ideal.ofBits_zero_f32

/-- The readout's second affine layer at node `n`, logit `j`. -/
theorem v110_at (x0 : (⟨S65536x256, .f32⟩ : BufTy).Contents (Elt Ideal)) (x1 : (⟨S65536x256, .f32⟩ : BufTy).Contents (Elt Ideal)) (x2 : (⟨S65536x256, .f32⟩ : BufTy).Contents (Elt Ideal)) (x3 : (⟨S524288, .i32⟩ : BufTy).Contents (Elt Ideal)) (x4 : (⟨S524288, .i32⟩ : BufTy).Contents (Elt Ideal)) (x5 : (⟨S512x256, .f32⟩ : BufTy).Contents (Elt Ideal)) (x6 : (⟨S512, .f32⟩ : BufTy).Contents (Elt Ideal)) (x7 : (⟨S256x512, .f32⟩ : BufTy).Contents (Elt Ideal)) (x8 : (⟨S256, .f32⟩ : BufTy).Contents (Elt Ideal)) (x9 : (⟨S1024x256, .f32⟩ : BufTy).Contents (Elt Ideal)) (x10 : (⟨S1024, .f32⟩ : BufTy).Contents (Elt Ideal)) (x11 : (⟨S1024x256, .f32⟩ : BufTy).Contents (Elt Ideal)) (x12 : (⟨S1024, .f32⟩ : BufTy).Contents (Elt Ideal)) (x13 : (⟨S128x256, .f32⟩ : BufTy).Contents (Elt Ideal)) (x14 : (⟨S128, .f32⟩ : BufTy).Contents (Elt Ideal)) (x15 : (⟨S256x256, .f32⟩ : BufTy).Contents (Elt Ideal)) (x16 : (⟨S256, .f32⟩ : BufTy).Contents (Elt Ideal)) (x17 : (⟨S128x256, .f32⟩ : BufTy).Contents (Elt Ideal)) (x18 : (⟨S128, .f32⟩ : BufTy).Contents (Elt Ideal)) (x19 : (⟨S256x256, .f32⟩ : BufTy).Contents (Elt Ideal)) (x20 : (⟨S256, .f32⟩ : BufTy).Contents (Elt Ideal)) (x21 : (⟨S128x256, .f32⟩ : BufTy).Contents (Elt Ideal)) (x22 : (⟨S128, .f32⟩ : BufTy).Contents (Elt Ideal)) (x23 : (⟨S256x128, .f32⟩ : BufTy).Contents (Elt Ideal)) (x24 : (⟨S256, .f32⟩ : BufTy).Contents (Elt Ideal)) (x25 : (⟨S8x256, .f32⟩ : BufTy).Contents (Elt Ideal)) (x26 : (⟨S8, .f32⟩ : BufTy).Contents (Elt Ideal)) (n : Fin 65536) (j : Fin 8) :
    val_main_v110 (F := Ideal) x0 x1 x2 x3 x4 x5 x6 x7 x8 x9 x10 x11 x12 x13 x14 x15 x16 x17 x18 x19 x20 x21 x22 x23 x24 x25 x26 (ix2 n j) = lin (rowOf (val_main_v105 (F := Ideal) x0 x1 x2 x3 x4 x5 x6 x7 x8 x9 x10 x11 x12 x13 x14 x15 x16 x17 x18 x19 x20 x21 x22 x23 x24) n) (wOf x25) (bOf x26) j := by
  rw [val_main_v110_apply, val_main_v107_apply, val_main_v109_apply, val_main_v108_apply]
  unfold lin
  refine congrArg₂ (· + ·) (Finset.sum_congr rfl fun k _ => ?_) (congrArg x26 (idx1_ext _ _ rfl))
  rw [val_main_v106_apply]
  exact congrArg₂ (· * ·) (congrArg (val_main_v105 (F := Ideal) x0 x1 x2 x3 x4 x5 x6 x7 x8 x9 x10 x11 x12 x13 x14 x15 x16 x17 x18 x19 x20 x21 x22 x23 x24) (idx2_ext _ _ rfl rfl)) (congrArg x25 (idx2_ext _ _ rfl rfl))

/-- The reference's logits are the node update followed by the readout, of the node features beside the aggregated
    messages. -/
theorem logits_eq (x0 : (⟨S65536x256, .f32⟩ : BufTy).Contents (Elt Ideal)) (x1 : (⟨S65536x256, .f32⟩ : BufTy).Contents (Elt Ideal)) (x2 : (⟨S65536x256, .f32⟩ : BufTy).Contents (Elt Ideal)) (x3 : (⟨S524288, .i32⟩ : BufTy).Contents (Elt Ideal)) (x4 : (⟨S524288, .i32⟩ : BufTy).Contents (Elt Ideal)) (x5 : (⟨S512x256, .f32⟩ : BufTy).Contents (Elt Ideal)) (x6 : (⟨S512, .f32⟩ : BufTy).Contents (Elt Ideal)) (x7 : (⟨S256x512, .f32⟩ : BufTy).Contents (Elt Ideal)) (x8 : (⟨S256, .f32⟩ : BufTy).Contents (Elt Ideal)) (x9 : (⟨S1024x256, .f32⟩ : BufTy).Contents (Elt Ideal)) (x10 : (⟨S1024, .f32⟩ : BufTy).Contents (Elt Ideal)) (x11 : (⟨S1024x256, .f32⟩ : BufTy).Contents (Elt Ideal)) (x12 : (⟨S1024, .f32⟩ : BufTy).Contents (Elt Ideal)) (x13 : (⟨S128x256, .f32⟩ : BufTy).Contents (Elt Ideal)) (x14 : (⟨S128, .f32⟩ : BufTy).Contents (Elt Ideal)) (x15 : (⟨S256x256, .f32⟩ : BufTy).Contents (Elt Ideal)) (x16 : (⟨S256, .f32⟩ : BufTy).Contents (Elt Ideal)) (x17 : (⟨S128x256, .f32⟩ : BufTy).Contents (Elt Ideal)) (x18 : (⟨S128, .f32⟩ : BufTy).Contents (Elt Ideal)) (x19 : (⟨S256x256, .f32⟩ : BufTy).Contents (Elt Ideal)) (x20 : (⟨S256, .f32⟩ : BufTy).Contents (Elt Ideal)) (x21 : (⟨S128x256, .f32⟩ : BufTy).Contents (Elt Ideal)) (x22 : (⟨S128, .f32⟩ : BufTy).Contents (Elt Ideal)) (x23 : (⟨S256x128, .f32⟩ : BufTy).Contents (Elt Ideal)) (x24 : (⟨S256, .f32⟩ : BufTy).Contents (Elt Ideal)) (x25 : (⟨S8x256, .f32⟩ : BufTy).Contents (Elt Ideal)) (x26 : (⟨S8, .f32⟩ : BufTy).Contents (Elt Ideal)) :
    val_main_v110 (F := Ideal) x0 x1 x2 x3 x4 x5 x6 x7 x8 x9 x10 x11 x12 x13 x14 x15 x16 x17 x18 x19 x20 x21 x22 x23 x24 x25 x26
      = updLogits (val_main_v55 (F := Ideal) x0 x1 x2 x5 x6 x7 x8 x9 x10 x11 x12 x13 x14)
          (val_main_v85 (F := Ideal) x0 x1 x2 x3 x4 x5 x6 x7 x8 x9 x10 x11 x12 x13 x14 x15 x16 x17 x18)
          (wOf x19) (bOf x20) (wOf x21) (bOf x22) (wOf x23) (bOf x24) (wOf x25) (bOf x26) := by
  funext i
  obtain ⟨n, j, rfl⟩ : ∃ (n : Fin 65536) (j : Fin 8), i = ix2 n j := ⟨i 0, i 1, eq_ix2 i⟩
  refine (v110_at x0 x1 x2 x3 x4 x5 x6 x7 x8 x9 x10 x11 x12 x13 x14 x15 x16 x17 x18 x19 x20 x21 x22 x23 x24 x25 x26 n j).trans ?_
  have h103 : rowOf (val_main_v103 (F := Ideal) x0 x1 x2 x3 x4 x5 x6 x7 x8 x9 x10 x11 x12 x13 x14 x15 x16 x17 x18 x19 x20 x21 x22 x23 x24) n
      = lin (rowOf (val_main_v98 (F := Ideal) x0 x1 x2 x3 x4 x5 x6 x7 x8 x9 x10 x11 x12 x13 x14 x15 x16 x17 x18 x19 x20 x21 x22) n) (wOf x23) (bOf x24) :=
    funext fun k => v103_at x0 x1 x2 x3 x4 x5 x6 x7 x8 x9 x10 x11 x12 x13 x14 x15 x16 x17 x18 x19 x20 x21 x22 x23 x24 n k
  have h98 : rowOf (val_main_v98 (F := Ideal) x0 x1 x2 x3 x4 x5 x6 x7 x8 x9 x10 x11 x12 x13 x14 x15 x16 x17 x18 x19 x20 x21 x22) n
      = lin (rowOf (val_main_v93 (F := Ideal) x0 x1 x2 x3 x4 x5 x6 x7 x8 x9 x10 x11 x12 x13 x14 x15 x16 x17 x18 x19 x20) n) (wOf x21) (bOf x22) :=
    funext fun k => v98_at x0 x1 x2 x3 x4 x5 x6 x7 x8 x9 x10 x11 x12 x13 x14 x15 x16 x17 x18 x19 x20 x21 x22 n k
  have h91 : rowOf (val_main_v91 (F := Ideal) x0 x1 x2 x3 x4 x5 x6 x7 x8 x9 x10 x11 x12 x13 x14 x15 x16 x17 x18 x19 x20) n
      = lin (rowOf (val_main_v86 (F := Ideal) x0 x1 x2 x3 x4 x5 x6 x7 x8 x9 x10 x11 x12 x13 x14 x15 x16 x17 x18) n) (wOf x19) (bOf x20) :=
    funext fun k => v91_at x0 x1 x2 x3 x4 x5 x6 x7 x8 x9 x10 x11 x12 x13 x14 x15 x16 x17 x18 x19 x20 n k
  rw [v105_row, h103, h98, v93_row, h91, v86_row]
  rfl

end Cert.ReferenceIdeal.RefVal
end
-- ==== Proof.Bridge.lean ====
/-
  The kernel program's results are the reference's stages of the launch memory's argument arrays.

  Region by region, in the program's order.  Each region's output array is, for ANY entry contents, an `ArraySpec`
  function of what the region finds (`NodeVal`, `EdgeVal`, `UpdVal`); what it finds is read off the run (`RunVal`); and the
  same `ArraySpec` function of the raw arguments is the reference's stage (`RefVal`).  Between the regions both programs
  apply the SAME gathers, concatenation and scatter-add to arrays just shown equal, so those operations are carried as
  opaque functions (`einp_ref`, `agg_ref`: the two spellings unfold to one term) and never read.
-/
import proofs.«159683_j88441966559674_1_alg».proof.Proof.RunVal
import proofs.«159683_j88441966559674_1_alg».proof.Proof.RunGlue
import proofs.«159683_j88441966559674_1_alg».proof.Proof.NodeVal
import proofs.«159683_j88441966559674_1_alg».proof.Proof.EdgeVal
import proofs.«159683_j88441966559674_1_alg».proof.Proof.UpdVal
import proofs.«159683_j88441966559674_1_alg».proof.Proof.RefVal
import proofs.«159683_j88441966559674_1_alg».proof.Proof.Gen.ReferenceIdeal.Read

set_option maxRecDepth 16384

noncomputable section

namespace Cert.Bridge

open Idealize.ShloMosaic Idealize.ShloMosaic.TcCoe Idealize.SL.Sem Cert.ArraySpec
open Cert.KernelIdeal Cert.KernelIdeal.Gen Cert.KernelIdeal.RunVal
open Cert.ReferenceIdeal.Read (val_main_v40 val_main_v48 val_main_v55 val_main_v70 val_main_v82 val_main_v85 val_main_v110)

/-- The host's gathers and concatenation of the kernel program, applied to the reference's node features, are the
    reference's own gathered features: the two programs spell one term. -/
theorem einp_ref (x0 x1 x2 : (⟨Cert.ReferenceIdeal.S65536x256, .f32⟩ : BufTy).Contents (Elt Ideal)) (x3 x4 : (⟨Cert.ReferenceIdeal.S524288, .i32⟩ : BufTy).Contents (Elt Ideal)) (x5 : (⟨Cert.ReferenceIdeal.S512x256, .f32⟩ : BufTy).Contents (Elt Ideal)) (x6 : (⟨Cert.ReferenceIdeal.S512, .f32⟩ : BufTy).Contents (Elt Ideal)) (x7 : (⟨Cert.ReferenceIdeal.S256x512, .f32⟩ : BufTy).Contents (Elt Ideal)) (x8 : (⟨Cert.ReferenceIdeal.S256, .f32⟩ : BufTy).Contents (Elt Ideal)) (x9 : (⟨Cert.ReferenceIdeal.S1024x256, .f32⟩ : BufTy).Contents (Elt Ideal)) (x10 : (⟨Cert.ReferenceIdeal.S1024, .f32⟩ : BufTy).Contents (Elt Ideal)) (x11 : (⟨Cert.ReferenceIdeal.S1024x256, .f32⟩ : BufTy).Contents (Elt Ideal)) (x12 : (⟨Cert.ReferenceIdeal.S1024, .f32⟩ : BufTy).Contents (Elt Ideal)) (x13 : (⟨Cert.ReferenceIdeal.S128x256, .f32⟩ : BufTy).Contents (Elt Ideal)) (x14 : (⟨Cert.ReferenceIdeal.S128, .f32⟩ : BufTy).Contents (Elt Ideal)) :
    einpOf (val_main_v55 (F := Ideal) x0 x1 x2 x5 x6 x7 x8 x9 x10 x11 x12 x13 x14) x3 x4 = val_main_v70 (F := Ideal) x0 x1 x2 x3 x4 x5 x6 x7 x8 x9 x10 x11 x12 x13 x14 := rfl

/-- The host's scatter-add of the kernel program, applied to the reference's edge features, is the reference's own
    aggregated messages. -/
theorem agg_ref (x0 x1 x2 : (⟨Cert.ReferenceIdeal.S65536x256, .f32⟩ : BufTy).Contents (Elt Ideal)) (x3 x4 : (⟨Cert.ReferenceIdeal.S524288, .i32⟩ : BufTy).Contents (Elt Ideal)) (x5 : (⟨Cert.ReferenceIdeal.S512x256, .f32⟩ : BufTy).Contents (Elt Ideal)) (x6 : (⟨Cert.ReferenceIdeal.S512, .f32⟩ : BufTy).Contents (Elt Ideal)) (x7 : (⟨Cert.ReferenceIdeal.S256x512, .f32⟩ : BufTy).Contents (Elt Ideal)) (x8 : (⟨Cert.ReferenceIdeal.S256, .f32⟩ : BufTy).Contents (Elt Ideal)) (x9 : (⟨Cert.ReferenceIdeal.S1024x256, .f32⟩ : BufTy).Contents (Elt Ideal)) (x10 : (⟨Cert.ReferenceIdeal.S1024, .f32⟩ : BufTy).Contents (Elt Ideal)) (x11 : (⟨Cert.ReferenceIdeal.S1024x256, .f32⟩ : BufTy).Contents (Elt Ideal)) (x12 : (⟨Cert.ReferenceIdeal.S1024, .f32⟩ : BufTy).Contents (Elt Ideal)) (x13 : (⟨Cert.ReferenceIdeal.S128x256, .f32⟩ : BufTy).Contents (Elt Ideal)) (x14 : (⟨Cert.ReferenceIdeal.S128, .f32⟩ : BufTy).Contents (Elt Ideal)) (x15 : (⟨Cert.ReferenceIdeal.S256x256, .f32⟩ : BufTy).Contents (Elt Ideal)) (x16 : (⟨Cert.ReferenceIdeal.S256, .f32⟩ : BufTy).Contents (Elt Ideal)) (x17 : (⟨Cert.ReferenceIdeal.S128x256, .f32⟩ : BufTy).Contents (Elt Ideal)) (x18 : (⟨Cert.ReferenceIdeal.S128, .f32⟩ : BufTy).Contents (Elt Ideal)) :
    aggOf (val_main_v82 (F := Ideal) x0 x1 x2 x3 x4 x5 x6 x7 x8 x9 x10 x11 x12 x13 x14 x15 x16 x17 x18) x4 = val_main_v85 (F := Ideal) x0 x1 x2 x3 x4 x5 x6 x7 x8 x9 x10 x11 x12 x13 x14 x15 x16 x17 x18 := rfl

/-- Equal operands give equal edge features. -/
theorem edgeEF_congr {e e' : A2 524288 256} {we we' : Fin 256 → Fin 256 → EReal} {be be' : Fin 256 → EReal}
    {we2 we2' : Fin 128 → Fin 256 → EReal} {be2 be2' : Fin 128 → EReal}
    (h0 : e = e') (h1 : we = we') (h2 : be = be') (h3 : we2 = we2') (h4 : be2 = be2') :
    edgeEF e we be we2 be2 = edgeEF e' we' be' we2' be2' := by rw [h0, h1, h2, h3, h4]

/-- Equal operands give equal logits. -/
theorem updLogits_congr {nf nf' agg agg' : A2 65536 128} {wn wn' : Fin 256 → Fin 256 → EReal} {bn bn' : Fin 256 → EReal}
    {wn2 wn2' : Fin 128 → Fin 256 → EReal} {bn2 bn2' : Fin 128 → EReal} {wr wr' : Fin 256 → Fin 128 → EReal}
    {br br' : Fin 256 → EReal} {wr2 wr2' : Fin 8 → Fin 256 → EReal} {br2 br2' : Fin 8 → EReal}
    (h0 : nf = nf') (h1 : agg = agg') (h2 : wn = wn') (h3 : bn = bn') (h4 : wn2 = wn2') (h5 : bn2 = bn2')
    (h6 : wr = wr') (h7 : br = br') (h8 : wr2 = wr2') (h9 : br2 = br2') :
    updLogits nf agg wn bn wn2 bn2 wr br wr2 br2 = updLogits nf' agg' wn' bn' wn2' bn2' wr' br' wr2' br2' := by
  rw [h0, h1, h2, h3, h4, h5, h6, h7, h8, h9]

variable (m : (ℓ : Loc nD τ sig) → Buf (Elt Ideal) ℓ) (ρ : Dev nD → PrngReg) (c : Dev nD)

/-- The node kernel's first output array is the reference's node features. -/
theorem nf_val : (dat0 (V1 m ρ) c).arrAt 13 cfg0.N = val_main_v55 (F := Ideal) (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  rw [NodeVal.final0_nf (V1 m ρ) c, V1_arg0 m ρ c, V1_arg1 m ρ c, V1_arg2 m ρ c, w_V1_v0 m ρ c, b_V1_v11 m ρ c, w_V1_v1 m ρ c,
    b_V1_v12 m ρ c, w_V1_v2 m ρ c, w_V1_v3 m ρ c, b_V1_v13 m ρ c, b_V1_v14 m ρ c, w_V1_v4 m ρ c, b_V1_v15 m ρ c]
  exact (Cert.ReferenceIdeal.RefVal.nf_eq _ _ _ _ _ _ _ _ _ _ _ _ _).symm

/-- Its second is the reference's new hidden states. -/
theorem h1_val : (dat0 (V1 m ρ) c).arrAt 14 cfg0.N = val_main_v48 (F := Ideal) (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  rw [NodeVal.final0_h1 (V1 m ρ) c, V1_arg0 m ρ c, V1_arg1 m ρ c, V1_arg2 m ρ c, w_V1_v0 m ρ c, b_V1_v11 m ρ c, w_V1_v1 m ρ c,
    b_V1_v12 m ρ c, w_V1_v2 m ρ c, w_V1_v3 m ρ c, b_V1_v13 m ρ c, b_V1_v14 m ρ c]
  exact (Cert.ReferenceIdeal.RefVal.h1_eq _ _ _ _ _ _ _ _ _ _ _).symm

/-- Its third is the reference's new cell states. -/
theorem c1_val : (dat0 (V1 m ρ) c).arrAt 15 cfg0.N = val_main_v40 (F := Ideal) (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  rw [NodeVal.final0_c1 (V1 m ρ) c, V1_arg0 m ρ c, V1_arg1 m ρ c, V1_arg2 m ρ c, w_V1_v0 m ρ c, b_V1_v11 m ρ c, w_V1_v1 m ρ c,
    b_V1_v12 m ρ c, w_V1_v2 m ρ c, w_V1_v3 m ρ c, b_V1_v13 m ρ c, b_V1_v14 m ρ c]
  exact (Cert.ReferenceIdeal.RefVal.c1_eq _ _ _ _ _ _ _ _ _ _ _).symm

/-- What the edge kernel finds as its gathered features is the reference's gathered features. -/
theorem einp_val : V3 m ρ c main_v37 = val_main_v70 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) :=
  (V3_v37 m ρ c).trans ((congrArg (fun nf => einpOf nf (m ((c : Thread nD τ).loc main_arg3)) (m ((c : Thread nD τ).loc main_arg4))) (nf_val m ρ c)).trans (einp_ref _ _ _ _ _ _ _ _ _ _ _ _ _ _ _))

/-- The edge kernel's output array is the reference's edge features. -/
theorem ef_val : (dat1 (V3 m ρ) c).arrAt 5 cfg1.N = val_main_v82 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) :=
  (EdgeVal.final1 (V3 m ρ) c).trans
    ((edgeEF_congr (einp_val m ρ c) (w_V3_v5 m ρ c) (b_V3_v16 m ρ c) (w_V3_v6 m ρ c) (b_V3_v17 m ρ c)).trans
      (Cert.ReferenceIdeal.RefVal.ef_eq _ _ _ _ _ _ _ _ _ _ _ _ _ _ _ _ _ _ _).symm)

/-- What the update kernel finds as its aggregated messages is the reference's aggregated messages. -/
theorem agg_val : V5 m ρ c main_v41 = val_main_v85 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) :=
  (V5_v41 m ρ c).trans ((congrArg (fun ef => aggOf ef (m ((c : Thread nD τ).loc main_arg4))) (ef_val m ρ c)).trans (agg_ref _ _ _ _ _ _ _ _ _ _ _ _ _ _ _ _ _ _ _))

/-- The update kernel's output array is the reference's logits. -/
theorem logits_val : (dat2 (V5 m ρ) c).arrAt 10 cfg2.N = val_main_v110 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) :=
  (UpdVal.final2 (V5 m ρ) c).trans
    ((updLogits_congr ((V5_v22_0 m ρ c).trans (nf_val m ρ c)) (agg_val m ρ c) (w_V5_v7 m ρ c) (b_V5_v18 m ρ c) (w_V5_v8 m ρ c)
        (b_V5_v19 m ρ c) (w_V5_v9 m ρ c) (b_V5_v20 m ρ c) (w_V5_v10 m ρ c) (b_V5_v21 m ρ c)).trans
      (Cert.ReferenceIdeal.RefVal.logits_eq _ _ _ _ _ _ _ _ _ _ _ _ _ _ _ _ _ _ _ _ _ _ _ _ _ _ _).symm)

/-- The three results, as the run leaves them. -/
theorem res_logits : W6 m ρ c (Proc.devRef .tc main_v42) = val_main_v110 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) :=
  (W6_v42 m ρ c).trans (logits_val m ρ c)
theorem res_h1 : W6 m ρ c (Proc.devRef .tc main_v22_1) = val_main_v48 (F := Ideal) (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) :=
  (W6_v22_1 m ρ c).trans (h1_val m ρ c)
theorem res_c1 : W6 m ρ c (Proc.devRef .tc main_v22_2) = val_main_v40 (F := Ideal) (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) :=
  (W6_v22_2 m ρ c).trans (c1_val m ρ c)

end Cert.Bridge

end
-- ==== Proof.lean ====
/-
  The certificate of a three-kernel message-passing network against its reference.

  The network: each of 65536 nodes is encoded (two affine layers with a rectifier), passed through one LSTM step and an
  affine layer to 128 node features; each of 524288 edges gathers its two endpoints' features and passes them through a
  two-layer perceptron; the edge features are summed into their destination nodes; each node's features beside its
  aggregated messages pass through the node update and the readout to 8 logits.  The kernel program computes the three
  dense stages in three Pallas kernels over row blocks, with the weights transposed and the matrix products' operands
  rounded to bf16 on the way in; the reference is plain jnp.  On the extended reals a rounding is the identity, a matrix
  product into a zero accumulator is the plain sum over the contracted axis, and the kernel's one-operation logistic is
  the reference's `1 / (1 + e⁻ˣ)` — so both programs compute ONE function, and no step needs a finite input:
  only sums are re-indexed, never redistributed.

  * the frames of the two kernel programs are the generated ones; the reference's frame is its generated run with the
    results dropped;
  * the ideal pass rewrote nothing, so `preserves` is trivial;
  * `algebraic`: the kernel program's run with its results named (`RunVal.run_held`, `Bridge.res_logits` / `res_h1` /
    `res_c1`: each result is the reference's stage of the launch memory's arguments), the reference's generated run, and
    the agreement of the two memories on the arguments.
-/
import proofs.«159683_j88441966559674_1_alg».proof.Defs
import proofs.«159683_j88441966559674_1_alg».proof.Proof.Gen.Kernel
import proofs.«159683_j88441966559674_1_alg».proof.Proof.Gen.Kernel.Skeleton
import proofs.«159683_j88441966559674_1_alg».proof.Proof.Gen.Kernel.Launch
import proofs.«159683_j88441966559674_1_alg».proof.Proof.Gen.Kernel.Points
import proofs.«159683_j88441966559674_1_alg».proof.Proof.Gen.Kernel.Frame
import proofs.«159683_j88441966559674_1_alg».proof.Proof.Gen.KernelIdeal
import proofs.«159683_j88441966559674_1_alg».proof.Proof.Gen.KernelIdeal.Skeleton
import proofs.«159683_j88441966559674_1_alg».proof.Proof.Gen.KernelIdeal.Launch
import proofs.«159683_j88441966559674_1_alg».proof.Proof.Gen.KernelIdeal.Points
import proofs.«159683_j88441966559674_1_alg».proof.Proof.Gen.KernelIdeal.Frame
import proofs.«159683_j88441966559674_1_alg».proof.Proof.Gen.ReferenceIdeal
import proofs.«159683_j88441966559674_1_alg».proof.Proof.Gen.Pre_finite_inputs
import proofs.«159683_j88441966559674_1_alg».proof.Proof.Gen.ReferenceIdeal.Run
import proofs.«159683_j88441966559674_1_alg».proof.Proof.Gen.ReferenceIdeal.Read
import proofs.«159683_j88441966559674_1_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run, the three results dropped. -/
theorem frame_ri : Cert.frame_ReferenceIdeal := fun m ρ _ =>
  (θ_run Cert.ReferenceIdeal.defs _ _).mono (fun _ h c => (h c).2.2.2) (Cert.ReferenceIdeal.Value.run (F := Ideal) m ρ)

set_option maxHeartbeats 2000000 in
/-- Both programs, from memories agreeing on the arguments, end with the logits, the new hidden states and the new cell
    states at the reference's stages of the kernel program's argument arrays. -/
theorem algebraic : Cert.algebraic_KernelIdeal_ReferenceIdeal := by
  intro m ρ m' ρ' _ hagree
  refine ⟨fun c => Cert.ReferenceIdeal.Read.val_main_v110 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)),
    fun c => Cert.ReferenceIdeal.Read.val_main_v48 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)),
    fun c => Cert.ReferenceIdeal.Read.val_main_v40 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)), ?_, ?_⟩
  · refine (θ_run Cert.KernelIdeal.defs _ _).mono (fun r h c => ?_) (Cert.KernelIdeal.RunVal.run_held m ρ)
    exact ⟨(h c _ (Cert.KernelIdeal.Gen.mem_uc Cert.KernelIdeal.main_v42 (by decide))).trans (Cert.Bridge.res_logits m ρ c),
      (h c _ (Cert.KernelIdeal.Gen.mem_uc Cert.KernelIdeal.main_v22_1 (by decide))).trans (Cert.Bridge.res_h1 m ρ c),
      (h c _ (Cert.KernelIdeal.Gen.mem_uc Cert.KernelIdeal.main_v22_2 (by decide))).trans (Cert.Bridge.res_c1 m ρ c),
      (h c _ (Cert.KernelIdeal.Gen.mem_uc Cert.KernelIdeal.main_arg0 (by decide))).trans (Cert.KernelIdeal.Gen.W6_main_arg0 m ρ c),
      (h c _ (Cert.KernelIdeal.Gen.mem_uc Cert.KernelIdeal.main_arg1 (by decide))).trans (Cert.KernelIdeal.Gen.W6_main_arg1 m ρ c),
      (h c _ (Cert.KernelIdeal.Gen.mem_uc Cert.KernelIdeal.main_arg2 (by decide))).trans (Cert.KernelIdeal.Gen.W6_main_arg2 m ρ c),
      (h c _ (Cert.KernelIdeal.Gen.mem_uc Cert.KernelIdeal.main_arg3 (by decide))).trans (Cert.KernelIdeal.Gen.W6_main_arg3 m ρ c),
      (h c _ (Cert.KernelIdeal.Gen.mem_uc Cert.KernelIdeal.main_arg4 (by decide))).trans (Cert.KernelIdeal.Gen.W6_main_arg4 m ρ c),
      (h c _ (Cert.KernelIdeal.Gen.mem_uc Cert.KernelIdeal.main_arg5 (by decide))).trans (Cert.KernelIdeal.Gen.W6_main_arg5 m ρ c),
      (h c _ (Cert.KernelIdeal.Gen.mem_uc Cert.KernelIdeal.main_arg6 (by decide))).trans (Cert.KernelIdeal.Gen.W6_main_arg6 m ρ c),
      (h c _ (Cert.KernelIdeal.Gen.mem_uc Cert.KernelIdeal.main_arg7 (by decide))).trans (Cert.KernelIdeal.Gen.W6_main_arg7 m ρ c),
      (h c _ (Cert.KernelIdeal.Gen.mem_uc Cert.KernelIdeal.main_arg8 (by decide))).trans (Cert.KernelIdeal.Gen.W6_main_arg8 m ρ c),
      (h c _ (Cert.KernelIdeal.Gen.mem_uc Cert.KernelIdeal.main_arg9 (by decide))).trans (Cert.KernelIdeal.Gen.W6_main_arg9 m ρ c),
      (h c _ (Cert.KernelIdeal.Gen.mem_uc Cert.KernelIdeal.main_arg10 (by decide))).trans (Cert.KernelIdeal.Gen.W6_main_arg10 m ρ c),
      (h c _ (Cert.KernelIdeal.Gen.mem_uc Cert.KernelIdeal.main_arg11 (by decide))).trans (Cert.KernelIdeal.Gen.W6_main_arg11 m ρ c),
      (h c _ (Cert.KernelIdeal.Gen.mem_uc Cert.KernelIdeal.main_arg12 (by decide))).trans (Cert.KernelIdeal.Gen.W6_main_arg12 m ρ c),
      (h c _ (Cert.KernelIdeal.Gen.mem_uc Cert.KernelIdeal.main_arg13 (by decide))).trans (Cert.KernelIdeal.Gen.W6_main_arg13 m ρ c),
      (h c _ (Cert.KernelIdeal.Gen.mem_uc Cert.KernelIdeal.main_arg14 (by decide))).trans (Cert.KernelIdeal.Gen.W6_main_arg14 m ρ c),
      (h c _ (Cert.KernelIdeal.Gen.mem_uc Cert.KernelIdeal.main_arg15 (by decide))).trans (Cert.KernelIdeal.Gen.W6_main_arg15 m ρ c),
      (h c _ (Cert.KernelIdeal.Gen.mem_uc Cert.KernelIdeal.main_arg16 (by decide))).trans (Cert.KernelIdeal.Gen.W6_main_arg16 m ρ c),
      (h c _ (Cert.KernelIdeal.Gen.mem_uc Cert.KernelIdeal.main_arg17 (by decide))).trans (Cert.KernelIdeal.Gen.W6_main_arg17 m ρ c),
      (h c _ (Cert.KernelIdeal.Gen.mem_uc Cert.KernelIdeal.main_arg18 (by decide))).trans (Cert.KernelIdeal.Gen.W6_main_arg18 m ρ c),
      (h c _ (Cert.KernelIdeal.Gen.mem_uc Cert.KernelIdeal.main_arg19 (by decide))).trans (Cert.KernelIdeal.Gen.W6_main_arg19 m ρ c),
      (h c _ (Cert.KernelIdeal.Gen.mem_uc Cert.KernelIdeal.main_arg20 (by decide))).trans (Cert.KernelIdeal.Gen.W6_main_arg20 m ρ c),
      (h c _ (Cert.KernelIdeal.Gen.mem_uc Cert.KernelIdeal.main_arg21 (by decide))).trans (Cert.KernelIdeal.Gen.W6_main_arg21 m ρ c),
      (h c _ (Cert.KernelIdeal.Gen.mem_uc Cert.KernelIdeal.main_arg22 (by decide))).trans (Cert.KernelIdeal.Gen.W6_main_arg22 m ρ c),
      (h c _ (Cert.KernelIdeal.Gen.mem_uc Cert.KernelIdeal.main_arg23 (by decide))).trans (Cert.KernelIdeal.Gen.W6_main_arg23 m ρ c),
      (h c _ (Cert.KernelIdeal.Gen.mem_uc Cert.KernelIdeal.main_arg24 (by decide))).trans (Cert.KernelIdeal.Gen.W6_main_arg24 m ρ c),
      (h c _ (Cert.KernelIdeal.Gen.mem_uc Cert.KernelIdeal.main_arg25 (by decide))).trans (Cert.KernelIdeal.Gen.W6_main_arg25 m ρ c),
      (h c _ (Cert.KernelIdeal.Gen.mem_uc Cert.KernelIdeal.main_arg26 (by decide))).trans (Cert.KernelIdeal.Gen.W6_main_arg26 m ρ c)⟩
  · refine (θ_run Cert.ReferenceIdeal.defs _ _).mono (fun r h c => ?_) (Cert.ReferenceIdeal.Value.run (F := Ideal) m' ρ')
    obtain ⟨g0, g1, g2, g3, g4, g5, g6, g7, g8, g9, g10, g11, g12, g13, g14, g15, g16, g17, g18, g19, g20, g21, g22, g23, g24, g25, g26⟩ := hagree c
    refine ⟨(h c).1.trans ?_, (h c).2.1.trans ?_, (h c).2.2.1.trans ?_, (h c).2.2.2⟩
    · rw [Cert.ReferenceIdeal.Read.val_main_v110_eq, g0, g1, g2, g3, g4, g5, g6, g7, g8, g9, g10, g11, g12, g13, g14, g15, g16, g17, g18, g19, g20, g21, g22, g23, g24, g25, g26]
    · rw [Cert.ReferenceIdeal.Read.val_main_v48_eq, g0, g1, g2, g5, g6, g7, g8, g9, g10, g11, g12]
    · rw [Cert.ReferenceIdeal.Read.val_main_v40_eq, g0, g1, g2, g5, g6, g7, g8, g9, g10, g11, g12]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
